-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S8192x1024 .f32) (main_arg1 : FVec F S8192x1024 .f32) (main_arg2 : FVec F S8192x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512x1 : Shape := ⟨2, ![512, 1]⟩
abbrev S512 : Shape := ⟨1, ![512]⟩

abbrev nBuf : Space → Nat
  | .hbm => 18
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S8192x1024, .bf16⟩
  | .hbm, ⟨15, _⟩ => ⟨S8192x1024, .bf16⟩
  | .hbm, ⟨16, _⟩ => ⟨S1x1024, .f32⟩
  | .hbm, ⟨17, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1024x1024, .bf16⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | .local _ .vmem, ⟨22, _⟩ => ⟨S512x1, .f32⟩
  | .local _ .vmem, ⟨23, _⟩ => ⟨S512x1, .f32⟩
  | .local _ .vmem, ⟨24, _⟩ => ⟨S512x1024, .f32⟩
  | .local _ .vmem, ⟨25, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc1_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v39 : BitVec 1 := Scalar.cmpi .eq arg1 c7_i32
  let v40 : BitVec 32 := Scalar.extui v39
  let c0_i32_23 : BitVec 32 := 0#32
  let v41 : BitVec 1 := Scalar.cmpi .ne v40 c0_i32_23
  v41

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  shapeCasts_S512x1024_S512x1024 : S512x1024.ShapeCasts S512x1024
  reduces_S512x1024_S512 : S512x1024.Reduces [1] S512
  shapeCasts_S512_S512x1 : S512.ShapeCasts S512x1
  broadcasts_S512x1_S512x1024 : S512x1.Broadcasts S512x1024
  dot_S512x1024_S1024x1024_S512x1024_1_1_0_0_n_n_wf : DotDims.WF S512x1024 S1024x1024 S512x1024 [1] [1] [0] [0] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .bf16 = 32 ∨ (Rect.block (s := S8192x1024) S512x1024.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .bf16 = 32 ∨ (Rect.block (s := S8192x1024) S512x1024.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .bf16 = 32 ∨ (Rect.block (s := S8192x1024) S1024x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S8192x1024.size a
  hwx1_4 : ∀ i : grid1.Coords, EltTy.bits .bf16 = 32 ∨ (Rect.block (s := S8192x1024) S1024x1024.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1024.size a ≤ S8192x1024.size a
  hwx1_5 : ∀ i : grid1.Coords, EltTy.bits .f32 = 32 ∨ (Rect.block (s := S8192x1024) S512x1024.size (cc1_transform_5 i) (hinb1_5 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S512x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5_0) S1024x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5_1) S1024x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v7) S512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S1024x8192 : Shape := ⟨2, ![1024, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S8192x1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S1024x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1024x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S1024x8192, .f32⟩
  | .hbm, ⟨25, _⟩ => ⟨S8192x8192, .f32⟩
  | .hbm, ⟨26, _⟩ => ⟨S_, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S8192x1, .f32⟩
  | .hbm, ⟨36, _⟩ => ⟨S8192x8192, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x8192, .f32⟩
  | .hbm, ⟨43, _⟩ => ⟨S8192x8192, .f32⟩
  | .hbm, ⟨44, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  transposes_S8192x1024_S1024x8192_1_0 : S8192x1024.Transposes [1, 0] S1024x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x1024_S1024x1024_S8192x1024_1_0_0_1_n_n_wf : DotDims.WF S8192x1024 S1024x1024 S8192x1024 [1] [0] [0] [1] [] []
  dot_S8192x1024_S1024x8192_S8192x8192_1_0_0_1_n_n_wf : DotDims.WF S8192x1024 S1024x8192 S8192x8192 [1] [0] [0] [1] [] []
  dot_S8192x8192_S8192x1024_S8192x1024_1_0_0_1_n_n_wf : DotDims.WF S8192x8192 S8192x1024 S8192x1024 [1] [0] [0] [1] [] []

variable [Facts₀]

def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.K.R0.lean ====
/- The K/V projection region's half of the certificate, at the contents `V` the region is entered with: each window's
   block at a point, what the body leaves in the two output windows' buffers as a function of the six input blocks
   (the projected key block  x·Wkᵀ + bk  and the projected value block  x·Wvᵀ + bv, each rounded to the narrow
   format), the body's triple, the pipeline's proof data and the body obligation at every point. Any `F`. -/
import proofs.«110939_j30666066494217_2_alg».proof.Proof.Gen.Kernel.Launch
import proofs.«110939_j30666066494217_2_alg».proof.Proof.Gen.Kernel.Skeleton
import proofs.«110939_j30666066494217_2_alg».proof.Proof.Gen.Kernel.Points
import proofs.«110939_j30666066494217_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: one structural step per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block
    index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): unfetched, the block
    index has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s (`hA`) and whose body leaves the block in place (`hafter`): unfetched, the block
    index has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s (`hA`) and whose body leaves the block in place (`hafter`): unfetched, the block
    index has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is `V`'s (`hA`) and whose body leaves the block in place (`hafter`): unfetched, the block
    index has not moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S512x1024 := Rect.unit (s := S512x1024) ![0, 0] S512x1024.size inb_S512x1024_S512x1024_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0

/-! ## What the body leaves in each output window's buffer -/

/-- Window 6's buffer after the body, from the key block, the key weights and the key bias row: its one store. -/
def out0_6 (x0 : Vec F S512x1024 .f32) (x2 : Vec F S1024x1024 .bf16) (x3 : Vec F S1x1024 .f32) : Vec F S512x1024 .bf16 :=
  View.canon [⟨r0_0, k0_pay1 (View.ld x0 r0_0) (View.ld x2 r0_1) (View.ld x3 r0_2)⟩]

/-- Window 7's buffer after the body, from the value block, the value weights and the value bias row: its one store. -/
def out0_7 (x1 : Vec F S512x1024 .f32) (x4 : Vec F S1024x1024 .bf16) (x5 : Vec F S1x1024 .f32) : Vec F S512x1024 .bf16 :=
  View.canon [⟨r0_0, k0_pay2 (View.ld x1 r0_0) (View.ld x4 r0_1) (View.ld x5 r0_2)⟩]

/-- The one store is the whole buffer, so it covers it. -/
theorem cover0_6 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

theorem cover0_7 (p0 : Vec F S512x1024 .bf16) (y : S512x1024.Idx) :
    ∃ pc ∈ ([⟨r0_0, p0⟩] : List (View.Piece (Elt F) S512x1024 .bf16)), y ∈ pc.1.set :=
  cover0_6 p0 y

/-! ## The body's triple -/

set_option maxHeartbeats 4000000 in
/-- The body on whole staging memrefs, the six inputs' at read contents `xW` and the two outputs' at anything, runs to
    the continuation holding the inputs' as they were and the outputs' at `out0_6`, `out0_7` of the inputs'. -/
theorem sound_kernel0 (c : Dev nD) (E : Set ℕ) (i : grid0.Coords) (arg1 : Memref sig .tc .vmem S512x1024 .f32) (harg1 : arg1.IsWhole) (arg2 : Memref sig .tc .vmem S512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .bf16) (harg7 : arg7.IsWhole) (arg8 : Memref sig .tc .vmem S512x1024 .bf16) (harg8 : arg8.IsWhole)
    (x0 : Vec F S512x1024 .f32) (x1 : Vec F S512x1024 .f32) (x2 : Vec F S1024x1024 .bf16) (x3 : Vec F S1x1024 .f32) (x4 : Vec F S1024x1024 .bf16) (x5 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x2 x3) ∗ owns (c : Thread nD τ) arg8 fullShare (out0_7 x1 x4 x5)) -∗ K ⟨⟩))
      ⊢ wp frame (wpE (defs₀ (F := F)) Variants.none c none) E (cc0__kv_linear_kernel i arg1 harg1 arg2 harg2 arg3 harg3 arg4 harg4 arg5 harg5 arg6 harg6 arg7 harg7 arg8 harg8) K := by
  simp only [cc0__kv_linear_kernel_eq_skeleton]; unfold cc0__kv_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-! ## The pipeline's proof data -/

/-- The proof data of the pipeline on core `c`: the arrays as the region finds them (`V`); after the body at point
    `t` each input's buffer at its block and each output's at `out0_W` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 2 t) (iblk0 V c 3 t)
    | ⟨7, _⟩ => out0_7 (iblk0 V c 1 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 2 t) (iblk0 V c 3 t) := by dsimp only [dat0]
theorem after0_7 (c : Dev nD) (t : Fin cfg0.N) : (dat0 V c).after 7 t = out0_7 (iblk0 V c 1 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Gen

end
-- ==== Proof.K.R1Runs.lean ====
/-
  Region 1 — the attention call — at the contents `V` its core's buffers hold when the region is entered: the blocks
  its windows stage at a grid point, the two conditions of its body (the first key/value step of a query tile, where
  the running statistics are reset and the scaled query projection is computed; the last step, where the quotient is
  stored), where its output window is idle, and the memrefs the body is called with: the six windows' current staging
  buffers and the four scratch buffers (running maximum, running denominator, running numerator, projected query).
-/
import proofs.«110939_j30666066494217_2_alg».proof.Proof.Gen.Kernel.Launch
import proofs.«110939_j30666066494217_2_alg».proof.Proof.Gen.Kernel.Skeleton
import proofs.«110939_j30666066494217_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions -/

/-- The first key/value step of a query tile: grid coordinate 1 is zero. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)
/-- The last key/value step: grid coordinate 1 is seven. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- At a first step that is not the last the body stores nothing into the output window, and its block is not written back. -/
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
/-- The same at a middle step. -/
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
/-- At a last step the body stores the quotient into the output window. -/
theorem liveAt1_5_C : ∀ t : Fin cfg1.N, ¬cond1_0 (grid1.coords t) → cond1_1 (grid1.coords t) → cfg1.idle 5 (grid1.coords t) = false := by decide +kernel

/-! ## The memrefs the body is called with -/

/-- One staging buffer of the output window, through which its contents are stated. -/
abbrev VO1_5 : View sig .tc .vmem S512x1024 .f32 := (Memref.whole cc1_stg5_0 : Memref sig .tc .vmem S512x1024 .f32).view
abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1024 .f32 := win1_5.stage (cfg1.slots t 5)
abbrev hs1_5 (t : Fin cfg1.N) : (ms1_5 t).IsWhole := hstage1_5 ((cfg1.slots t 5).cast nbuf1_5)
abbrev scM1_0 : Memref sig .tc .vmem S512x1 .f32 := Memref.whole cc1_scratch0
abbrev VS1_0 : View sig .tc .vmem S512x1 .f32 := scM1_0.view
abbrev scM1_1 : Memref sig .tc .vmem S512x1 .f32 := Memref.whole cc1_scratch1
abbrev VS1_1 : View sig .tc .vmem S512x1 .f32 := scM1_1.view
abbrev scM1_2 : Memref sig .tc .vmem S512x1024 .f32 := Memref.whole cc1_scratch2
abbrev VS1_2 : View sig .tc .vmem S512x1024 .f32 := scM1_2.view
abbrev scM1_3 : Memref sig .tc .vmem S512x1024 .bf16 := Memref.whole cc1_scratch3
abbrev VS1_3 : View sig .tc .vmem S512x1024 .bf16 := scM1_3.view

/-- The other call's staging buffers, each whole at some contents: scoped buffers this body never touches. -/
def Other1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f))

/-- What the region hands the body beside the windows: the other call's staging buffers, the four scratch buffers at
    some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.Kernel.Gen

end
-- ==== Proof.K.R1RunA.lean ====
/-
  The attention body at the FIRST key/value step of a query tile that is not the last: the running maximum, denominator
  and numerator are reset, the scaled query projection is computed and kept, and one step of the recurrence is taken.
  The pieces each scratch buffer ends with are found by running the body.
-/
import proofs.«110939_j30666066494217_2_alg».proof.Proof.K.R1Runs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the five inputs at their contents, the output window's buffer (idle here) at contents handed back
    untouched, the four scratch buffers at anything — the body runs to the continuation holding the inputs as they
    were and each scratch buffer with its pieces written. -/
noncomputable def kernelRun1_A (c : Dev nD) (i : grid1.Coords) (arg2 : Memref sig .tc .vmem S512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : cond1_0 i) (hc1 : ¬cond1_1 i)
    (x0 : Vec F S512x1024 .f32) (x1 : Vec F S1024x1024 .bf16) (x2 : Vec F S1x1024 .f32) (x3 : Vec F S1024x1024 .bf16) (x4 : Vec F S1024x1024 .bf16) :
    Σ' (LS0 : List (View.Piece (Elt F) S512x1 .f32)) (LS1 : List (View.Piece (Elt F) S512x1 .f32)) (LS2 : List (View.Piece (Elt F) S512x1024 .f32)), { LS3 : List (View.Piece (Elt F) S512x1024 .bf16) //
      ∀ (xi5 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9 arg10 harg10 arg11 harg11) K } := by
  refine ⟨?_, ?_, ?_, ?_, fun xi5 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

end Cert.Kernel.Gen

end
-- ==== Proof.K.R1RunB.lean ====
/-
  The attention body at a MIDDLE key/value step: one step of the recurrence from the running statistics the step before
  left; the projected query is read, not written.
-/
import proofs.«110939_j30666066494217_2_alg».proof.Proof.K.R1RunA

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the inputs at their contents, the output window's buffer (idle here) handed back untouched, the
    scratch buffers at what the step before left — the body runs to the continuation holding the inputs and the
    projected query as they were and the three running statistics with their pieces written. -/
noncomputable def kernelRun1_B (c : Dev nD) (i : grid1.Coords) (arg2 : Memref sig .tc .vmem S512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : ¬cond1_1 i)
    (x0 : Vec F S512x1024 .f32) (x1 : Vec F S1024x1024 .bf16) (x2 : Vec F S1x1024 .f32) (x3 : Vec F S1024x1024 .bf16) (x4 : Vec F S1024x1024 .bf16) (xs0 : Vec F S512x1 .f32) (xs1 : Vec F S512x1 .f32) (xs2 : Vec F S512x1024 .f32) (xs3 : Vec F S512x1024 .bf16) :
    Σ' (LS0 : List (View.Piece (Elt F) S512x1 .f32)) (LS1 : List (View.Piece (Elt F) S512x1 .f32)), { LS2 : List (View.Piece (Elt F) S512x1024 .f32) //
      ∀ (xi5 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9 arg10 harg10 arg11 harg11) K } := by
  refine ⟨?_, ?_, ?_, fun xi5 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; isplitr; · ipureintro; exact harg11.read_unread _
    iexact HS3

end Cert.Kernel.Gen

end
-- ==== Proof.K.R1RunC.lean ====
/-
  The attention body at the LAST key/value step: one step of the recurrence, then the numerator divided by the
  denominator is stored into the output window.
-/
import proofs.«110939_j30666066494217_2_alg».proof.Proof.K.R1RunB

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the inputs at their contents, the output window's buffer at anything, the scratch buffers at what
    the step before left — the body runs to the continuation holding the inputs and the projected query as they were,
    the running statistics and the output buffer with their pieces written. -/
noncomputable def kernelRun1_C (c : Dev nD) (i : grid1.Coords) (arg2 : Memref sig .tc .vmem S512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : cond1_1 i)
    (x0 : Vec F S512x1024 .f32) (x1 : Vec F S1024x1024 .bf16) (x2 : Vec F S1x1024 .f32) (x3 : Vec F S1024x1024 .bf16) (x4 : Vec F S1024x1024 .bf16) (xs0 : Vec F S512x1 .f32) (xs1 : Vec F S512x1 .f32) (xs2 : Vec F S512x1024 .f32) (xs3 : Vec F S512x1024 .bf16) :
    Σ' (L5 : List (View.Piece (Elt F) S512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    isplitl [HS2]; · iexists _; iexact HS2
    iexists _; isplitr; · ipureintro; exact harg11.read_unread _
    iexact HS3

end Cert.Kernel.Gen

end
-- ==== Proof.K.R1.lean ====
/-
  Region 1 — the attention call — as proof data: what each case of the body leaves in the four scratch buffers and in the
  output window, point by point (the running maximum, denominator and numerator of the online softmax, reset at the first
  key/value step of each query tile and carried to the next step; the projected query computed at the first step and
  kept; the quotient stored at the last step), the invariant that carries the scratch buffers from one point to the
  next, and the body's obligation at every point.
-/
import proofs.«110939_j30666066494217_2_alg».proof.Proof.K.R1RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- The output window's buffer, the running maximum, the running denominator, the running numerator, the projected query. -/
abbrev St1 (F : FTy → Type) [FloatOps F] : Type := Vec F S512x1024 .f32 × Vec F S512x1 .f32 × Vec F S512x1 .f32 × Vec F S512x1024 .f32 × Vec F S512x1024 .bf16

/-- After a first step: the output window untouched (a placeholder nothing reads), the four scratch buffers at their pieces. -/
def caseA1 (c : Dev nD) (t : Fin cfg1.N) (h0 : t.val % 8 = 0) (h1 : ¬t.val % 8 = 7) : St1 F :=
  (VO1_5.read (Elt F) VO1_5.junk, VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)).1), VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)).2.1), VS1_2.read (Elt F) (VS1_2.writes (Elt F) VS1_2.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2.1), VS1_3.read (Elt F) (VS1_3.writes (Elt F) VS1_3.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2.2.1))

/-- After a middle step, from what the step before left (`p`): the projected query kept. -/
def caseB1 (c : Dev nD) (t : Fin cfg1.N) (h0 : ¬t.val % 8 = 0) (h1 : ¬t.val % 8 = 7) (p : St1 F) : St1 F :=
  (VO1_5.read (Elt F) VO1_5.junk, VS1_0.read (Elt F) (VS1_0.writes (Elt F) VS1_0.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2.1 p.2.2.2.2).1), VS1_1.read (Elt F) (VS1_1.writes (Elt F) VS1_1.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2.1 p.2.2.2.2).2.1), VS1_2.read (Elt F) (VS1_2.writes (Elt F) VS1_2.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2.1 p.2.2.2.2).2.2.1), p.2.2.2.2)

/-- After a last step, from what the step before left: the output window at its pieces. -/
def caseC1 (c : Dev nD) (t : Fin cfg1.N) (h0 : ¬t.val % 8 = 0) (h1 : t.val % 8 = 7) (p : St1 F) : St1 F :=
  (VO1_5.read (Elt F) (VO1_5.writes (Elt F) VO1_5.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2.1 p.2.2.2.2).1), VS1_0.read (Elt F) (VS1_0.writes (Elt F) VS1_0.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2.1 p.2.2.2.2).2.1), VS1_1.read (Elt F) (VS1_1.writes (Elt F) VS1_1.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2.1 p.2.2.2.2).2.2.1), VS1_2.read (Elt F) (VS1_2.writes (Elt F) VS1_2.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2.1 p.2.2.2.2).2.2.2.1), p.2.2.2.2)

/-! ## The pieces cover their buffers -/

theorem scoverA_0 (c : Dev nD) (t : Fin cfg1.N) (h0 : t.val % 8 = 0) (h1 : ¬t.val % 8 = 7) (y : S512x1.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)).1, y ∈ pc.1.set :=
  View.cover_of_tiledL (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)).1 S512x1.size (by sl_kernel_rfl) y
theorem scoverA_1 (c : Dev nD) (t : Fin cfg1.N) (h0 : t.val % 8 = 0) (h1 : ¬t.val % 8 = 7) (y : S512x1.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)).2.1, y ∈ pc.1.set :=
  View.cover_of_tiledL (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)).2.1 S512x1.size (by sl_kernel_rfl) y
theorem scoverA_2 (c : Dev nD) (t : Fin cfg1.N) (h0 : t.val % 8 = 0) (h1 : ¬t.val % 8 = 7) (y : S512x1024.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2.1, y ∈ pc.1.set :=
  View.cover_of_tiledL (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2.1 S512x1024.size (by sl_kernel_rfl) y
theorem scoverA_3 (c : Dev nD) (t : Fin cfg1.N) (h0 : t.val % 8 = 0) (h1 : ¬t.val % 8 = 7) (y : S512x1024.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2.2.1, y ∈ pc.1.set :=
  View.cover_of_tiledL (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2.2.1 S512x1024.size (by sl_kernel_rfl) y
theorem scoverB_0 (c : Dev nD) (t : Fin cfg1.N) (h0 : ¬t.val % 8 = 0) (h1 : ¬t.val % 8 = 7) (p : St1 F) (y : S512x1.Idx) :
    ∃ pc ∈ (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2.1 p.2.2.2.2).1, y ∈ pc.1.set :=
  View.cover_of_tiledL (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2.1 p.2.2.2.2).1 S512x1.size (by sl_kernel_rfl) y
theorem scoverB_1 (c : Dev nD) (t : Fin cfg1.N) (h0 : ¬t.val % 8 = 0) (h1 : ¬t.val % 8 = 7) (p : St1 F) (y : S512x1.Idx) :
    ∃ pc ∈ (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2.1 p.2.2.2.2).2.1, y ∈ pc.1.set :=
  View.cover_of_tiledL (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2.1 p.2.2.2.2).2.1 S512x1.size (by sl_kernel_rfl) y
theorem scoverB_2 (c : Dev nD) (t : Fin cfg1.N) (h0 : ¬t.val % 8 = 0) (h1 : ¬t.val % 8 = 7) (p : St1 F) (y : S512x1024.Idx) :
    ∃ pc ∈ (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2.1 p.2.2.2.2).2.2.1, y ∈ pc.1.set :=
  View.cover_of_tiledL (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2.1 p.2.2.2.2).2.2.1 S512x1024.size (by sl_kernel_rfl) y
theorem coverC_5 (c : Dev nD) (t : Fin cfg1.N) (h0 : ¬t.val % 8 = 0) (h1 : t.val % 8 = 7) (p : St1 F) (y : S512x1024.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2.1 p.2.2.2.2).1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2.1 p.2.2.2.2).1 S512x1024.size (by sl_kernel_rfl) y
theorem scoverC_0 (c : Dev nD) (t : Fin cfg1.N) (h0 : ¬t.val % 8 = 0) (h1 : t.val % 8 = 7) (p : St1 F) (y : S512x1.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2.1 p.2.2.2.2).2.1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2.1 p.2.2.2.2).2.1 S512x1.size (by sl_kernel_rfl) y
theorem scoverC_1 (c : Dev nD) (t : Fin cfg1.N) (h0 : ¬t.val % 8 = 0) (h1 : t.val % 8 = 7) (p : St1 F) (y : S512x1.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2.1 p.2.2.2.2).2.2.1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2.1 p.2.2.2.2).2.2.1 S512x1.size (by sl_kernel_rfl) y
theorem scoverC_2 (c : Dev nD) (t : Fin cfg1.N) (h0 : ¬t.val % 8 = 0) (h1 : t.val % 8 = 7) (p : St1 F) (y : S512x1024.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2.1 p.2.2.2.2).2.2.2.1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2.1 p.2.2.2.2).2.2.2.1 S512x1024.size (by sl_kernel_rfl) y

/-! ## What the buffers hold after each point -/

/-- The recursion over the grid's points in order: a first step starts afresh, a middle or last step continues from the
    point before. -/
def outsAt1 (c : Dev nD) : (n : ℕ) → n < cfg1.N → St1 F
  | 0, hn => caseA1 V c ⟨0, hn⟩ (Nat.zero_mod _) (by show ¬(0 % 8 = 7); decide)
  | n + 1, hn =>
    if h0 : (n + 1) % 8 = 0 then
      if h1 : (n + 1) % 8 = 7 then False.elim (by omega)
      else caseA1 V c ⟨n + 1, hn⟩ h0 h1
    else
      if h1 : (n + 1) % 8 = 7 then caseC1 V c ⟨n + 1, hn⟩ h0 h1 (outsAt1 c n (Nat.lt_of_succ_lt hn))
      else caseB1 V c ⟨n + 1, hn⟩ h0 h1 (outsAt1 c n (Nat.lt_of_succ_lt hn))

theorem outsAt1_A (c : Dev nD) (t : Fin cfg1.N) (h0 : t.val % 8 = 0) (h1 : ¬t.val % 8 = 7) :
    outsAt1 V c t.val t.isLt = caseA1 V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = caseB1 V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = caseC1 V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the region's own invariant (every scoped buffer at anything); afterwards the four scratch
    buffers at what the point before left, the other call's staging buffers at anything, the generator register at some
    state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2.1 ∗ owns (c : Thread nD τ) scM1_3 fullShare (outsAt1 V c n hn).2.2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2.1 ∗ owns (c : Thread nD τ) scM1_3 fullShare (outsAt1 V c n hn).2.2.2.2) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2.1 ∗ owns (c : Thread nD τ) scM1_3 fullShare (outsAt1 V c (n - 1) (by omega)).2.2.2.2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: the inputs' memrefs hold their blocks; the point's position among the eight key/value steps
    says which case it is in; the invariant hands the body the scratch buffers at what the point before left (at anything
    at the very first point, and at a first step their contents are not read), and takes them back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · have h1 : ¬t.val % 8 = 7 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
    rw [outsAt1_A V c t h0 h1]
    unfold caseA1; (try dsimp only)
    have hΦ : (dat1 V c).Φ t.castSucc ⊢ (iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) : sProp 𝕄) := by
      rw [← PhiA1_eq]
      by_cases hz : t.val = 0
      · rw [PhiS1_castSucc V c t, PhiS1_zero V c _ _ hz]; try exact Idealize.SL.BI.Entails.refl _
      · rw [PhiS1_castSucc V c t, PhiS1_pos V c _ _ hz, PhiA1_eq]
        iintro ⟨⟨Hq0, Hq1, Hq2, Hq3, Hq4, Hq5, Hq6, Hq7, Hq8, Hq9, Hq10, Hq11, HS0, HS1, HS2, HS3⟩, Hg⟩
        isplitr [Hg]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [HS0]; · iexists _; iexact HS0
          isplitl [HS1]; · iexists _; iexact HS1
          isplitl [HS2]; · iexists _; iexact HS2
          iexists _; iexact HS3
        iexact Hg
    iintro ⟨HP, Ho, ⟨%d0, H0⟩, ⟨%d1, H1⟩, ⟨%d2, H2⟩, ⟨%d3, H3⟩, ⟨%d4, H4⟩, ⟨%d5, H5⟩⟩
    ihave HP' := hΦ $$ HP
    icases HP' with ⟨⟨Hq0, Hq1, Hq2, Hq3, Hq4, Hq5, Hq6, Hq7, Hq8, Hq9, Hq10, Hq11, HS0, HS1, HS2, HS3⟩, Hg⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, ⟨%es0, HS0⟩, ⟨%es1, HS1⟩, ⟨%es2, HS2⟩, ⟨%es3, HS3⟩⟩
    isplitl [Hq0 Hq1 Hq2 Hq3 Hq4 Hq5 Hq6 Hq7 Hq8 Hq9 Hq10 Hq11 HS0 HS1 HS2 HS3 Hg]
    · isplitr [Hg]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [HS0]
        · unfold owns; iexists _; isplitr
          swap; · iexact HS0
          ipureintro; exact View.read_writes_of_cover _ _ _ _ _ (scoverA_0 V c t h0 h1)
        isplitl [HS1]
        · unfold owns; iexists _; isplitr
          swap; · iexact HS1
          ipureintro; exact View.read_writes_of_cover _ _ _ _ _ (scoverA_1 V c t h0 h1)
        isplitl [HS2]
        · unfold owns; iexists _; isplitr
          swap; · iexact HS2
          ipureintro; exact View.read_writes_of_cover _ _ _ _ _ (scoverA_2 V c t h0 h1)
        unfold owns; iexists _; isplitr
        swap; · iexact HS3
        ipureintro; exact View.read_writes_of_cover _ _ _ _ _ (scoverA_3 V c t h0 h1)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun e => h0 (by rw [e])
    by_cases h1 : t.val % 8 = 7
    · -- the last step
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold caseC1; (try dsimp only)
      rw [PhiS1_castSucc V c t, PhiS1_pos V c _ _ hz]
      iintro ⟨⟨⟨Hq0, Hq1, Hq2, Hq3, Hq4, Hq5, Hq6, Hq7, Hq8, Hq9, Hq10, Hq11, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, ⟨%e5, H5⟩, ⟨%es0, HS0⟩, ⟨%es1, HS1⟩, ⟨%es2, HS2⟩, HS3⟩
      isplitl [Hq0 Hq1 Hq2 Hq3 Hq4 Hq5 Hq6 Hq7 Hq8 Hq9 Hq10 Hq11 HS0 HS1 HS2 HS3 Hg]
      · isplitr [Hg]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [HS0]
          · unfold owns; iexists _; isplitr
            swap; · iexact HS0
            ipureintro; exact View.read_writes_of_cover _ _ _ _ _ (scoverC_0 V c t h0 h1 _)
          isplitl [HS1]
          · unfold owns; iexists _; isplitr
            swap; · iexact HS1
            ipureintro; exact View.read_writes_of_cover _ _ _ _ _ (scoverC_1 V c t h0 h1 _)
          isplitl [HS2]
          · unfold owns; iexists _; isplitr
            swap; · iexact HS2
            ipureintro; exact View.read_writes_of_cover _ _ _ _ _ (scoverC_2 V c t h0 h1 _)
          iexact HS3
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC_5 V c t h0 h1 _)
    · -- a middle step
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold caseB1; (try dsimp only)
      rw [PhiS1_castSucc V c t, PhiS1_pos V c _ _ hz]
      iintro ⟨⟨⟨Hq0, Hq1, Hq2, Hq3, Hq4, Hq5, Hq6, Hq7, Hq8, Hq9, Hq10, Hq11, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%es0, HS0⟩, ⟨%es1, HS1⟩, ⟨%es2, HS2⟩, HS3⟩
      isplitl [Hq0 Hq1 Hq2 Hq3 Hq4 Hq5 Hq6 Hq7 Hq8 Hq9 Hq10 Hq11 HS0 HS1 HS2 HS3 Hg]
      · isplitr [Hg]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [HS0]
          · unfold owns; iexists _; isplitr
            swap; · iexact HS0
            ipureintro; exact View.read_writes_of_cover _ _ _ _ _ (scoverB_0 V c t h0 h1 _)
          isplitl [HS1]
          · unfold owns; iexists _; isplitr
            swap; · iexact HS1
            ipureintro; exact View.read_writes_of_cover _ _ _ _ _ (scoverB_1 V c t h0 h1 _)
          isplitl [HS2]
          · unfold owns; iexists _; isplitr
            swap; · iexact HS2
            ipureintro; exact View.read_writes_of_cover _ _ _ _ _ (scoverB_2 V c t h0 h1 _)
          iexact HS3
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation at every point. -/
theorem body_obligation1 (c : Dev nD) : BodyObligation (dat1 (F := F) V c) (defs₀ (F := F)) Variants.none () Set.univ := fun t => by
  rw [bigSep_W1, bigSep_W1]
  exact sound_body1 V c t

/-- What the region hands the body is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the region's own back: the scratch buffers' contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl, PhiS1_pos V c _ _ hne, PhiA1_eq]
  iintro ⟨⟨Hq0, Hq1, Hq2, Hq3, Hq4, Hq5, Hq6, Hq7, Hq8, Hq9, Hq10, Hq11, HS0, HS1, HS2, HS3⟩, Hg⟩
  isplitr [Hg]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [HS0]; · iexists _; iexact HS0
    isplitl [HS1]; · iexists _; iexact HS1
    isplitl [HS2]; · iexists _; iexact HS2
    iexists _; iexact HS3
  iexact Hg

end Region1

end Cert.Kernel.Gen

end
-- ==== Proof.K.Run.lean ====
/-
  The whole program as a run: the buffer contents at each boundary between the host stretches and the two calls (the
  launch memory; after the weight conversions and bias reshapes; after the key/value projection call, whose two result
  arrays hold what its write-backs leave; after the query bias reshape; after the attention call), each call as a
  segment over those contents, and the run itself: every weakly fair execution ends with every unscoped buffer at the
  last boundary's contents — in particular each argument as launched, and the result array at what the attention
  call's write-backs leave.
-/
import proofs.«110939_j30666066494217_2_alg».proof.Proof.K.R0
import proofs.«110939_j30666066494217_2_alg».proof.Proof.K.R1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace Whole

variable (m : (ℓ : Loc nD τ sig) → Buf (Elt F) ℓ) (ρ : Dev nD → PrngReg)

/-! ## The contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## No host operation and no call writes an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- The result array at the end: what the attention call's write-backs leave. -/
theorem W4_main_v7 (c : Dev nD) : W4 m ρ c (Proc.devRef .tc main_v7) = (dat1 (V3 m ρ) c).arrAt 5 cfg1.N := W4_arr m ρ c 5

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The calls as segments -/

set_option backward.isDefEq.respectTransparency.types false in
/-- Region 0 over the thread state: entered with every unscoped buffer at the contents before it, left with the
    region's arrays at what its write-backs leave and every other buffer as entered. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with the
    region's arrays at what its write-backs leave and every other buffer as entered. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    have h := hin1 (V3 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (V3 m ρ) c).Φ (Fin.last _) from rfl]
    have h := hout1 (V3 m ρ) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c)⟩) (run_all m ρ)

end Whole

end Cert.Kernel.Gen

end
-- ==== Proof.KI.R0.lean ====
/- The K/V projection region's half of the certificate, at the contents `V` the region is entered with: each window's
   block at a point, what the body leaves in the two output windows' buffers as a function of the six input blocks
   (the projected key block  x·Wkᵀ + bk  and the projected value block  x·Wvᵀ + bv, each rounded to the narrow
   format), the body's triple, the pipeline's proof data and the body obligation at every point. Any `F`. -/
import proofs.«110939_j30666066494217_2_alg».proof.Proof.Gen.KernelIdeal.Launch
import proofs.«110939_j30666066494217_2_alg».proof.Proof.Gen.KernelIdeal.Skeleton
import proofs.«110939_j30666066494217_2_alg».proof.Proof.Gen.KernelIdeal.Points
import proofs.«110939_j30666066494217_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: one structural step per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block
    index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s (`hA`) and whose body leaves the block in place (`hafter`): unfetched, the block
    index has not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s (`hA`) and whose body leaves the block in place (`hafter`): unfetched, the block
    index has not moved; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s (`hA`) and whose body leaves the block in place (`hafter`): unfetched, the block
    index has not moved; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is `V`'s (`hA`) and whose body leaves the block in place (`hafter`): unfetched, the block
    index has not moved; the window is uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S512x1024 := Rect.unit (s := S512x1024) ![0, 0] S512x1024.size inb_S512x1024_S512x1024_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0

/-! ## What the body leaves in each output window's buffer -/

/-- Window 6's buffer after the body, from the key block, the key weights and the key bias row: its one store. -/
def out0_6 (x0 : Vec F S512x1024 .f32) (x2 : Vec F S1024x1024 .bf16) (x3 : Vec F S1x1024 .f32) : Vec F S512x1024 .bf16 :=
  View.canon [⟨r0_0, k0_pay1 (View.ld x0 r0_0) (View.ld x2 r0_1) (View.ld x3 r0_2)⟩]

/-- Window 7's buffer after the body, from the value block, the value weights and the value bias row: its one store. -/
def out0_7 (x1 : Vec F S512x1024 .f32) (x4 : Vec F S1024x1024 .bf16) (x5 : Vec F S1x1024 .f32) : Vec F S512x1024 .bf16 :=
  View.canon [⟨r0_0, k0_pay2 (View.ld x1 r0_0) (View.ld x4 r0_1) (View.ld x5 r0_2)⟩]

/-- The one store is the whole buffer, so it covers it. -/
theorem cover0_6 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

theorem cover0_7 (p0 : Vec F S512x1024 .bf16) (y : S512x1024.Idx) :
    ∃ pc ∈ ([⟨r0_0, p0⟩] : List (View.Piece (Elt F) S512x1024 .bf16)), y ∈ pc.1.set :=
  cover0_6 p0 y

/-! ## The body's triple -/

set_option maxHeartbeats 4000000 in
/-- The body on whole staging memrefs, the six inputs' at read contents `xW` and the two outputs' at anything, runs to
    the continuation holding the inputs' as they were and the outputs' at `out0_6`, `out0_7` of the inputs'. -/
theorem sound_kernel0 (c : Dev nD) (E : Set ℕ) (i : grid0.Coords) (arg1 : Memref sig .tc .vmem S512x1024 .f32) (harg1 : arg1.IsWhole) (arg2 : Memref sig .tc .vmem S512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S512x1024 .bf16) (harg7 : arg7.IsWhole) (arg8 : Memref sig .tc .vmem S512x1024 .bf16) (harg8 : arg8.IsWhole)
    (x0 : Vec F S512x1024 .f32) (x1 : Vec F S512x1024 .f32) (x2 : Vec F S1024x1024 .bf16) (x3 : Vec F S1x1024 .f32) (x4 : Vec F S1024x1024 .bf16) (x5 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x2 x3) ∗ owns (c : Thread nD τ) arg8 fullShare (out0_7 x1 x4 x5)) -∗ K ⟨⟩))
      ⊢ wp frame (wpE (defs₀ (F := F)) Variants.none c none) E (cc0__kv_linear_kernel i arg1 harg1 arg2 harg2 arg3 harg3 arg4 harg4 arg5 harg5 arg6 harg6 arg7 harg7 arg8 harg8) K := by
  simp only [cc0__kv_linear_kernel_eq_skeleton]; unfold cc0__kv_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-! ## The pipeline's proof data -/

/-- The proof data of the pipeline on core `c`: the arrays as the region finds them (`V`); after the body at point
    `t` each input's buffer at its block and each output's at `out0_W` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 2 t) (iblk0 V c 3 t)
    | ⟨7, _⟩ => out0_7 (iblk0 V c 1 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 2 t) (iblk0 V c 3 t) := by dsimp only [dat0]
theorem after0_7 (c : Dev nD) (t : Fin cfg0.N) : (dat0 V c).after 7 t = out0_7 (iblk0 V c 1 t) (iblk0 V c 4 t) (iblk0 V c 5 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Gen

end
-- ==== Proof.KI.R1Runs.lean ====
/-
  Region 1 — the attention call — at the contents `V` its core's buffers hold when the region is entered: the blocks
  its windows stage at a grid point, the two conditions of its body (the first key/value step of a query tile, where
  the running statistics are reset and the scaled query projection is computed; the last step, where the quotient is
  stored), where its output window is idle, and the memrefs the body is called with: the six windows' current staging
  buffers and the four scratch buffers (running maximum, running denominator, running numerator, projected query).
-/
import proofs.«110939_j30666066494217_2_alg».proof.Proof.Gen.KernelIdeal.Launch
import proofs.«110939_j30666066494217_2_alg».proof.Proof.Gen.KernelIdeal.Skeleton
import proofs.«110939_j30666066494217_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions -/

/-- The first key/value step of a query tile: grid coordinate 1 is zero. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)
/-- The last key/value step: grid coordinate 1 is seven. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- At a first step that is not the last the body stores nothing into the output window, and its block is not written back. -/
theorem idleAt1_5_A : ∀ t : Fin cfg1.N, cond1_0 (grid1.coords t) → ¬cond1_1 (grid1.coords t) → cfg1.idle 5 (grid1.coords t) = true := by decide +kernel
theorem noFlush1_5_A : ∀ t : Fin cfg1.N, cond1_0 (grid1.coords t) → ¬cond1_1 (grid1.coords t) → (cfg1.win 5).flush t = false := by decide +kernel
/-- The same at a middle step. -/
theorem idleAt1_5_B : ∀ t : Fin cfg1.N, ¬cond1_0 (grid1.coords t) → ¬cond1_1 (grid1.coords t) → cfg1.idle 5 (grid1.coords t) = true := by decide +kernel
theorem noFlush1_5_B : ∀ t : Fin cfg1.N, ¬cond1_0 (grid1.coords t) → ¬cond1_1 (grid1.coords t) → (cfg1.win 5).flush t = false := by decide +kernel
/-- At a last step the body stores the quotient into the output window. -/
theorem liveAt1_5_C : ∀ t : Fin cfg1.N, ¬cond1_0 (grid1.coords t) → cond1_1 (grid1.coords t) → cfg1.idle 5 (grid1.coords t) = false := by decide +kernel

/-! ## The memrefs the body is called with -/

/-- One staging buffer of the output window, through which its contents are stated. -/
abbrev VO1_5 : View sig .tc .vmem S512x1024 .f32 := (Memref.whole cc1_stg5_0 : Memref sig .tc .vmem S512x1024 .f32).view
abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1024 .f32 := win1_5.stage (cfg1.slots t 5)
abbrev hs1_5 (t : Fin cfg1.N) : (ms1_5 t).IsWhole := hstage1_5 ((cfg1.slots t 5).cast nbuf1_5)
abbrev scM1_0 : Memref sig .tc .vmem S512x1 .f32 := Memref.whole cc1_scratch0
abbrev VS1_0 : View sig .tc .vmem S512x1 .f32 := scM1_0.view
abbrev scM1_1 : Memref sig .tc .vmem S512x1 .f32 := Memref.whole cc1_scratch1
abbrev VS1_1 : View sig .tc .vmem S512x1 .f32 := scM1_1.view
abbrev scM1_2 : Memref sig .tc .vmem S512x1024 .f32 := Memref.whole cc1_scratch2
abbrev VS1_2 : View sig .tc .vmem S512x1024 .f32 := scM1_2.view
abbrev scM1_3 : Memref sig .tc .vmem S512x1024 .bf16 := Memref.whole cc1_scratch3
abbrev VS1_3 : View sig .tc .vmem S512x1024 .bf16 := scM1_3.view

/-- The other call's staging buffers, each whole at some contents: scoped buffers this body never touches. -/
def Other1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f))

/-- What the region hands the body beside the windows: the other call's staging buffers, the four scratch buffers at
    some contents, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

end Cert.KernelIdeal.Gen

end
-- ==== Proof.KI.R1RunA.lean ====
/-
  The attention body at the FIRST key/value step of a query tile that is not the last: the running maximum, denominator
  and numerator are reset, the scaled query projection is computed and kept, and one step of the recurrence is taken.
  The pieces each scratch buffer ends with are found by running the body.
-/
import proofs.«110939_j30666066494217_2_alg».proof.Proof.KI.R1Runs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the five inputs at their contents, the output window's buffer (idle here) at contents handed back
    untouched, the four scratch buffers at anything — the body runs to the continuation holding the inputs as they
    were and each scratch buffer with its pieces written. -/
noncomputable def kernelRun1_A (c : Dev nD) (i : grid1.Coords) (arg2 : Memref sig .tc .vmem S512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : cond1_0 i) (hc1 : ¬cond1_1 i)
    (x0 : Vec F S512x1024 .f32) (x1 : Vec F S1024x1024 .bf16) (x2 : Vec F S1x1024 .f32) (x3 : Vec F S1024x1024 .bf16) (x4 : Vec F S1024x1024 .bf16) :
    Σ' (LS0 : List (View.Piece (Elt F) S512x1 .f32)) (LS1 : List (View.Piece (Elt F) S512x1 .f32)) (LS2 : List (View.Piece (Elt F) S512x1024 .f32)), { LS3 : List (View.Piece (Elt F) S512x1024 .bf16) //
      ∀ (xi5 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ (∃ f, arg11.view.loc (c : Thread nD τ) ↦[arg11.view.set]{fullShare} arg11.view.writes (Elt F) f LS3)) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9 arg10 harg10 arg11 harg11) K } := by
  refine ⟨?_, ?_, ?_, ?_, fun xi5 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; iexact HS3

end Cert.KernelIdeal.Gen

end
-- ==== Proof.KI.R1RunB.lean ====
/-
  The attention body at a MIDDLE key/value step: one step of the recurrence from the running statistics the step before
  left; the projected query is read, not written.
-/
import proofs.«110939_j30666066494217_2_alg».proof.Proof.KI.R1RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the inputs at their contents, the output window's buffer (idle here) handed back untouched, the
    scratch buffers at what the step before left — the body runs to the continuation holding the inputs and the
    projected query as they were and the three running statistics with their pieces written. -/
noncomputable def kernelRun1_B (c : Dev nD) (i : grid1.Coords) (arg2 : Memref sig .tc .vmem S512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : ¬cond1_1 i)
    (x0 : Vec F S512x1024 .f32) (x1 : Vec F S1024x1024 .bf16) (x2 : Vec F S1x1024 .f32) (x3 : Vec F S1024x1024 .bf16) (x4 : Vec F S1024x1024 .bf16) (xs0 : Vec F S512x1 .f32) (xs1 : Vec F S512x1 .f32) (xs2 : Vec F S512x1024 .f32) (xs3 : Vec F S512x1024 .bf16) :
    Σ' (LS0 : List (View.Piece (Elt F) S512x1 .f32)) (LS1 : List (View.Piece (Elt F) S512x1 .f32)), { LS2 : List (View.Piece (Elt F) S512x1024 .f32) //
      ∀ (xi5 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9 arg10 harg10 arg11 harg11) K } := by
  refine ⟨?_, ?_, ?_, fun xi5 E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    isplitl [HS2]; · iexists _; iexact HS2
    iexists _; isplitr; · ipureintro; exact harg11.read_unread _
    iexact HS3

end Cert.KernelIdeal.Gen

end
-- ==== Proof.KI.R1RunC.lean ====
/-
  The attention body at the LAST key/value step: one step of the recurrence, then the numerator divided by the
  denominator is stored into the output window.
-/
import proofs.«110939_j30666066494217_2_alg».proof.Proof.KI.R1RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole memrefs — the inputs at their contents, the output window's buffer at anything, the scratch buffers at what
    the step before left — the body runs to the continuation holding the inputs and the projected query as they were,
    the running statistics and the output buffer with their pieces written. -/
noncomputable def kernelRun1_C (c : Dev nD) (i : grid1.Coords) (arg2 : Memref sig .tc .vmem S512x1024 .f32) (harg2 : arg2.IsWhole) (arg3 : Memref sig .tc .vmem S1024x1024 .bf16) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole) (arg11 : Memref sig .tc .vmem S512x1024 .bf16) (harg11 : arg11.IsWhole) (hc0 : ¬cond1_0 i) (hc1 : cond1_1 i)
    (x0 : Vec F S512x1024 .f32) (x1 : Vec F S1024x1024 .bf16) (x2 : Vec F S1x1024 .f32) (x3 : Vec F S1024x1024 .bf16) (x4 : Vec F S1024x1024 .bf16) (xs0 : Vec F S512x1 .f32) (xs1 : Vec F S512x1 .f32) (xs2 : Vec F S512x1024 .f32) (xs3 : Vec F S512x1024 .bf16) :
    Σ' (L5 : List (View.Piece (Elt F) S512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1 ∗ owns (c : Thread nD τ) arg10 fullShare xs2 ∗ owns (c : Thread nD τ) arg11 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2) ∗ owns (c : Thread nD τ) arg11 fullShare xs3) -∗ K ⟨⟩))
          ⊢ wp frame (wpE (defs₀ (F := F)) Variants.none c none) E (cc1__flash_kernel i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__flash_kernel_eq_skeleton]; unfold cc1__flash_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hfs0; obtain rfl := harg9.eq_unread hfs1; obtain rfl := harg10.eq_unread hfs2; obtain rfl := harg11.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    isplitl [HS1]; · iexists _; iexact HS1
    isplitl [HS2]; · iexists _; iexact HS2
    iexists _; isplitr; · ipureintro; exact harg11.read_unread _
    iexact HS3

end Cert.KernelIdeal.Gen

end
-- ==== Proof.KI.R1.lean ====
/-
  Region 1 — the attention call — as proof data: what each case of the body leaves in the four scratch buffers and in the
  output window, point by point (the running maximum, denominator and numerator of the online softmax, reset at the first
  key/value step of each query tile and carried to the next step; the projected query computed at the first step and
  kept; the quotient stored at the last step), the invariant that carries the scratch buffers from one point to the
  next, and the body's obligation at every point.
-/
import proofs.«110939_j30666066494217_2_alg».proof.Proof.KI.R1RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- The output window's buffer, the running maximum, the running denominator, the running numerator, the projected query. -/
abbrev St1 (F : FTy → Type) [FloatOps F] : Type := Vec F S512x1024 .f32 × Vec F S512x1 .f32 × Vec F S512x1 .f32 × Vec F S512x1024 .f32 × Vec F S512x1024 .bf16

/-- After a first step: the output window untouched (a placeholder nothing reads), the four scratch buffers at their pieces. -/
def caseA1 (c : Dev nD) (t : Fin cfg1.N) (h0 : t.val % 8 = 0) (h1 : ¬t.val % 8 = 7) : St1 F :=
  (VO1_5.read (Elt F) VO1_5.junk, VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)).1), VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)).2.1), VS1_2.read (Elt F) (VS1_2.writes (Elt F) VS1_2.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2.1), VS1_3.read (Elt F) (VS1_3.writes (Elt F) VS1_3.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2.2.1))

/-- After a middle step, from what the step before left (`p`): the projected query kept. -/
def caseB1 (c : Dev nD) (t : Fin cfg1.N) (h0 : ¬t.val % 8 = 0) (h1 : ¬t.val % 8 = 7) (p : St1 F) : St1 F :=
  (VO1_5.read (Elt F) VO1_5.junk, VS1_0.read (Elt F) (VS1_0.writes (Elt F) VS1_0.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2.1 p.2.2.2.2).1), VS1_1.read (Elt F) (VS1_1.writes (Elt F) VS1_1.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2.1 p.2.2.2.2).2.1), VS1_2.read (Elt F) (VS1_2.writes (Elt F) VS1_2.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2.1 p.2.2.2.2).2.2.1), p.2.2.2.2)

/-- After a last step, from what the step before left: the output window at its pieces. -/
def caseC1 (c : Dev nD) (t : Fin cfg1.N) (h0 : ¬t.val % 8 = 0) (h1 : t.val % 8 = 7) (p : St1 F) : St1 F :=
  (VO1_5.read (Elt F) (VO1_5.writes (Elt F) VO1_5.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2.1 p.2.2.2.2).1), VS1_0.read (Elt F) (VS1_0.writes (Elt F) VS1_0.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2.1 p.2.2.2.2).2.1), VS1_1.read (Elt F) (VS1_1.writes (Elt F) VS1_1.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2.1 p.2.2.2.2).2.2.1), VS1_2.read (Elt F) (VS1_2.writes (Elt F) VS1_2.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2.1 p.2.2.2.2).2.2.2.1), p.2.2.2.2)

/-! ## The pieces cover their buffers -/

theorem scoverA_0 (c : Dev nD) (t : Fin cfg1.N) (h0 : t.val % 8 = 0) (h1 : ¬t.val % 8 = 7) (y : S512x1.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)).1, y ∈ pc.1.set :=
  View.cover_of_tiledL (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)).1 S512x1.size (by sl_kernel_rfl) y
theorem scoverA_1 (c : Dev nD) (t : Fin cfg1.N) (h0 : t.val % 8 = 0) (h1 : ¬t.val % 8 = 7) (y : S512x1.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)).2.1, y ∈ pc.1.set :=
  View.cover_of_tiledL (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)).2.1 S512x1.size (by sl_kernel_rfl) y
theorem scoverA_2 (c : Dev nD) (t : Fin cfg1.N) (h0 : t.val % 8 = 0) (h1 : ¬t.val % 8 = 7) (y : S512x1024.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2.1, y ∈ pc.1.set :=
  View.cover_of_tiledL (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2.1 S512x1024.size (by sl_kernel_rfl) y
theorem scoverA_3 (c : Dev nD) (t : Fin cfg1.N) (h0 : t.val % 8 = 0) (h1 : ¬t.val % 8 = 7) (y : S512x1024.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2.2.1, y ∈ pc.1.set :=
  View.cover_of_tiledL (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2.2.1 S512x1024.size (by sl_kernel_rfl) y
theorem scoverB_0 (c : Dev nD) (t : Fin cfg1.N) (h0 : ¬t.val % 8 = 0) (h1 : ¬t.val % 8 = 7) (p : St1 F) (y : S512x1.Idx) :
    ∃ pc ∈ (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2.1 p.2.2.2.2).1, y ∈ pc.1.set :=
  View.cover_of_tiledL (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2.1 p.2.2.2.2).1 S512x1.size (by sl_kernel_rfl) y
theorem scoverB_1 (c : Dev nD) (t : Fin cfg1.N) (h0 : ¬t.val % 8 = 0) (h1 : ¬t.val % 8 = 7) (p : St1 F) (y : S512x1.Idx) :
    ∃ pc ∈ (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2.1 p.2.2.2.2).2.1, y ∈ pc.1.set :=
  View.cover_of_tiledL (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2.1 p.2.2.2.2).2.1 S512x1.size (by sl_kernel_rfl) y
theorem scoverB_2 (c : Dev nD) (t : Fin cfg1.N) (h0 : ¬t.val % 8 = 0) (h1 : ¬t.val % 8 = 7) (p : St1 F) (y : S512x1024.Idx) :
    ∃ pc ∈ (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2.1 p.2.2.2.2).2.2.1, y ∈ pc.1.set :=
  View.cover_of_tiledL (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) p.2.1 p.2.2.1 p.2.2.2.1 p.2.2.2.2).2.2.1 S512x1024.size (by sl_kernel_rfl) y
theorem coverC_5 (c : Dev nD) (t : Fin cfg1.N) (h0 : ¬t.val % 8 = 0) (h1 : t.val % 8 = 7) (p : St1 F) (y : S512x1024.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2.1 p.2.2.2.2).1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2.1 p.2.2.2.2).1 S512x1024.size (by sl_kernel_rfl) y
theorem scoverC_0 (c : Dev nD) (t : Fin cfg1.N) (h0 : ¬t.val % 8 = 0) (h1 : t.val % 8 = 7) (p : St1 F) (y : S512x1.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2.1 p.2.2.2.2).2.1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2.1 p.2.2.2.2).2.1 S512x1.size (by sl_kernel_rfl) y
theorem scoverC_1 (c : Dev nD) (t : Fin cfg1.N) (h0 : ¬t.val % 8 = 0) (h1 : t.val % 8 = 7) (p : St1 F) (y : S512x1.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2.1 p.2.2.2.2).2.2.1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2.1 p.2.2.2.2).2.2.1 S512x1.size (by sl_kernel_rfl) y
theorem scoverC_2 (c : Dev nD) (t : Fin cfg1.N) (h0 : ¬t.val % 8 = 0) (h1 : t.val % 8 = 7) (p : St1 F) (y : S512x1024.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2.1 p.2.2.2.2).2.2.2.1, y ∈ pc.1.set :=
  View.cover_of_tiledL (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) p.2.1 p.2.2.1 p.2.2.2.1 p.2.2.2.2).2.2.2.1 S512x1024.size (by sl_kernel_rfl) y

/-! ## What the buffers hold after each point -/

/-- The recursion over the grid's points in order: a first step starts afresh, a middle or last step continues from the
    point before. -/
def outsAt1 (c : Dev nD) : (n : ℕ) → n < cfg1.N → St1 F
  | 0, hn => caseA1 V c ⟨0, hn⟩ (Nat.zero_mod _) (by show ¬(0 % 8 = 7); decide)
  | n + 1, hn =>
    if h0 : (n + 1) % 8 = 0 then
      if h1 : (n + 1) % 8 = 7 then False.elim (by omega)
      else caseA1 V c ⟨n + 1, hn⟩ h0 h1
    else
      if h1 : (n + 1) % 8 = 7 then caseC1 V c ⟨n + 1, hn⟩ h0 h1 (outsAt1 c n (Nat.lt_of_succ_lt hn))
      else caseB1 V c ⟨n + 1, hn⟩ h0 h1 (outsAt1 c n (Nat.lt_of_succ_lt hn))

theorem outsAt1_A (c : Dev nD) (t : Fin cfg1.N) (h0 : t.val % 8 = 0) (h1 : ¬t.val % 8 = 7) :
    outsAt1 V c t.val t.isLt = caseA1 V c t h0 h1 := by
  obtain ⟨n, hn⟩ := t
  cases n with
  | zero => exact rfl
  | succ n => exact (dif_pos h0).trans ((dif_neg h1).trans rfl)

theorem outsAt1_B (c : Dev nD) (t : Fin cfg1.N) (h0 : ¬t.val % 8 = 0) (h1 : ¬t.val % 8 = 7) :
    outsAt1 V c t.val t.isLt = caseB1 V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = caseC1 V c t h0 h1 (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before the first point the region's own invariant (every scoped buffer at anything); afterwards the four scratch
    buffers at what the point before left, the other call's staging buffers at anything, the generator register at some
    state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2.1 ∗ owns (c : Thread nD τ) scM1_3 fullShare (outsAt1 V c n hn).2.2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2.1 ∗ owns (c : Thread nD τ) scM1_3 fullShare (outsAt1 V c n hn).2.2.2.2) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2.1 ∗ owns (c : Thread nD τ) scM1_3 fullShare (outsAt1 V c (n - 1) (by omega)).2.2.2.2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: the inputs' memrefs hold their blocks; the point's position among the eight key/value steps
    says which case it is in; the invariant hands the body the scratch buffers at what the point before left (at anything
    at the very first point, and at a first step their contents are not read), and takes them back at this point's. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  by_cases h0 : t.val % 8 = 0
  · have h1 : ¬t.val % 8 = 7 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
    rw [outsAt1_A V c t h0 h1]
    unfold caseA1; (try dsimp only)
    have hΦ : (dat1 V c).Φ t.castSucc ⊢ (iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) : sProp 𝕄) := by
      rw [← PhiA1_eq]
      by_cases hz : t.val = 0
      · rw [PhiS1_castSucc V c t, PhiS1_zero V c _ _ hz]; try exact Idealize.SL.BI.Entails.refl _
      · rw [PhiS1_castSucc V c t, PhiS1_pos V c _ _ hz, PhiA1_eq]
        iintro ⟨⟨Hq0, Hq1, Hq2, Hq3, Hq4, Hq5, Hq6, Hq7, Hq8, Hq9, Hq10, Hq11, HS0, HS1, HS2, HS3⟩, Hg⟩
        isplitr [Hg]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [HS0]; · iexists _; iexact HS0
          isplitl [HS1]; · iexists _; iexact HS1
          isplitl [HS2]; · iexists _; iexact HS2
          iexists _; iexact HS3
        iexact Hg
    iintro ⟨HP, Ho, ⟨%d0, H0⟩, ⟨%d1, H1⟩, ⟨%d2, H2⟩, ⟨%d3, H3⟩, ⟨%d4, H4⟩, ⟨%d5, H5⟩⟩
    ihave HP' := hΦ $$ HP
    icases HP' with ⟨⟨Hq0, Hq1, Hq2, Hq3, Hq4, Hq5, Hq6, Hq7, Hq8, Hq9, Hq10, Hq11, HS0, HS1, HS2, HS3⟩, Hg⟩
    iapply ((kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) ((hcond1_0 t).mpr h0) (fun h => h1 ((hcond1_1 t).mp h)) (iblk1 V c 0 t) (iblk1 V c 1 t) (iblk1 V c 2 t) (iblk1 V c 3 t) (iblk1 V c 4 t)).2.2.2.2 _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iintro ⟨H0, H1, H2, H3, H4, H5, ⟨%es0, HS0⟩, ⟨%es1, HS1⟩, ⟨%es2, HS2⟩, ⟨%es3, HS3⟩⟩
    isplitl [Hq0 Hq1 Hq2 Hq3 Hq4 Hq5 Hq6 Hq7 Hq8 Hq9 Hq10 Hq11 HS0 HS1 HS2 HS3 Hg]
    · isplitr [Hg]
      · isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [HS0]
        · unfold owns; iexists _; isplitr
          swap; · iexact HS0
          ipureintro; exact View.read_writes_of_cover _ _ _ _ _ (scoverA_0 V c t h0 h1)
        isplitl [HS1]
        · unfold owns; iexists _; isplitr
          swap; · iexact HS1
          ipureintro; exact View.read_writes_of_cover _ _ _ _ _ (scoverA_1 V c t h0 h1)
        isplitl [HS2]
        · unfold owns; iexists _; isplitr
          swap; · iexact HS2
          ipureintro; exact View.read_writes_of_cover _ _ _ _ _ (scoverA_2 V c t h0 h1)
        unfold owns; iexists _; isplitr
        swap; · iexact HS3
        ipureintro; exact View.read_writes_of_cover _ _ _ _ _ (scoverA_3 V c t h0 h1)
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hz : t.val ≠ 0 := fun e => h0 (by rw [e])
    by_cases h1 : t.val % 8 = 7
    · -- the last step
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold caseC1; (try dsimp only)
      rw [PhiS1_castSucc V c t, PhiS1_pos V c _ _ hz]
      iintro ⟨⟨⟨Hq0, Hq1, Hq2, Hq3, Hq4, Hq5, Hq6, Hq7, Hq8, Hq9, Hq10, Hq11, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      iintro ⟨H0, H1, H2, H3, H4, ⟨%e5, H5⟩, ⟨%es0, HS0⟩, ⟨%es1, HS1⟩, ⟨%es2, HS2⟩, HS3⟩
      isplitl [Hq0 Hq1 Hq2 Hq3 Hq4 Hq5 Hq6 Hq7 Hq8 Hq9 Hq10 Hq11 HS0 HS1 HS2 HS3 Hg]
      · isplitr [Hg]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [HS0]
          · unfold owns; iexists _; isplitr
            swap; · iexact HS0
            ipureintro; exact View.read_writes_of_cover _ _ _ _ _ (scoverC_0 V c t h0 h1 _)
          isplitl [HS1]
          · unfold owns; iexists _; isplitr
            swap; · iexact HS1
            ipureintro; exact View.read_writes_of_cover _ _ _ _ _ (scoverC_1 V c t h0 h1 _)
          isplitl [HS2]
          · unfold owns; iexists _; isplitr
            swap; · iexact HS2
            ipureintro; exact View.read_writes_of_cover _ _ _ _ _ (scoverC_2 V c t h0 h1 _)
          iexact HS3
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC_5 V c t h0 h1 _)
    · -- a middle step
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t], after1_4]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold caseB1; (try dsimp only)
      rw [PhiS1_castSucc V c t, PhiS1_pos V c _ _ hz]
      iintro ⟨⟨⟨Hq0, Hq1, Hq2, Hq3, Hq4, Hq5, Hq6, Hq7, Hq8, Hq9, Hq10, Hq11, HS0, HS1, HS2, HS3⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) scM1_3 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2.1 (outsAt1 V c (t.val - 1) (Nat.lt_of_le_of_lt (Nat.sub_le _ _) t.isLt)).2.2.2.2).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      isplitl [HS3]; · iexact HS3
      iintro ⟨H0, H1, H2, H3, H4, H5, ⟨%es0, HS0⟩, ⟨%es1, HS1⟩, ⟨%es2, HS2⟩, HS3⟩
      isplitl [Hq0 Hq1 Hq2 Hq3 Hq4 Hq5 Hq6 Hq7 Hq8 Hq9 Hq10 Hq11 HS0 HS1 HS2 HS3 Hg]
      · isplitr [Hg]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [HS0]
          · unfold owns; iexists _; isplitr
            swap; · iexact HS0
            ipureintro; exact View.read_writes_of_cover _ _ _ _ _ (scoverB_0 V c t h0 h1 _)
          isplitl [HS1]
          · unfold owns; iexists _; isplitr
            swap; · iexact HS1
            ipureintro; exact View.read_writes_of_cover _ _ _ _ _ (scoverB_1 V c t h0 h1 _)
          isplitl [HS2]
          · unfold owns; iexists _; isplitr
            swap; · iexact HS2
            ipureintro; exact View.read_writes_of_cover _ _ _ _ _ (scoverB_2 V c t h0 h1 _)
          iexact HS3
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation at every point. -/
theorem body_obligation1 (c : Dev nD) : BodyObligation (dat1 (F := F) V c) (defs₀ (F := F)) Variants.none () Set.univ := fun t => by
  rw [bigSep_W1, bigSep_W1]
  exact sound_body1 V c t

/-- What the region hands the body is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the region's own back: the scratch buffers' contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 128 := N_1; omega
  rw [show (dat1 V c).Φ (Fin.last cfg1.N) = PhiS1 V c (Fin.last cfg1.N).val (Nat.le_of_lt_succ (Fin.last cfg1.N).isLt) from rfl, PhiS1_pos V c _ _ hne, PhiA1_eq]
  iintro ⟨⟨Hq0, Hq1, Hq2, Hq3, Hq4, Hq5, Hq6, Hq7, Hq8, Hq9, Hq10, Hq11, HS0, HS1, HS2, HS3⟩, Hg⟩
  isplitr [Hg]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [HS0]; · iexists _; iexact HS0
    isplitl [HS1]; · iexists _; iexact HS1
    isplitl [HS2]; · iexists _; iexact HS2
    iexists _; iexact HS3
  iexact Hg

end Region1

end Cert.KernelIdeal.Gen

end
-- ==== Proof.KI.Run.lean ====
/-
  The whole program as a run: the buffer contents at each boundary between the host stretches and the two calls (the
  launch memory; after the weight conversions and bias reshapes; after the key/value projection call, whose two result
  arrays hold what its write-backs leave; after the query bias reshape; after the attention call), each call as a
  segment over those contents, and the run itself: every weakly fair execution ends with every unscoped buffer at the
  last boundary's contents — in particular each argument as launched, and the result array at what the attention
  call's write-backs leave.
-/
import proofs.«110939_j30666066494217_2_alg».proof.Proof.KI.R0
import proofs.«110939_j30666066494217_2_alg».proof.Proof.KI.R1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace Whole

variable (m : (ℓ : Loc nD τ sig) → Buf (Elt F) ℓ) (ρ : Dev nD → PrngReg)

/-! ## The contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## No host operation and no call writes an argument -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 0).trans (((dat0 (V1 m ρ) c).arrAt_in 0 rfl _).trans (A_eq0 (V1 m ρ) c 0))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- The result array at the end: what the attention call's write-backs leave. -/
theorem W4_main_v7 (c : Dev nD) : W4 m ρ c (Proc.devRef .tc main_v7) = (dat1 (V3 m ρ) c).arrAt 5 cfg1.N := W4_arr m ρ c 5

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The calls as segments -/

set_option backward.isDefEq.respectTransparency.types false in
/-- Region 0 over the thread state: entered with every unscoped buffer at the contents before it, left with the
    region's arrays at what its write-backs leave and every other buffer as entered. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with the
    region's arrays at what its write-backs leave and every other buffer as entered. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    have h := hin1 (V3 m ρ) c
    unfold Pipeline.ΦA at h
    iintro ⟨Hp, -, Hr⟩
    iapply h
    isplitl [Hr]; · iexact Hr
    iexact Hp
  hout c := by
    rw [Pipeline.ownSems0_none, show (pdats m ρ 1 c).Φ (Fin.last _) = (dat1 (V3 m ρ) c).Φ (Fin.last _) from rfl]
    have h := hout1 (V3 m ρ) c
    unfold Pipeline.ΦA at h
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of the program from memory `m` with zero counters terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c)⟩) (run_all m ρ)

end Whole

end Cert.KernelIdeal.Gen

end
-- ==== Proof.Frames.lean ====
/-
  The frame claims: each of the three programs runs to the end, faults nowhere and leaves its argument arrays as
  launched — the two kernel programs by the run over their two calls, the reference by its run read back — and the
  idealization claim, which has no entry to state.
-/
import proofs.«110939_j30666066494217_2_alg».proof.Defs
import proofs.«110939_j30666066494217_2_alg».proof.Proof.K.Run
import proofs.«110939_j30666066494217_2_alg».proof.Proof.KI.Run
import proofs.«110939_j30666066494217_2_alg».proof.Proof.Gen.ReferenceIdeal.Run
import proofs.«110939_j30666066494217_2_alg».proof.Proof.Gen.Pre_finite_inputs
import proofs.«110939_j30666066494217_2_alg».proof.Proof.Gen.ReferenceIdeal

noncomputable section

namespace Cert.Proof.Frames

open Idealize.ShloMosaic Idealize.ShloMosaic.TcCoe Idealize.SL.Sem

theorem frame_k : Cert.frame_Kernel := fun m ρ _ => Cert.Kernel.Gen.Whole.frame (F := Bits) m ρ
theorem frame_ki : Cert.frame_KernelIdeal := fun m ρ _ => Cert.KernelIdeal.Gen.Whole.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

end Cert.Proof.Frames

end
-- ==== Proof.LibRowDot.lean ====
/-
  A matrix product against a row-major weight, read at an index.

  The dimension numbers of an [a, c] × [b, c] → [a, b] product contract axis 1 of BOTH operands and have no batch
  axis: the right operand is a stack of b rows of length c, and result entry (p, q) is the inner product of the left
  operand's row p with the right operand's row q. At result index (p, q) and contraction position k the left operand
  is read at (p, k) and the right operand at (q, k), so the sum over the contraction shape's one-axis index set is
  the sum over k : Fin c of lhs (p, k) * rhs (q, k) — in any commutative additive monoid with a product, the
  extended reals included. The statement is over variable extents; a printed record with these six lists is this
  one by reflexivity.
-/
import Idealize.ShloMosaic.Lib.ValueIdx
import Idealize.ShloMosaic.PureOps.Ideal.Laws

noncomputable section

namespace Cert.Lib.RowDot

open Idealize.ShloMosaic Idealize.ShloMosaic.ValueIdx
open scoped BigOperators

variable {a c b : Nat}

/-- The dimension numbers of the product [a, c] × [b, c] → [a, b] that contracts the second axis of both. -/
abbrev dims (wf : DotDims.WF ⟨2, ![a, c]⟩ ⟨2, ![b, c]⟩ ⟨2, ![a, b]⟩ [1] [1] [0] [0] [] []) :
    DotDims ⟨2, ![a, c]⟩ ⟨2, ![b, c]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, c]⟩ ⟨2, ![b, c]⟩ ⟨2, ![a, b]⟩ [1] [1] [0] [0] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the result's column. -/
theorem rhs_row (i : (⟨2, ![a, b]⟩ : Shape).Idx) (k : (dims wf).contr.Idx) :
    ((dims wf).rhsIdx i k 0).val = (i 1).val := by
  unfold DotDims.rhsIdx
  rw [dif_neg (show ¬(0 : Fin 2) ∈ (dims wf).rhsBatch from List.not_mem_nil),
    dif_pos (show (0 : Fin 2) ∈ (dims wf).rhsNonContracting from List.mem_singleton.mpr rfl)]
  rfl

/-- The right operand's column is the contraction position. -/
theorem rhs_col (i : (⟨2, ![a, b]⟩ : Shape).Idx) (k : (dims wf).contr.Idx) :
    ((dims wf).rhsIdx i k 1).val = (k ⟨0, Nat.one_pos⟩).val :=
  (dims wf).rhsIdx_val_of_single rfl i k

/-- The product's sum at (p, q): over k, the left operand at (p, k) times the right operand at (q, k). -/
theorem sum_apply {M : Type*} [AddCommMonoid M] [Mul M] (lhs : (⟨2, ![a, c]⟩ : Shape).Idx → M)
    (rhs : (⟨2, ![b, c]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 q k) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 q k :=
    funext fun ax => Fin.ext (by
      match ax with
      | ⟨0, _⟩ => exact rhs_row wf _ _
      | ⟨1, _⟩ => exact (rhs_col wf _ _).trans hk)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![b, c]⟩ φ₂) (p : Fin a) (q : Fin b) :
    matmul (dims wf) prec lhs rhs (constant ⟨2, ![a, b]⟩ .f32 0x00000000#32) (ix2 p q)
      = ∑ k : Fin c, lhs (ix2 p k) * rhs (ix2 q k) :=
  (Ideal.matmul_constant_zero_apply (dims wf) prec lhs rhs (ix2 p q)).trans (sum_apply wf lhs rhs p q)

end Cert.Lib.RowDot

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.KI.R0Value.lean ====
/- What the two output arrays of the K/V projection region hold after it, as whole-array functions of the contents `V`
   the region is entered with, read at an index, on exact values: entry (r, k) of the projected keys is the inner
   product of row r of the key input with row k of the key weights plus the key bias at k, and the same for the values.
   Each grid point t stores rows 512·t … 512·t + 511; the sixteen blocks tile the 8192 rows. -/
import proofs.«110939_j30666066494217_2_alg».proof.Proof.KI.R0
import proofs.«110939_j30666066494217_2_alg».proof.Proof.LibRowDot
import proofs.«110939_j30666066494217_2_alg».proof.Proof.LibRowBroadcasts
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.R0Value

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-! ## The projection as one function of three arrays -/

/-- Entry (r, k): row r of `A` against row k of `Wt`, plus `b` at k. -/
def projAt (A : S8192x1024.Idx → EReal) (Wt : S1024x1024.Idx → EReal) (b : S1x1024.Idx → EReal) (r : Fin 8192) (k : Fin 1024) : EReal :=
  (∑ d : Fin 1024, A (ix2 r d) * Wt (ix2 k d)) + b (ix2 (0 : Fin 1) k)

/-- The projected array, index by index. -/
def projArr (A : S8192x1024.Idx → EReal) (Wt : S1024x1024.Idx → EReal) (b : S1x1024.Idx → EReal) : S8192x1024.Idx → EReal :=
  fun i => projAt A Wt b ⟨(i 0).val, idx2_lt0 i⟩ ⟨(i 1).val, idx2_lt1 i⟩

/-- `projAt` spelt out. -/
theorem projAt_def (A : S8192x1024.Idx → EReal) (Wt : S1024x1024.Idx → EReal) (b : S1x1024.Idx → EReal) (r : Fin 8192) (k : Fin 1024) :
    projAt A Wt b r k = (∑ d : Fin 1024, A (ix2 r d) * Wt (ix2 k d)) + b (ix2 (0 : Fin 1) k) := rfl

theorem projArr_apply (A : S8192x1024.Idx → EReal) (Wt : S1024x1024.Idx → EReal) (b : S1x1024.Idx → EReal) (r : Fin 8192) (k : Fin 1024) :
    projArr A Wt b (ix2 r k) = projAt A Wt b r k := rfl

/-! ## The stored block at an index -/

/-- The dimension numbers contract the second axis of both operands. -/
theorem dims_eq : dot_S512x1024_S1024x1024_S512x1024_1_1_0_0_n_n = Cert.Lib.RowDot.dims (a := 512) (c := 1024) (b := 1024) Gen.dot_S512x1024_S1024x1024_S512x1024_1_1_0_0_n_n_wf := rfl

/-- The product into the zero accumulator at (p, q): row p of the left operand against row q of the right. -/
theorem proj_apply {φ₁ φ₂ : FTy} (x : FVec Ideal S512x1024 φ₁) (w : FVec Ideal S1024x1024 φ₂) (p : Fin 512) (q : Fin 1024) :
    matmul dot_S512x1024_S1024x1024_S512x1024_1_1_0_0_n_n none x w (constant (F := Ideal) S512x1024 .f32 0x00000000#32) (ix2 p q)
      = ∑ d : Fin 1024, x (ix2 p d) * w (ix2 q d) := by
  rw [dims_eq]
  exact Cert.Lib.RowDot.matmul_zero_apply (a := 512) (c := 1024) (b := 1024) Gen.dot_S512x1024_S1024x1024_S512x1024_1_1_0_0_n_n_wf none x w p q

/-- The stored block at (p, q): row p of the block against row q of the weights, plus the bias at q. The narrowing
    of the format is the identity on exact values, the casts to the same shape are the identity, the accumulator is
    zero and the bias row is repeated down the rows. -/
theorem k0_pay1_apply (x : Vec Ideal S512x1024 .f32) (w : Vec Ideal S1024x1024 .bf16) (bb : Vec Ideal S1x1024 .f32)
    (p : Fin 512) (q : Fin 1024) :
    k0_pay1 (F := Ideal) x w bb (ix2 p q) = (∑ d : Fin 1024, x (ix2 p d) * w (ix2 q d)) + bb (ix2 (0 : Fin 1) q) := by
  unfold k0_pay1
  simp only [shapeCast_self]
  have h1 := proj_apply (φ₁ := .bf16) (φ₂ := .bf16) (truncf .bf16 x bitsLt_bf16_f32) w p q
  have h2 := Cert.Lib.Rows.bcastRow_apply (a := 512) (b := 1024) bb broadcasts_S1x1024_S512x1024 p q
  exact congrArg₂ (fun (u v : EReal) => u + v) h1 h2

/-- The stored block at (p, q): row p of the block against row q of the weights, plus the bias at q. The narrowing
    of the format is the identity on exact values, the casts to the same shape are the identity, the accumulator is
    zero and the bias row is repeated down the rows. -/
theorem k0_pay2_apply (x : Vec Ideal S512x1024 .f32) (w : Vec Ideal S1024x1024 .bf16) (bb : Vec Ideal S1x1024 .f32)
    (p : Fin 512) (q : Fin 1024) :
    k0_pay2 (F := Ideal) x w bb (ix2 p q) = (∑ d : Fin 1024, x (ix2 p d) * w (ix2 q d)) + bb (ix2 (0 : Fin 1) q) := by
  unfold k0_pay2
  simp only [shapeCast_self]
  have h1 := proj_apply (φ₁ := .bf16) (φ₂ := .bf16) (truncf .bf16 x bitsLt_bf16_f32) w p q
  have h2 := Cert.Lib.Rows.bcastRow_apply (a := 512) (b := 1024) bb broadcasts_S1x1024_S512x1024 p q
  exact congrArg₂ (fun (u v : EReal) => u + v) h1 h2

/-- One entry of the stored block is the whole-array projection at the array index it is written to, when the block's
    row is that index's row of the left array and the weight and bias are read whole. -/
theorem block_value_6 (A : S8192x1024.Idx → EReal) (Wt : S1024x1024.Idx → EReal) (b : S1x1024.Idx → EReal)
    (x : Vec Ideal S512x1024 .f32) (w : Vec Ideal S1024x1024 .bf16) (bb : Vec Ideal S1x1024 .f32)
    (i : S8192x1024.Idx) (p : Fin 512) (q : Fin 1024)
    (hx : ∀ d : Fin 1024, x (ix2 p d) = A (ix2 (⟨(i 0).val, idx2_lt0 i⟩ : Fin 8192) d))
    (hw : ∀ d : Fin 1024, w (ix2 q d) = Wt (ix2 (⟨(i 1).val, idx2_lt1 i⟩ : Fin 1024) d))
    (hb : bb (ix2 (0 : Fin 1) q) = b (ix2 (0 : Fin 1) (⟨(i 1).val, idx2_lt1 i⟩ : Fin 1024))) :
    k0_pay1 (F := Ideal) x w bb (ix2 p q) = projArr A Wt b i := by
  refine (k0_pay1_apply x w bb p q).trans ?_
  unfold projArr projAt
  refine congrArg₂ (· + ·) (Finset.sum_congr rfl fun d _ => ?_) hb
  rw [hx d, hw d]

/-- One entry of the stored block is the whole-array projection at the array index it is written to, when the block's
    row is that index's row of the left array and the weight and bias are read whole. -/
theorem block_value_7 (A : S8192x1024.Idx → EReal) (Wt : S1024x1024.Idx → EReal) (b : S1x1024.Idx → EReal)
    (x : Vec Ideal S512x1024 .f32) (w : Vec Ideal S1024x1024 .bf16) (bb : Vec Ideal S1x1024 .f32)
    (i : S8192x1024.Idx) (p : Fin 512) (q : Fin 1024)
    (hx : ∀ d : Fin 1024, x (ix2 p d) = A (ix2 (⟨(i 0).val, idx2_lt0 i⟩ : Fin 8192) d))
    (hw : ∀ d : Fin 1024, w (ix2 q d) = Wt (ix2 (⟨(i 1).val, idx2_lt1 i⟩ : Fin 1024) d))
    (hb : bb (ix2 (0 : Fin 1) q) = b (ix2 (0 : Fin 1) (⟨(i 1).val, idx2_lt1 i⟩ : Fin 1024))) :
    k0_pay2 (F := Ideal) x w bb (ix2 p q) = projArr A Wt b i := by
  refine (k0_pay2_apply x w bb p q).trans ?_
  unfold projArr projAt
  refine congrArg₂ (· + ·) (Finset.sum_congr rfl fun d _ => ?_) hb
  rw [hx d, hw d]

/-! ## The windows' blocks as parts of their arrays -/

theorem hz : (![0, 0] : Fin 2 → Nat) = fun _ => 0 := funext fun a => by fin_cases a <;> rfl

/-- The printed index maps, decided over the sixteen points: the two row-blocked inputs and the two outputs are at
    block (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The weights and bias rows are at block (0, 0) at every point. -/
theorem idx_zero_2 : ∀ t : Fin cfg0.N, win0_2.index t (0 : Fin 2) = 0 ∧ win0_2.index t (1 : Fin 2) = 0 :=
  (by decide +kernel : ∀ t : Fin grid0.N, _)
theorem idx_zero_3 : ∀ t : Fin cfg0.N, win0_3.index t (0 : Fin 2) = 0 ∧ win0_3.index t (1 : Fin 2) = 0 :=
  (by decide +kernel : ∀ t : Fin grid0.N, _)
theorem idx_zero_4 : ∀ t : Fin cfg0.N, win0_4.index t (0 : Fin 2) = 0 ∧ win0_4.index t (1 : Fin 2) = 0 :=
  (by decide +kernel : ∀ t : Fin grid0.N, _)
theorem idx_zero_5 : ∀ t : Fin cfg0.N, win0_5.index t (0 : Fin 2) = 0 ∧ win0_5.index t (1 : Fin 2) = 0 :=
  (by decide +kernel : ∀ t : Fin grid0.N, _)

section Blocks
variable {F : FTy → Type} [FloatOps F]
variable (V : (c : Dev nD) → (b : Ref sig .tc) → Buf (Elt F) ((c : Thread nD τ).loc b))

/-- Input window 0's block at point `t` is rows 512·t … 512·t + 511 of its array. -/
theorem iblk_rows_0 (c : Dev nD) (t : Fin cfg0.N) (p : Fin 512) (d : Fin 1024) (r : Fin 8192) (hr : r.val = t.val * 512 + p.val) :
    (iblk0 V c 0 t : Vec F S512x1024 .f32) (ix2 p d) = (V c main_arg1 : S8192x1024.Idx → Elt F .f32) (ix2 r d) := by
  obtain ⟨e0, e1, e2, e3, e4, e5, e6, e7⟩ := idx_facts t
  unfold iblk0
  rw [View.read_apply]
  show V c main_arg1 _ = V c main_arg1 _
  refine congrArg (V c main_arg1) (funext fun a => Fin.ext ?_)
  match a with
  | ⟨0, _⟩ => show win0_0.index t (0 : Fin 2) * 512 + 1 * p.val = r.val; rw [e0, hr]; omega
  | ⟨1, _⟩ => show win0_0.index t (1 : Fin 2) * 1024 + 1 * d.val = d.val; rw [e1]; omega

/-- Input window 1's block at point `t` is rows 512·t … 512·t + 511 of its array. -/
theorem iblk_rows_1 (c : Dev nD) (t : Fin cfg0.N) (p : Fin 512) (d : Fin 1024) (r : Fin 8192) (hr : r.val = t.val * 512 + p.val) :
    (iblk0 V c 1 t : Vec F S512x1024 .f32) (ix2 p d) = (V c main_arg2 : S8192x1024.Idx → Elt F .f32) (ix2 r d) := by
  obtain ⟨e0, e1, e2, e3, e4, e5, e6, e7⟩ := idx_facts t
  unfold iblk0
  rw [View.read_apply]
  show V c main_arg2 _ = V c main_arg2 _
  refine congrArg (V c main_arg2) (funext fun a => Fin.ext ?_)
  match a with
  | ⟨0, _⟩ => show win0_1.index t (0 : Fin 2) * 512 + 1 * p.val = r.val; rw [e2, hr]; omega
  | ⟨1, _⟩ => show win0_1.index t (1 : Fin 2) * 1024 + 1 * d.val = d.val; rw [e3]; omega

/-- Input window 2's block at every point is its whole array (the weights). -/
theorem iblk_whole_2 (c : Dev nD) (t : Fin cfg0.N) (k : Fin 1024) (d : Fin 1024) :
    (iblk0 V c 2 t : Vec F S1024x1024 .bf16) (ix2 k d) = (V c main_v1 : S1024x1024.Idx → Elt F .bf16) (ix2 k d) := by
  obtain ⟨z0, z1⟩ := idx_zero_2 t
  unfold iblk0
  rw [View.read_apply]
  show V c main_v1 _ = V c main_v1 _
  refine congrArg (V c main_v1) (funext fun a => Fin.ext ?_)
  match a with
  | ⟨0, _⟩ => show win0_2.index t (0 : Fin 2) * 1024 + 1 * k.val = k.val; rw [z0]; omega
  | ⟨1, _⟩ => show win0_2.index t (1 : Fin 2) * 1024 + 1 * d.val = d.val; rw [z1]; omega

/-- Input window 3's block at every point is its whole array (the bias row). -/
theorem iblk_whole_3 (c : Dev nD) (t : Fin cfg0.N) (k : Fin 1024) :
    (iblk0 V c 3 t : Vec F S1x1024 .f32) (ix2 (0 : Fin 1) k) = (V c main_v3 : S1x1024.Idx → Elt F .f32) (ix2 (0 : Fin 1) k) := by
  obtain ⟨z0, z1⟩ := idx_zero_3 t
  unfold iblk0
  rw [View.read_apply]
  show V c main_v3 _ = V c main_v3 _
  refine congrArg (V c main_v3) (funext fun a => Fin.ext ?_)
  match a with
  | ⟨0, _⟩ => show win0_3.index t (0 : Fin 2) * 1 + 1 * 0 = 0; rw [z0]
  | ⟨1, _⟩ => show win0_3.index t (1 : Fin 2) * 1024 + 1 * k.val = k.val; rw [z1]; omega

/-- Input window 4's block at every point is its whole array (the weights). -/
theorem iblk_whole_4 (c : Dev nD) (t : Fin cfg0.N) (k : Fin 1024) (d : Fin 1024) :
    (iblk0 V c 4 t : Vec F S1024x1024 .bf16) (ix2 k d) = (V c main_v2 : S1024x1024.Idx → Elt F .bf16) (ix2 k d) := by
  obtain ⟨z0, z1⟩ := idx_zero_4 t
  unfold iblk0
  rw [View.read_apply]
  show V c main_v2 _ = V c main_v2 _
  refine congrArg (V c main_v2) (funext fun a => Fin.ext ?_)
  match a with
  | ⟨0, _⟩ => show win0_4.index t (0 : Fin 2) * 1024 + 1 * k.val = k.val; rw [z0]; omega
  | ⟨1, _⟩ => show win0_4.index t (1 : Fin 2) * 1024 + 1 * d.val = d.val; rw [z1]; omega

/-- Input window 5's block at every point is its whole array (the bias row). -/
theorem iblk_whole_5 (c : Dev nD) (t : Fin cfg0.N) (k : Fin 1024) :
    (iblk0 V c 5 t : Vec F S1x1024 .f32) (ix2 (0 : Fin 1) k) = (V c main_v4 : S1x1024.Idx → Elt F .f32) (ix2 (0 : Fin 1) k) := by
  obtain ⟨z0, z1⟩ := idx_zero_5 t
  unfold iblk0
  rw [View.read_apply]
  show V c main_v4 _ = V c main_v4 _
  refine congrArg (V c main_v4) (funext fun a => Fin.ext ?_)
  match a with
  | ⟨0, _⟩ => show win0_5.index t (0 : Fin 2) * 1 + 1 * 0 = 0; rw [z0]
  | ⟨1, _⟩ => show win0_5.index t (1 : Fin 2) * 1024 + 1 * k.val = k.val; rw [z1]; omega

end Blocks

section Arrays
variable (V : (c : Dev nD) → (b : Ref sig .tc) → Buf (Elt Ideal) ((c : Thread nD τ).loc b))

/-! ## Output window 6 -/

/-- An index of the array is in point `t`'s block iff each coordinate is in the block's range on its axis. -/
theorem mem_blk6 (t : Fin cfg0.N) (i : S8192x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v5_0).slice (win0_6.rect t)).set ↔ _
  rw [View.set_slice_whole, Rect.mem_set_unit]
  exact Iff.rfl

/-- What point `t` writes back is block `t` of the projection of the arrays as the region finds them: rows
    512·t … 512·t + 511 of the left array against every row of the weights, plus the bias row. -/
theorem flushed6_eq (c : Dev nD) (t : Fin cfg0.N) :
    (dat0 (F := Ideal) V c).flushed 6 t
      = ((cfg0.win 6).blk t).view.read (Elt Ideal) (projArr (V c main_arg1) (V c main_v1) (V c main_v3)) := by
  show (cfg0.win 6).cut (grid0.coords t) ((dat0 V c).after 6 t) = _
  rw [after0_6]
  unfold out0_6
  rw [View.canon_unit_zero hz]
  simp only [View.ld_unit_zero (S := S512x1024) hz, View.ld_unit_zero (S := S1024x1024) hz, View.ld_unit_zero (S := S1x1024) hz]
  obtain ⟨e0, e1, e2, e3, e4, e5, e6, e7⟩ := idx_facts t
  have hN : cfg0.N = 16 := N_0
  have ht : t.val < 16 := by have := t.isLt; omega
  funext j
  obtain ⟨p, q, rfl⟩ : ∃ (p : Fin 512) (q : Fin 1024), j = ix2 p q := ⟨j 0, j 1, eq_ix2 j⟩
  show k0_pay1 (iblk0 V c 0 t) (iblk0 V c 2 t) (iblk0 V c 3 t) (ix2 p q)
    = projArr (V c main_arg1) (V c main_v1) (V c main_v3) (((cfg0.win 6).blk t).view.emb (ix2 p q))
  have hr : ((((cfg0.win 6).blk t).view.emb (ix2 p q)) 0).val = t.val * 512 + p.val := by
    show win0_6.index t (0 : Fin 2) * 512 + 1 * p.val = _; omega
  have hk : ((((cfg0.win 6).blk t).view.emb (ix2 p q)) 1).val = q.val := by
    show win0_6.index t (1 : Fin 2) * 1024 + 1 * q.val = _; omega
  exact block_value_6 (V c main_arg1) (V c main_v1) (V c main_v3) (iblk0 V c 0 t) (iblk0 V c 2 t) (iblk0 V c 3 t)
    (((cfg0.win 6).blk t).view.emb (ix2 p q)) p q
    (fun d => iblk_rows_0 V c t p d _ (by rw [hr]))
    (fun d => (iblk_whole_2 V c t q d).trans (congrArg (V c main_v1) (congrArg (fun z => ix2 z d) (Fin.ext hk.symm))))
    ((iblk_whole_3 V c t q).trans (congrArg (V c main_v3) (congrArg (fun z => ix2 (0 : Fin 1) z) (Fin.ext hk.symm))))

/-- Every index of the array is in some point's block: row `r` is in block `r / 512`. -/
theorem cover6 (i : S8192x1024.Idx) :
    ∃ t : Fin cfg0.N, (cfg0.win 6).flush t = true ∧ i ∈ ((cfg0.win 6).blk t).view.set := by
  have hN : cfg0.N = 16 := N_0
  have hi0 : (i 0).val < 8192 := (i 0).isLt
  have hi1 : (i 1).val < 1024 := (i 1).isLt
  refine ⟨⟨(i 0).val / 512, by omega⟩, flush0_6 _, ?_⟩
  rw [mem_blk6]
  obtain ⟨e0, e1, e2, e3, e4, e5, e6, e7⟩ := idx_facts ⟨(i 0).val / 512, by omega⟩
  intro a
  match a with
  | ⟨0, _⟩ =>
    show win0_6.index ⟨(i 0).val / 512, _⟩ (0 : Fin 2) * 512 ≤ (i 0).val ∧ (i 0).val < win0_6.index ⟨(i 0).val / 512, _⟩ (0 : Fin 2) * 512 + 512
    rw [e4]; show (i 0).val / 512 * 512 ≤ (i 0).val ∧ (i 0).val < (i 0).val / 512 * 512 + 512; omega
  | ⟨1, _⟩ =>
    show win0_6.index ⟨(i 0).val / 512, _⟩ (1 : Fin 2) * 1024 ≤ (i 1).val ∧ (i 1).val < win0_6.index ⟨(i 0).val / 512, _⟩ (1 : Fin 2) * 1024 + 1024
    rw [e5]; omega

/-- The whole array after the region. -/
theorem arrAll6 (c : Dev nD) :
    (dat0 (F := Ideal) V c).arrAt 6 cfg0.N = projArr (V c main_arg1) (V c main_v1) (V c main_v3) :=
  (dat0 (F := Ideal) V c).arrAt_eq_of_cover 6 (projArr (V c main_arg1) (V c main_v1) (V c main_v3)) (fun t _ => flushed6_eq V c t) cover6

/-- Read at an index: entry (r, k) is row r of the left array against row k of the weights, plus the bias at k. -/
theorem arr0_6 (c : Dev nD) (r : Fin 8192) (k : Fin 1024) :
    (dat0 (F := Ideal) V c).arrAt 6 cfg0.N (ix2 r k) = projAt (V c main_arg1) (V c main_v1) (V c main_v3) r k :=
  congrFun (arrAll6 V c) (ix2 r k)

/-- The same over names for the three arrays: with `A`, `Wt`, `b` the contents the region finds, entry (r, k) is
    ∑ d, A (r, d) · Wt (k, d) + b (0, k). -/
theorem arr0_6_of (c : Dev nD) (r : Fin 8192) (k : Fin 1024)
    (A : S8192x1024.Idx → EReal) (Wt : S1024x1024.Idx → EReal) (b : S1x1024.Idx → EReal)
    (hA : V c main_arg1 = A) (hW : V c main_v1 = Wt) (hb : V c main_v3 = b) :
    (dat0 (F := Ideal) V c).arrAt 6 cfg0.N (ix2 r k)
      = (∑ d : Fin 1024, A (ix2 r d) * Wt (ix2 k d)) + b (ix2 (0 : Fin 1) k) := by
  subst hA hW hb
  exact arr0_6 V c r k

/-! ## Output window 7 -/

/-- An index of the array is in point `t`'s block iff each coordinate is in the block's range on its axis. -/
theorem mem_blk7 (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v5_1).slice (win0_7.rect t)).set ↔ _
  rw [View.set_slice_whole, Rect.mem_set_unit]
  exact Iff.rfl

/-- What point `t` writes back is block `t` of the projection of the arrays as the region finds them: rows
    512·t … 512·t + 511 of the left array against every row of the weights, plus the bias row. -/
theorem flushed7_eq (c : Dev nD) (t : Fin cfg0.N) :
    (dat0 (F := Ideal) V c).flushed 7 t
      = ((cfg0.win 7).blk t).view.read (Elt Ideal) (projArr (V c main_arg2) (V c main_v2) (V c main_v4)) := by
  show (cfg0.win 7).cut (grid0.coords t) ((dat0 V c).after 7 t) = _
  rw [after0_7]
  unfold out0_7
  rw [View.canon_unit_zero hz]
  simp only [View.ld_unit_zero (S := S512x1024) hz, View.ld_unit_zero (S := S1024x1024) hz, View.ld_unit_zero (S := S1x1024) hz]
  obtain ⟨e0, e1, e2, e3, e4, e5, e6, e7⟩ := idx_facts t
  have hN : cfg0.N = 16 := N_0
  have ht : t.val < 16 := by have := t.isLt; omega
  funext j
  obtain ⟨p, q, rfl⟩ : ∃ (p : Fin 512) (q : Fin 1024), j = ix2 p q := ⟨j 0, j 1, eq_ix2 j⟩
  show k0_pay2 (iblk0 V c 1 t) (iblk0 V c 4 t) (iblk0 V c 5 t) (ix2 p q)
    = projArr (V c main_arg2) (V c main_v2) (V c main_v4) (((cfg0.win 7).blk t).view.emb (ix2 p q))
  have hr : ((((cfg0.win 7).blk t).view.emb (ix2 p q)) 0).val = t.val * 512 + p.val := by
    show win0_7.index t (0 : Fin 2) * 512 + 1 * p.val = _; omega
  have hk : ((((cfg0.win 7).blk t).view.emb (ix2 p q)) 1).val = q.val := by
    show win0_7.index t (1 : Fin 2) * 1024 + 1 * q.val = _; omega
  exact block_value_7 (V c main_arg2) (V c main_v2) (V c main_v4) (iblk0 V c 1 t) (iblk0 V c 4 t) (iblk0 V c 5 t)
    (((cfg0.win 7).blk t).view.emb (ix2 p q)) p q
    (fun d => iblk_rows_1 V c t p d _ (by rw [hr]))
    (fun d => (iblk_whole_4 V c t q d).trans (congrArg (V c main_v2) (congrArg (fun z => ix2 z d) (Fin.ext hk.symm))))
    ((iblk_whole_5 V c t q).trans (congrArg (V c main_v4) (congrArg (fun z => ix2 (0 : Fin 1) z) (Fin.ext hk.symm))))

/-- Every index of the array is in some point's block: row `r` is in block `r / 512`. -/
theorem cover7 (i : S8192x1024.Idx) :
    ∃ t : Fin cfg0.N, (cfg0.win 7).flush t = true ∧ i ∈ ((cfg0.win 7).blk t).view.set := by
  have hN : cfg0.N = 16 := N_0
  have hi0 : (i 0).val < 8192 := (i 0).isLt
  have hi1 : (i 1).val < 1024 := (i 1).isLt
  refine ⟨⟨(i 0).val / 512, by omega⟩, flush0_7 _, ?_⟩
  rw [mem_blk7]
  obtain ⟨e0, e1, e2, e3, e4, e5, e6, e7⟩ := idx_facts ⟨(i 0).val / 512, by omega⟩
  intro a
  match a with
  | ⟨0, _⟩ =>
    show win0_7.index ⟨(i 0).val / 512, _⟩ (0 : Fin 2) * 512 ≤ (i 0).val ∧ (i 0).val < win0_7.index ⟨(i 0).val / 512, _⟩ (0 : Fin 2) * 512 + 512
    rw [e6]; show (i 0).val / 512 * 512 ≤ (i 0).val ∧ (i 0).val < (i 0).val / 512 * 512 + 512; omega
  | ⟨1, _⟩ =>
    show win0_7.index ⟨(i 0).val / 512, _⟩ (1 : Fin 2) * 1024 ≤ (i 1).val ∧ (i 1).val < win0_7.index ⟨(i 0).val / 512, _⟩ (1 : Fin 2) * 1024 + 1024
    rw [e7]; omega

/-- The whole array after the region. -/
theorem arrAll7 (c : Dev nD) :
    (dat0 (F := Ideal) V c).arrAt 7 cfg0.N = projArr (V c main_arg2) (V c main_v2) (V c main_v4) :=
  (dat0 (F := Ideal) V c).arrAt_eq_of_cover 7 (projArr (V c main_arg2) (V c main_v2) (V c main_v4)) (fun t _ => flushed7_eq V c t) cover7

/-- Read at an index: entry (r, k) is row r of the left array against row k of the weights, plus the bias at k. -/
theorem arr0_7 (c : Dev nD) (r : Fin 8192) (k : Fin 1024) :
    (dat0 (F := Ideal) V c).arrAt 7 cfg0.N (ix2 r k) = projAt (V c main_arg2) (V c main_v2) (V c main_v4) r k :=
  congrFun (arrAll7 V c) (ix2 r k)

/-- The same over names for the three arrays: with `A`, `Wt`, `b` the contents the region finds, entry (r, k) is
    ∑ d, A (r, d) · Wt (k, d) + b (0, k). -/
theorem arr0_7_of (c : Dev nD) (r : Fin 8192) (k : Fin 1024)
    (A : S8192x1024.Idx → EReal) (Wt : S1024x1024.Idx → EReal) (b : S1x1024.Idx → EReal)
    (hA : V c main_arg2 = A) (hW : V c main_v2 = Wt) (hb : V c main_v4 = b) :
    (dat0 (F := Ideal) V c).arrAt 7 cfg0.N (ix2 r k)
      = (∑ d : Fin 1024, A (ix2 r d) * Wt (ix2 k d)) + b (ix2 (0 : Fin 1) k) := by
  subst hA hW hb
  exact arr0_7 V c r k

/-! ## The inputs -/

/-- An input window's array is as the region found it. -/
theorem arr0_in (c : Dev nD) (w : Fin cfg0.W) (hin : (cfg0.win w).isOut = false) (n : Nat) :
    (dat0 (F := Ideal) V c).arrAt w n = V c (Pipeline.arrRef spec0 w) :=
  ((dat0 (F := Ideal) V c).arrAt_in w hin n).trans (A_eq0 V c w)

end Arrays

end Cert.KernelIdeal.R0Value

end
-- ==== Proof.LibMergeRows.lean ====
/-
  Two leading axes merged into one, and split again, read at an index.

  An a × b × c array reshaped to r × c with r = a · b keeps its row-major order, so row (p, q) of the a × b grid of
  length-c rows becomes flat row b · p + q: the reshaped array at (b · p + q, k) is the array at (p, q, k), and an
  r × c array reshaped to a × b × c reads, at (p, q, k), the flat array at (b · p + q, k). For any element type and any
  extents; the number of flat rows is a separate variable with the equation r = a · b as a hypothesis, so that a
  literal such as 65536 need not be spelt as a product.
-/
import Idealize.ShloMosaic.Lib.Pipeline.Value
import Idealize.ShloMosaic.Lib.ValueIdx

noncomputable section

namespace Cert.Lib.MergeRows

open Idealize.ShloMosaic Idealize.ShloMosaic.ValueIdx

variable {a b c r : Nat}

/-- Flat row b · p + q of the r = a · b rows. -/
abbrev flatRow (hr : r = a * b) (p : Fin a) (q : Fin b) : Fin r :=
  ⟨p.val * b + q.val, by
    have hp := p.isLt
    have hq := q.isLt
    have h1 : p.val * b + b ≤ a * b := by
      have := Nat.mul_le_mul_right b (Nat.succ_le_of_lt hp)
      rwa [Nat.succ_mul] at this
    omega⟩

/-- The merged array at (b · p + q, k) is the array at (p, q, k). -/
theorem merge_apply {α : Type} (hr : r = a * b) (x : (⟨3, ![a, b, c]⟩ : Shape).Idx → α)
    (h : (⟨3, ![a, b, c]⟩ : Shape).ShapeCasts ⟨2, ![r, c]⟩) (p : Fin a) (q : Fin b) (k : Fin c) :
    shapeCast ⟨2, ![r, c]⟩ x h (ix2 (flatRow hr p q) k) = x (ix3 p q k) :=
  shapeCast_apply x h _ _ (by
    rw [Shape.rowMajor_val_two, Shape.rowMajor_val_three]
    rfl)

/-- The split array at (p, q, k) is the flat array at (b · p + q, k). -/
theorem split_apply {α : Type} (hr : r = a * b) (y : (⟨2, ![r, c]⟩ : Shape).Idx → α)
    (h : (⟨2, ![r, c]⟩ : Shape).ShapeCasts ⟨3, ![a, b, c]⟩) (p : Fin a) (q : Fin b) (k : Fin c) :
    shapeCast ⟨3, ![a, b, c]⟩ y h (ix3 p q k) = y (ix2 (flatRow hr p q) k) :=
  shapeCast_apply y h _ _ (by
    rw [Shape.rowMajor_val_two, Shape.rowMajor_val_three]
    rfl)

/-- A length-b vector reshaped to a 1 × b row reads, at (0, q), the vector at q. -/
theorem row_apply {α : Type} (v : (⟨1, ![b]⟩ : Shape).Idx → α)
    (h : (⟨1, ![b]⟩ : Shape).ShapeCasts ⟨2, ![1, b]⟩) (q : Fin b) :
    shapeCast ⟨2, ![1, b]⟩ v h (ix2 (0 : Fin 1) q) = v (ix1 q) :=
  shapeCast_apply v h _ _ (by
    rw [Shape.rowMajor_val_two, Shape.rowMajor_val_one]
    show q.val = 0 * b + q.val
    omega)

/-- Entry (k, o) of the transpose of an a × b matrix is entry (o, k) of the matrix. -/
theorem transpose_apply {α : Type} (L : (⟨2, ![a, b]⟩ : Shape).Idx → α)
    (h : (⟨2, ![a, b]⟩ : Shape).Transposes [1, 0] ⟨2, ![b, a]⟩) (k : Fin b) (o : Fin a) :
    transpose ⟨2, ![b, a]⟩ [1, 0] L h (ix2 k o) = L (ix2 o k) :=
  Idealize.ShloMosaic.transpose_apply [1, 0] L h (ix2 k o) (ix2 o k) fun ax => by
    match ax with
    | ⟨0, _⟩ => rfl
    | ⟨1, _⟩ => rfl

end Cert.Lib.MergeRows

end
-- ==== Proof.KI.Entry.lean ====
/-
  What the attention call finds in its arrays, at the ideal instance, in terms of the launch memory: the query array as
  launched; the query weights (a change of float format: the same numbers); the query bias as a 1 × 1024 row; and the
  key and value projections the first call left, x · Wᵀ + b row by row over the launched key, value, weights and biases.
-/
import proofs.«110939_j30666066494217_2_alg».proof.Proof.KI.Run
import proofs.«110939_j30666066494217_2_alg».proof.Proof.KI.R0Value
import proofs.«110939_j30666066494217_2_alg».proof.Proof.LibMergeRows

set_option maxRecDepth 16384

noncomputable section

namespace Cert.KernelIdeal.Entry

open Idealize.ShloMosaic Idealize.ShloMosaic.TcCoe Idealize.ShloMosaic.ValueIdx Idealize.SL.Sem
open Cert.KernelIdeal Cert.KernelIdeal.Gen Cert.KernelIdeal.Gen.Whole Cert.KernelIdeal.R0Value
open scoped BigOperators

variable (m : (ℓ : Loc nD τ sig) → Buf (Elt Ideal) ℓ) (ρ : Dev nD → PrngReg) (c : Dev nD)

/-! ## The launched arrays, as extended-real arrays -/

def aQ : S8192x1024.Idx → EReal := m ((c : Thread nD τ).loc main_arg0)
def aK : S8192x1024.Idx → EReal := m ((c : Thread nD τ).loc main_arg1)
def aV : S8192x1024.Idx → EReal := m ((c : Thread nD τ).loc main_arg2)
def aWq : S1024x1024.Idx → EReal := m ((c : Thread nD τ).loc main_arg3)
def aBq : S1024.Idx → EReal := m ((c : Thread nD τ).loc main_arg4)
def aWk : S1024x1024.Idx → EReal := m ((c : Thread nD τ).loc main_arg5)
def aBk : S1024.Idx → EReal := m ((c : Thread nD τ).loc main_arg6)
def aWv : S1024x1024.Idx → EReal := m ((c : Thread nD τ).loc main_arg7)
def aBv : S1024.Idx → EReal := m ((c : Thread nD τ).loc main_arg8)

/-- A reference no operation of the first host stretch writes holds its launch contents after it. -/
theorem W1_keep (b : Ref sig .tc) (hb : b ∉ hostOps0_W) : W1 m ρ c (Proc.devRef .tc b) = m ((c : Thread nD τ).loc b) :=
  StableHlo.after_of_writes_sub hostOps0 _ hostOps0_writes hb

theorem W1_v0 : (W1 m ρ c (Proc.devRef .tc main_v0) : S1024x1024.Idx → EReal) = (m ((c : Thread nD τ).loc main_arg3) : S1024x1024.Idx → EReal) := by
  show StableHlo.after hostOps0 (W0 m ρ c) (Proc.devRef .tc main_v0) = _
  after_results
  rfl
theorem W1_v1 : (W1 m ρ c (Proc.devRef .tc main_v1) : S1024x1024.Idx → EReal) = (m ((c : Thread nD τ).loc main_arg5) : S1024x1024.Idx → EReal) := by
  show StableHlo.after hostOps0 (W0 m ρ c) (Proc.devRef .tc main_v1) = _
  after_results
  rfl
theorem W1_v2 : (W1 m ρ c (Proc.devRef .tc main_v2) : S1024x1024.Idx → EReal) = (m ((c : Thread nD τ).loc main_arg7) : S1024x1024.Idx → EReal) := by
  show StableHlo.after hostOps0 (W0 m ρ c) (Proc.devRef .tc main_v2) = _
  after_results
  rfl
theorem W1_v3 : (W1 m ρ c (Proc.devRef .tc main_v3) : S1x1024.Idx → EReal) = shapeCast S1x1024 (m ((c : Thread nD τ).loc main_arg6) : S1024.Idx → EReal) shapeCasts_S1024_S1x1024 := by
  show StableHlo.after hostOps0 (W0 m ρ c) (Proc.devRef .tc main_v3) = _
  after_results
  rfl
theorem W1_v4 : (W1 m ρ c (Proc.devRef .tc main_v4) : S1x1024.Idx → EReal) = shapeCast S1x1024 (m ((c : Thread nD τ).loc main_arg8) : S1024.Idx → EReal) shapeCasts_S1024_S1x1024 := by
  show StableHlo.after hostOps0 (W0 m ρ c) (Proc.devRef .tc main_v4) = _
  after_results
  rfl

/-- A reference that neither host stretch writes and that is no array of the first call holds its launch contents when
    the attention call is entered. -/
theorem W3_of_W1 (b : Ref sig .tc) (h1 : b ∉ hostOps1_W) (h2 : ∀ w, Pipeline.arrRef spec0 w ≠ b) :
    W3 m ρ c (Proc.devRef .tc b) = W1 m ρ c (Proc.devRef .tc b) :=
  (StableHlo.after_of_writes_sub hostOps1 _ hostOps1_writes h1).trans (W2_of_ne m ρ c b h2)

theorem W2_keep (b : Ref sig .tc) (h2 : ∀ w, Pipeline.arrRef spec0 w ≠ b) (h0 : b ∉ hostOps0_W) :
    W2 m ρ c (Proc.devRef .tc b) = m ((c : Thread nD τ).loc b) :=
  (W2_of_ne m ρ c b h2).trans (W1_keep m ρ c b h0)

/-- The query array as launched. -/
theorem entry_q : (V3 m ρ c main_arg0 : S8192x1024.Idx → EReal) = aQ m c :=
  (W3_of_W1 m ρ c main_arg0 (by decide) (by decide)).trans (W1_keep m ρ c main_arg0 (by decide))

/-- The query weights: a change of float format, the same numbers. -/
theorem entry_wq : (V3 m ρ c main_v0 : S1024x1024.Idx → EReal) = aWq m c :=
  (W3_of_W1 m ρ c main_v0 (by decide) (by decide)).trans (W1_v0 m ρ c)

theorem W3_v6 : (W3 m ρ c (Proc.devRef .tc main_v6) : S1x1024.Idx → EReal) = shapeCast S1x1024 (W2 m ρ c (Proc.devRef .tc main_arg4) : S1024.Idx → EReal) shapeCasts_S1024_S1x1024 := by
  show StableHlo.after hostOps1 (W2 m ρ c) (Proc.devRef .tc main_v6) = _
  after_results
  rfl

/-- The query bias as a 1 × 1024 row. -/
theorem entry_bq (k : Fin 1024) : (V3 m ρ c main_v6 : S1x1024.Idx → EReal) (ix2 (0 : Fin 1) k) = aBq m c (ix1 k) := by
  have h := W3_v6 m ρ c
  have h4 : (W2 m ρ c (Proc.devRef .tc main_arg4) : S1024.Idx → EReal) = (m ((c : Thread nD τ).loc main_arg4) : S1024.Idx → EReal) :=
    W2_keep m ρ c main_arg4 (by decide) (by decide)
  rw [h4] at h
  exact (congrFun h (ix2 (0 : Fin 1) k)).trans (Cert.Lib.MergeRows.row_apply _ _ k)

/-- The key projection the first call left: x · Wᵀ + b over the launched key, key weights and key bias. -/
theorem entry_K (g : Fin 8192) (kk : Fin 1024) :
    (V3 m ρ c main_v5_0 : S8192x1024.Idx → EReal) (ix2 g kk)
      = (∑ d : Fin 1024, aK m c (ix2 g d) * aWk m c (ix2 kk d)) + aBk m c (ix1 kk) := by
  have h3 : (V3 m ρ c main_v5_0 : S8192x1024.Idx → EReal) = (dat0 (F := Ideal) (V1 m ρ) c).arrAt 6 cfg0.N :=
    (StableHlo.after_of_writes_sub hostOps1 _ hostOps1_writes (by decide : main_v5_0 ∉ hostOps1_W)).trans (W2_arr m ρ c 6)
  rw [h3, arr0_6_of (V1 m ρ) c g kk (aK m c) (aWk m c) (shapeCast S1x1024 (aBk m c) shapeCasts_S1024_S1x1024) (W1_keep m ρ c main_arg1 (by decide)) (W1_v1 m ρ c) (W1_v3 m ρ c)]
  exact congrArg _ (Cert.Lib.MergeRows.row_apply _ _ kk)

/-- The value projection the first call left. -/
theorem entry_V (g : Fin 8192) (k : Fin 1024) :
    (V3 m ρ c main_v5_1 : S8192x1024.Idx → EReal) (ix2 g k)
      = (∑ d : Fin 1024, aV m c (ix2 g d) * aWv m c (ix2 k d)) + aBv m c (ix1 k) := by
  have h3 : (V3 m ρ c main_v5_1 : S8192x1024.Idx → EReal) = (dat0 (F := Ideal) (V1 m ρ) c).arrAt 7 cfg0.N :=
    (StableHlo.after_of_writes_sub hostOps1 _ hostOps1_writes (by decide : main_v5_1 ∉ hostOps1_W)).trans (W2_arr m ρ c 7)
  rw [h3, arr0_7_of (V1 m ρ) c g k (aV m c) (aWv m c) (shapeCast S1x1024 (aBv m c) shapeCasts_S1024_S1x1024) (W1_keep m ρ c main_arg2 (by decide)) (W1_v2 m ρ c) (W1_v4 m ρ c)]
  exact congrArg _ (Cert.Lib.MergeRows.row_apply _ _ k)

end Cert.KernelIdeal.Entry

end
-- ==== Proof.KI.R1Arr.lean ====
/- What region 1's output array holds after the region, as a whole-array function of what the body leaves in the output
   window: the grid is 16 × 8, point t is query tile t / 8 at key/value step t % 8, and the output window is written
   back only at the last step of each tile (t % 8 = 7), as rows 512·(t / 8) … 512·(t / 8) + 511. So row p of the
   array is row p % 512 of what the last step of tile p / 512 stored; the sixteen written blocks tile the 8192 rows.
   Any `F`. -/
import proofs.«110939_j30666066494217_2_alg».proof.Proof.KI.R1
import Idealize.ShloMosaic.Lib.Pipeline.Value
import Idealize.ShloMosaic.Lib.ValueIdx
import Idealize.ShloMosaic.Lib.Tactic

noncomputable section

namespace Cert.KernelIdeal.R1Arr

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The output window's printed index map, decided over the 128 points: block (t / 8, 0). -/
theorem idx1_out : ∀ t : Fin cfg1.N, win1_5.index t (0 : Fin 2) = t.val / 8 ∧ win1_5.index t (1 : Fin 2) = 0 :=
  (by decide +kernel : ∀ t : Fin grid1.N, _)

/-- The last step of the tile holding row `p` is a point of the grid. -/
theorem last_lt (p : ℕ) (hp : p < 8192) : 8 * (p / 512) + 7 < cfg1.N := by
  have hN : cfg1.N = 128 := N_1
  omega

section Arrays
variable {F : FTy → Type} [FloatOps F]
variable (V : (c : Dev nD) → (b : Ref sig .tc) → Buf (Elt F) ((c : Thread nD τ).loc b))

/-- What the buffers hold after a point depends on the point's number only. -/
theorem outsAt1_congr (c : Dev nD) (n n' : ℕ) (hn : n < cfg1.N) (hn' : n' < cfg1.N) (e : n = n') :
    outsAt1 V c n hn = outsAt1 V c n' hn' := by
  subst e; rfl

/-- The array the write-backs assemble: at (p, k), row p % 512, column k of what the last step of query tile p / 512
    left in the output window. -/
def arrG (c : Dev nD) : S8192x1024.Idx → Elt F .f32 := fun i =>
  (outsAt1 V c (8 * ((i 0).val / 512) + 7) (last_lt _ (idx2_lt0 i))).1
    (ix2 (⟨(i 0).val % 512, Nat.mod_lt _ (by decide)⟩ : Fin 512) (⟨(i 1).val, idx2_lt1 i⟩ : Fin 1024))

/-- `arrG` at an index, with the point and the block coordinates named. -/
theorem arrG_at (c : Dev nD) (i : S8192x1024.Idx) (n : ℕ) (hn : n < cfg1.N) (r : Fin 512) (k : Fin 1024)
    (h0 : n = 8 * ((i 0).val / 512) + 7) (hr : r.val = (i 0).val % 512) (hk : k.val = (i 1).val) :
    arrG V c i = (outsAt1 V c n hn).1 (ix2 r k) := by
  subst h0
  obtain rfl : r = ⟨(i 0).val % 512, Nat.mod_lt _ (by decide)⟩ := Fin.ext hr
  obtain rfl : k = ⟨(i 1).val, idx2_lt1 i⟩ := Fin.ext hk
  rfl

/-- An index of the array is in point `t`'s block iff each coordinate is in the block's range on its axis. -/
theorem mem_blk5 (t : Fin cfg1.N) (i : S8192x1024.Idx) :
    i ∈ ((cfg1.win 5).blk t).view.set ↔ ∀ a : Fin 2, win1_5.index t a * S512x1024.size a ≤ (i a).val ∧ (i a).val < win1_5.index t a * S512x1024.size a + S512x1024.size a := by
  show i ∈ ((View.whole main_v7).slice (win1_5.rect t)).set ↔ _
  rw [View.set_slice_whole, Rect.mem_set_unit]
  exact Iff.rfl

/-- What a last step writes back is its block of `arrG`: the point's tile is t / 8, and 8·(t / 8) + 7 = t there. -/
theorem flushed5_eq (c : Dev nD) (t : Fin cfg1.N) (hf : (cfg1.win 5).flush t = true) :
    (dat1 V c).flushed 5 t = ((cfg1.win 5).blk t).view.read (Elt F) (arrG V c) := by
  have h7 : t.val % 8 = 7 := (flush1_5 t).mp hf
  show (cfg1.win 5).cut (grid1.coords t) ((dat1 V c).after 5 t) = _
  rw [after1_5]
  obtain ⟨e0, e1⟩ := idx1_out t
  have hN : cfg1.N = 128 := N_1
  have ht : t.val < 128 := by have := t.isLt; omega
  funext j
  obtain ⟨r, k, rfl⟩ : ∃ (r : Fin 512) (k : Fin 1024), j = ix2 r k := ⟨j 0, j 1, eq_ix2 j⟩
  show (outsAt1 V c t.val t.isLt).1 (ix2 r k) = arrG V c (((cfg1.win 5).blk t).view.emb (ix2 r k))
  have hr : ((((cfg1.win 5).blk t).view.emb (ix2 r k)) 0).val = (t.val / 8) * 512 + r.val := by
    show win1_5.index t (0 : Fin 2) * 512 + 1 * r.val = _; omega
  have hk : ((((cfg1.win 5).blk t).view.emb (ix2 r k)) 1).val = k.val := by
    show win1_5.index t (1 : Fin 2) * 1024 + 1 * k.val = _; omega
  exact (arrG_at V c (((cfg1.win 5).blk t).view.emb (ix2 r k)) t.val t.isLt r k
    (by rw [hr]; omega) (by rw [hr]; omega) (by rw [hk])).symm

/-- Every index of the array is in some written-back block: row `p` is in the block of point 8·(p / 512) + 7. -/
theorem cover5 (i : S8192x1024.Idx) :
    ∃ t : Fin cfg1.N, (cfg1.win 5).flush t = true ∧ i ∈ ((cfg1.win 5).blk t).view.set := by
  have hN : cfg1.N = 128 := N_1
  have hi0 : (i 0).val < 8192 := idx2_lt0 i
  have hi1 : (i 1).val < 1024 := idx2_lt1 i
  refine ⟨⟨8 * ((i 0).val / 512) + 7, by omega⟩, (flush1_5 _).mpr (by show (8 * ((i 0).val / 512) + 7) % 8 = 7; omega), ?_⟩
  rw [mem_blk5]
  obtain ⟨e0, e1⟩ := idx1_out ⟨8 * ((i 0).val / 512) + 7, by omega⟩
  intro a
  match a with
  | ⟨0, _⟩ =>
    show win1_5.index ⟨8 * ((i 0).val / 512) + 7, _⟩ (0 : Fin 2) * 512 ≤ (i 0).val ∧ (i 0).val < win1_5.index ⟨8 * ((i 0).val / 512) + 7, _⟩ (0 : Fin 2) * 512 + 512
    rw [e0]; show (8 * ((i 0).val / 512) + 7) / 8 * 512 ≤ (i 0).val ∧ (i 0).val < (8 * ((i 0).val / 512) + 7) / 8 * 512 + 512; omega
  | ⟨1, _⟩ =>
    show win1_5.index ⟨8 * ((i 0).val / 512) + 7, _⟩ (1 : Fin 2) * 1024 ≤ (i 1).val ∧ (i 1).val < win1_5.index ⟨8 * ((i 0).val / 512) + 7, _⟩ (1 : Fin 2) * 1024 + 1024
    rw [e1]; omega

/-- The whole output array after the region. -/
theorem arrAll5 (c : Dev nD) : (dat1 V c).arrAt 5 cfg1.N = arrG V c :=
  (dat1 V c).arrAt_eq_of_cover 5 (arrG V c) (fun t hf => flushed5_eq V c t hf) cover5

/-- Read at an index: row p of the result is row p % 512 of what the last step of query tile p / 512 stored. -/
theorem arr1_5 (c : Dev nD) (p : Fin 8192) (k : Fin 1024) :
    (dat1 V c).arrAt 5 cfg1.N (ix2 p k)
      = (outsAt1 V c (8 * (p.val / 512) + 7) (last_lt p.val p.isLt)).1 (ix2 (⟨p.val % 512, Nat.mod_lt _ (by decide)⟩ : Fin 512) k) :=
  (congrFun (arrAll5 V c) (ix2 p k)).trans
    (arrG_at V c (ix2 p k) (8 * (p.val / 512) + 7) (last_lt p.val p.isLt) ⟨p.val % 512, Nat.mod_lt _ (by decide)⟩ k rfl rfl rfl)

/-- An input window's array is as the region found it. -/
theorem arr1_in (c : Dev nD) (w : Fin cfg1.W) (hin : (cfg1.win w).isOut = false) (n : Nat) :
    (dat1 V c).arrAt w n = V c (Pipeline.arrRef spec1 w) :=
  ((dat1 V c).arrAt_in w hin n).trans (A_eq1 V c w)

end Arrays

end Cert.KernelIdeal.R1Arr

end
-- ==== Proof.KI.R1Blocks.lean ====
/- Region 1's input windows as parts of their arrays, at the contents `V` the region is entered with: the grid is
   16 × 8, point t is query tile t / 8 at key/value step t % 8; the query window stages rows 512·(t / 8) … of its
   array, the key and value windows rows 1024·(t % 8) … of theirs, the weight and bias windows their whole arrays.
   Any `F`. -/
import proofs.«110939_j30666066494217_2_alg».proof.Proof.KI.R1Runs
import Idealize.ShloMosaic.Lib.Pipeline.Value
import Idealize.ShloMosaic.Lib.ValueIdx
import Idealize.ShloMosaic.Lib.Tactic

noncomputable section

namespace Cert.KernelIdeal.R1Arr

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The printed index maps, decided over the 128 points: the query window and the output window are at block
    (t / 8, 0), the key and value windows at block (t % 8, 0). -/
theorem idx1_facts : ∀ t : Fin cfg1.N, win1_0.index t (0 : Fin 2) = t.val / 8 ∧ win1_0.index t (1 : Fin 2) = 0
    ∧ win1_3.index t (0 : Fin 2) = t.val % 8 ∧ win1_3.index t (1 : Fin 2) = 0
    ∧ win1_4.index t (0 : Fin 2) = t.val % 8 ∧ win1_4.index t (1 : Fin 2) = 0
    ∧ win1_5.index t (0 : Fin 2) = t.val / 8 ∧ win1_5.index t (1 : Fin 2) = 0 :=
  (by decide +kernel : ∀ t : Fin grid1.N, _)

/-- The weight and bias windows are at block (0, 0) at every point. -/
theorem idx1_zero_1 : ∀ t : Fin cfg1.N, win1_1.index t (0 : Fin 2) = 0 ∧ win1_1.index t (1 : Fin 2) = 0 :=
  (by decide +kernel : ∀ t : Fin grid1.N, _)
theorem idx1_zero_2 : ∀ t : Fin cfg1.N, win1_2.index t (0 : Fin 2) = 0 ∧ win1_2.index t (1 : Fin 2) = 0 :=
  (by decide +kernel : ∀ t : Fin grid1.N, _)

section Blocks
variable {F : FTy → Type} [FloatOps F]
variable (V : (c : Dev nD) → (b : Ref sig .tc) → Buf (Elt F) ((c : Thread nD τ).loc b))

/-- Input window 0's block at point `t` is rows 512·(t / 8) … 512·(t / 8) + 511 of its array (the query tile). -/
theorem iblk1_rows_0 (c : Dev nD) (t : Fin cfg1.N) (r : Fin 512) (d : Fin 1024) (p : Fin 8192) (hp : p.val = (t.val / 8) * 512 + r.val) :
    (iblk1 V c 0 t : Vec F S512x1024 .f32) (ix2 r d) = (V c main_arg0 : S8192x1024.Idx → Elt F .f32) (ix2 p d) := by
  obtain ⟨e0, e1, e2, e3, e4, e5, e6, e7⟩ := idx1_facts t
  unfold iblk1
  rw [View.read_apply]
  show V c main_arg0 _ = V c main_arg0 _
  refine congrArg (V c main_arg0) (funext fun a => Fin.ext ?_)
  match a with
  | ⟨0, _⟩ => show win1_0.index t (0 : Fin 2) * 512 + 1 * r.val = p.val; rw [e0, hp]; omega
  | ⟨1, _⟩ => show win1_0.index t (1 : Fin 2) * 1024 + 1 * d.val = d.val; rw [e1]; omega

/-- Input window 1's block at every point is its whole array (the query weights). -/
theorem iblk1_whole_1 (c : Dev nD) (t : Fin cfg1.N) (k d : Fin 1024) :
    (iblk1 V c 1 t : Vec F S1024x1024 .bf16) (ix2 k d) = (V c main_v0 : S1024x1024.Idx → Elt F .bf16) (ix2 k d) := by
  obtain ⟨z0, z1⟩ := idx1_zero_1 t
  unfold iblk1
  rw [View.read_apply]
  show V c main_v0 _ = V c main_v0 _
  refine congrArg (V c main_v0) (funext fun a => Fin.ext ?_)
  match a with
  | ⟨0, _⟩ => show win1_1.index t (0 : Fin 2) * 1024 + 1 * k.val = k.val; rw [z0]; omega
  | ⟨1, _⟩ => show win1_1.index t (1 : Fin 2) * 1024 + 1 * d.val = d.val; rw [z1]; omega

/-- Input window 2's block at every point is its whole array (the query bias row). -/
theorem iblk1_whole_2 (c : Dev nD) (t : Fin cfg1.N) (k : Fin 1024) :
    (iblk1 V c 2 t : Vec F S1x1024 .f32) (ix2 (0 : Fin 1) k) = (V c main_v6 : S1x1024.Idx → Elt F .f32) (ix2 (0 : Fin 1) k) := by
  obtain ⟨z0, z1⟩ := idx1_zero_2 t
  unfold iblk1
  rw [View.read_apply]
  show V c main_v6 _ = V c main_v6 _
  refine congrArg (V c main_v6) (funext fun a => Fin.ext ?_)
  match a with
  | ⟨0, _⟩ => show win1_2.index t (0 : Fin 2) * 1 + 1 * 0 = 0; rw [z0]
  | ⟨1, _⟩ => show win1_2.index t (1 : Fin 2) * 1024 + 1 * k.val = k.val; rw [z1]; omega

/-- Input window 3's block at point `t` is rows 1024·(t % 8) … 1024·(t % 8) + 1023 of its array (the key/value tile). -/
theorem iblk1_rows_3 (c : Dev nD) (t : Fin cfg1.N) (j kk : Fin 1024) (g : Fin 8192) (hg : g.val = (t.val % 8) * 1024 + j.val) :
    (iblk1 V c 3 t : Vec F S1024x1024 .bf16) (ix2 j kk) = (V c main_v5_0 : S8192x1024.Idx → Elt F .bf16) (ix2 g kk) := by
  obtain ⟨e0, e1, e2, e3, e4, e5, e6, e7⟩ := idx1_facts t
  unfold iblk1
  rw [View.read_apply]
  show V c main_v5_0 _ = V c main_v5_0 _
  refine congrArg (V c main_v5_0) (funext fun a => Fin.ext ?_)
  match a with
  | ⟨0, _⟩ => show win1_3.index t (0 : Fin 2) * 1024 + 1 * j.val = g.val; rw [e2, hg]; omega
  | ⟨1, _⟩ => show win1_3.index t (1 : Fin 2) * 1024 + 1 * kk.val = kk.val; rw [e3]; omega

/-- Input window 4's block at point `t` is rows 1024·(t % 8) … 1024·(t % 8) + 1023 of its array (the key/value tile). -/
theorem iblk1_rows_4 (c : Dev nD) (t : Fin cfg1.N) (j kk : Fin 1024) (g : Fin 8192) (hg : g.val = (t.val % 8) * 1024 + j.val) :
    (iblk1 V c 4 t : Vec F S1024x1024 .bf16) (ix2 j kk) = (V c main_v5_1 : S8192x1024.Idx → Elt F .bf16) (ix2 g kk) := by
  obtain ⟨e0, e1, e2, e3, e4, e5, e6, e7⟩ := idx1_facts t
  unfold iblk1
  rw [View.read_apply]
  show V c main_v5_1 _ = V c main_v5_1 _
  refine congrArg (V c main_v5_1) (funext fun a => Fin.ext ?_)
  match a with
  | ⟨0, _⟩ => show win1_4.index t (0 : Fin 2) * 1024 + 1 * j.val = g.val; rw [e4, hg]; omega
  | ⟨1, _⟩ => show win1_4.index t (1 : Fin 2) * 1024 + 1 * kk.val = kk.val; rw [e5]; omega

end Blocks

end Cert.KernelIdeal.R1Arr

end
-- ==== Proof.LibWholeStores.lean ====
/-
  Whole-buffer loads and stores. A kernel body that keeps an accumulator in a buffer reads and writes it through
  the rectangle at zero offsets of the buffer's own extents. Through that rectangle a load reads the contents, a
  store leaves its payload whatever was stored before, and a load after such a store reads the payload. The
  statements are over any view, any value type and any earlier list of stores.
-/
import Idealize.ShloMosaic.Lib.Pipeline.Value
import Idealize.ShloMosaic.Lib.Pipeline.Frame
import Idealize.ShloMosaic.Lib.Pipeline.FrameBody

noncomputable section

namespace Idealize.ShloMosaic.WholeStores

open Idealize.ShloMosaic

variable {Val : EltTy → Type} {S : Shape} {e : EltTy}

/-- After a list of stores whose LAST one goes through the whole rectangle, the buffer reads as that store's
    payload: earlier stores and earlier contents are overwritten. -/
theorem read_writes_whole_last [∀ e, Nonempty (Val e)] {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

/-- A load through the whole rectangle, after stores the last of which went through the whole rectangle, reads
    that store's payload. -/
theorem readCov_whole_last [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld v _ _ (fun y => ⟨_, List.mem_cons_self, View.mem_set_unit_zero h inb y⟩),
    View.canon_cons_unit_zero h inb, View.ld_unit_zero h inb]

/-- A load through the whole rectangle of a whole buffer whose contents read as X reads X. -/
theorem readAt_whole_unread {sig : RefSig} {κ : Kind} {sp : Space} {m : Memref sig κ sp S e} (hm : m.IsWhole)
    {off : Fin S.rank → Nat} (h : off = fun _ => 0) (inb : ∀ a, off a + S.size a ≤ S.size a) (X : S.Idx → Val e) :
    m.view.readAt Val (Rect.unit off S.size inb).toLoadRect (hm.unread X) = X := by
  rw [View.readAt_eq_ld, hm.read_unread, View.ld_unit_zero h inb]

end Idealize.ShloMosaic.WholeStores

end
-- ==== Proof.KI.R1Value.lean ====
/-
  Region 1's cases with their contents written out. One step of the online softmax on a 512-row query tile against a
  1024-row key/value tile, as functions of what the scratch buffers held: the new running maximum, the new running
  denominator, the new running numerator; at a first step they start from −∞, 0 and 0 with the query tile projected,
  biased and scaled afresh; at a last step the numerator over the denominator goes to the output window.
-/
import proofs.«110939_j30666066494217_2_alg».proof.Proof.KI.R1
import proofs.«110939_j30666066494217_2_alg».proof.Proof.LibWholeStores

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.WholeStores

/-- The projected, biased and scaled query tile. -/
def qNew (x0 : Vec F S512x1024 .f32) (x1 : Vec F S1024x1024 .bf16) (x2 : Vec F S1x1024 .f32) : Vec F S512x1024 .bf16 := k1_pay7 x0 x1 x2
/-- The running maximum after one more key tile. -/
def mNew (q : Vec F S512x1024 .bf16) (kb : Vec F S1024x1024 .bf16) (mo : Vec F S512x1 .f32) : Vec F S512x1 .f32 := k1_pay2 (k1_pay9 q kb mo)
/-- The running denominator after one more key tile. -/
def lNew (q : Vec F S512x1024 .bf16) (kb : Vec F S1024x1024 .bf16) (mo lo : Vec F S512x1 .f32) : Vec F S512x1 .f32 := k1_pay12 q kb mo mo lo
/-- The running numerator after one more key/value tile. -/
def aNew (q : Vec F S512x1024 .bf16) (kb vb : Vec F S1024x1024 .bf16) (mo : Vec F S512x1 .f32) (ao : Vec F S512x1024 .f32) : Vec F S512x1024 .f32 := k1_pay1 (k1_pay13 q kb mo mo vb ao)
/-- The quotient stored at a last step. -/
def oNew (a : Vec F S512x1024 .f32) (l : Vec F S512x1 .f32) : Vec F S512x1024 .f32 := k1_pay3 a l

theorem hz2 : (![0, 0] : Fin 2 → ℕ) = fun _ => 0 := by funext a; fin_cases a <;> rfl

/-- A whole load of scratch buffer 0 reads its contents. -/
theorem readAt_sc0 (X : Vec F S512x1 .f32) (h : (scM1_0).IsWhole) :
    View.readAt (Elt F) (View.whole cc1_scratch0 : View sig .tc .vmem S512x1 .f32) (Rect.unit ![0, 0] S512x1.size inb_S512x1_S512x1_0_0).toLoadRect (h.unread X) = X :=
  readAt_whole_unread (m := scM1_0) h hz2 _ X

/-- A whole load of scratch buffer 1 reads its contents. -/
theorem readAt_sc1 (X : Vec F S512x1 .f32) (h : (scM1_1).IsWhole) :
    View.readAt (Elt F) (View.whole cc1_scratch1 : View sig .tc .vmem S512x1 .f32) (Rect.unit ![0, 0] S512x1.size inb_S512x1_S512x1_0_0).toLoadRect (h.unread X) = X :=
  readAt_whole_unread (m := scM1_1) h hz2 _ X

/-- A whole load of scratch buffer 2 reads its contents. -/
theorem readAt_sc2 (X : Vec F S512x1024 .f32) (h : (scM1_2).IsWhole) :
    View.readAt (Elt F) (View.whole cc1_scratch2 : View sig .tc .vmem S512x1024 .f32) (Rect.unit ![0, 0] S512x1024.size inb_S512x1024_S512x1024_0_0).toLoadRect (h.unread X) = X :=
  readAt_whole_unread (m := scM1_2) h hz2 _ X

/-- A whole load of scratch buffer 3 reads its contents. -/
theorem readAt_sc3 (X : Vec F S512x1024 .bf16) (h : (scM1_3).IsWhole) :
    View.readAt (Elt F) (View.whole cc1_scratch3 : View sig .tc .vmem S512x1024 .bf16) (Rect.unit ![0, 0] S512x1024.size inb_S512x1024_S512x1024_0_0).toLoadRect (h.unread X) = X :=
  readAt_whole_unread (m := scM1_3) h hz2 _ X

section Region1
variable (V : (c : Dev nD) → (b : Ref sig .tc) → Buf (Elt F) ((c : Thread nD τ).loc b))

set_option maxHeartbeats 2000000 in
theorem caseA1_eq (c : Dev nD) (t : Fin cfg1.N) (h0 : t.val % 8 = 0) (h1 : ¬t.val % 8 = 7) :
    caseA1 V c t h0 h1 = (VO1_5.read (Elt F) VO1_5.junk,
      mNew (qNew (iblk1 V c 0 t) (iblk1 V c 1 t) (iblk1 V c 2 t)) (iblk1 V c 3 t) k1_pay4,
      lNew (qNew (iblk1 V c 0 t) (iblk1 V c 1 t) (iblk1 V c 2 t)) (iblk1 V c 3 t) k1_pay4 k1_pay5,
      aNew (qNew (iblk1 V c 0 t) (iblk1 V c 1 t) (iblk1 V c 2 t)) (iblk1 V c 3 t) (iblk1 V c 4 t) k1_pay4 k1_pay6,
      qNew (iblk1 V c 0 t) (iblk1 V c 1 t) (iblk1 V c 2 t)) := by
  unfold caseA1 kernelRun1_A
  dsimp only
  sl_unfold_words
  simp only [read_writes_whole_last (S := S512x1) _ _ hz2, readCov_whole_last (S := S512x1) _ hz2, readAt_whole_unread (S := S512x1) _ hz2, read_writes_whole_last (S := S512x1024) _ _ hz2, readCov_whole_last (S := S512x1024) _ hz2, readAt_whole_unread (S := S512x1024) _ hz2, read_writes_whole_last (S := S1024x1024) _ _ hz2, readCov_whole_last (S := S1024x1024) _ hz2, readAt_whole_unread (S := S1024x1024) _ hz2, read_writes_whole_last (S := S1x1024) _ _ hz2, readCov_whole_last (S := S1x1024) _ hz2, readAt_whole_unread (S := S1x1024) _ hz2, readAt_sc0, readAt_sc1, readAt_sc2, readAt_sc3, mNew, lNew, aNew, qNew]

set_option maxHeartbeats 2000000 in
theorem caseB1_eq (c : Dev nD) (t : Fin cfg1.N) (h0 : ¬t.val % 8 = 0) (h1 : ¬t.val % 8 = 7) (p : St1 F) :
    caseB1 V c t h0 h1 p = (VO1_5.read (Elt F) VO1_5.junk,
      mNew p.2.2.2.2 (iblk1 V c 3 t) p.2.1,
      lNew p.2.2.2.2 (iblk1 V c 3 t) p.2.1 p.2.2.1,
      aNew p.2.2.2.2 (iblk1 V c 3 t) (iblk1 V c 4 t) p.2.1 p.2.2.2.1,
      p.2.2.2.2) := by
  unfold caseB1 kernelRun1_B
  dsimp only
  sl_unfold_words
  rw [readAt_sc3, readAt_sc0, readAt_sc1, readAt_sc2]
  simp only [read_writes_whole_last (S := S512x1) _ _ hz2, readCov_whole_last (S := S512x1) _ hz2, readAt_whole_unread (S := S512x1) _ hz2, read_writes_whole_last (S := S512x1024) _ _ hz2, readCov_whole_last (S := S512x1024) _ hz2, readAt_whole_unread (S := S512x1024) _ hz2, read_writes_whole_last (S := S1024x1024) _ _ hz2, readCov_whole_last (S := S1024x1024) _ hz2, readAt_whole_unread (S := S1024x1024) _ hz2, read_writes_whole_last (S := S1x1024) _ _ hz2, readCov_whole_last (S := S1x1024) _ hz2, readAt_whole_unread (S := S1x1024) _ hz2, readAt_sc0, readAt_sc1, readAt_sc2, readAt_sc3, mNew, lNew, aNew]

set_option maxHeartbeats 2000000 in
theorem caseC1_eq (c : Dev nD) (t : Fin cfg1.N) (h0 : ¬t.val % 8 = 0) (h1 : t.val % 8 = 7) (p : St1 F) :
    caseC1 V c t h0 h1 p = (oNew (aNew p.2.2.2.2 (iblk1 V c 3 t) (iblk1 V c 4 t) p.2.1 p.2.2.2.1) (lNew p.2.2.2.2 (iblk1 V c 3 t) p.2.1 p.2.2.1),
      mNew p.2.2.2.2 (iblk1 V c 3 t) p.2.1,
      lNew p.2.2.2.2 (iblk1 V c 3 t) p.2.1 p.2.2.1,
      aNew p.2.2.2.2 (iblk1 V c 3 t) (iblk1 V c 4 t) p.2.1 p.2.2.2.1,
      p.2.2.2.2) := by
  unfold caseC1 kernelRun1_C
  dsimp only
  sl_unfold_words
  rw [readAt_sc3, readAt_sc0, readAt_sc1, readAt_sc2]
  simp only [read_writes_whole_last (S := S512x1) _ _ hz2, readCov_whole_last (S := S512x1) _ hz2, readAt_whole_unread (S := S512x1) _ hz2, read_writes_whole_last (S := S512x1024) _ _ hz2, readCov_whole_last (S := S512x1024) _ hz2, readAt_whole_unread (S := S512x1024) _ hz2, read_writes_whole_last (S := S1024x1024) _ _ hz2, readCov_whole_last (S := S1024x1024) _ hz2, readAt_whole_unread (S := S1024x1024) _ hz2, read_writes_whole_last (S := S1x1024) _ _ hz2, readCov_whole_last (S := S1x1024) _ hz2, readAt_whole_unread (S := S1x1024) _ hz2, readAt_sc0, readAt_sc1, readAt_sc2, readAt_sc3, mNew, lNew, aNew, oNew]

end Region1

end Cert.KernelIdeal.Gen

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.KI.Pay.lean ====
/-
  One step of the online softmax, read entry by entry at the exact values.

  A 512-row query tile q meets a 1024-row key tile kb and value tile vb. With m the running row maximum, l the running
  denominator and acc the running numerator, one step forms the scores s = q·kbᵀ, the new maximum
  m⁺(r) = max (m(r), max_j s(r, j)), the factor α(r) = exp (m(r) − m⁺(r)), the weights p(r, j) = exp (s(r, j) − m⁺(r)),
  the new denominator α(r)·l(r) + Σ_j p(r, j) and the new numerator α(r)·acc(r, k) + Σ_j p(r, j)·vb(j, k); the last
  step divides numerator by denominator. Each theorem below reads one of these arrays at a single index; the inner
  arrays stay folded under their names, so a later statement mentions the earlier ones. The starting values are −∞ for
  the maximum and 0 for the two sums; a shape cast to the same shape is the identity; the query projection is
  (x·Wᵀ + b) times a scale. Narrowing the element format is the identity on extended reals, so it leaves no trace.
-/
import proofs.«110939_j30666066494217_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«110939_j30666066494217_2_alg».proof.Proof.LibRowDot
import proofs.«110939_j30666066494217_2_alg».proof.Proof.LibPlainDot
import proofs.«110939_j30666066494217_2_alg».proof.Proof.LibKeepdims
import proofs.«110939_j30666066494217_2_alg».proof.Proof.LibRowBroadcasts

noncomputable section

namespace Cert.KernelIdeal.Pay

open Cert.KernelIdeal Cert.KernelIdeal.Gen Idealize.ShloMosaic Idealize.ShloMosaic.ValueIdx
open scoped BigOperators

/-- A shape cast to the same shape changes nothing (the accumulator tile written back). -/
theorem pay1_eq (v : FVec Ideal S512x1024 .f32) : k1_pay1 (F := Ideal) v = v :=
  shapeCast_self v _

/-- The same for the running-maximum column. -/
theorem pay2_eq (v : FVec Ideal S512x1 .f32) : k1_pay2 (F := Ideal) v = v :=
  shapeCast_self v _

/-- The single-precision word with sign bit set, exponent all ones and zero fraction denotes −∞. -/
theorem ofBits_neg_inf_f32 : Ideal.ofBits .f32 0xFF800000#32 = ⊥ := by
  simp [Ideal.ofBits, Ideal.ieee]

/-- Every [512,1]-shaped index is (its row, 0). -/
theorem eq_ix2_col (j : S512x1.Idx) : j = ix2 (⟨(j 0).val, idx2_lt0 j⟩ : Fin 512) (0 : Fin 1) := by
  funext a
  match a with
  | ⟨0, _⟩ => exact Fin.ext rfl
  | ⟨1, _⟩ => exact Fin.ext (by have := idx2_lt1 j; show (j 1).val = 0; omega)

/-- Inserting column j into the row index r of the row reduction gives the index (r, j). -/
theorem lift_eq (r : Fin 512) (j : Fin 1024) :
    reduces_S512x1024_S512.lift (ix1 r) j = ix2 r j := by
  funext c
  match c with
  | ⟨0, _⟩ => exact Fin.ext rfl
  | ⟨1, _⟩ => exact Fin.ext rfl

/-- The running maximum starts at −∞. -/
theorem pay4_apply (r : Fin 512) : k1_pay4 (F := Ideal) (ix2 r (0 : Fin 1)) = ⊥ := by
  unfold k1_pay4
  rw [shapeCast_self]
  exact ofBits_neg_inf_f32

/-- The running denominator starts at 0. -/
theorem pay5_apply (r : Fin 512) : k1_pay5 (F := Ideal) (ix2 r (0 : Fin 1)) = 0 := by
  unfold k1_pay5
  rw [shapeCast_self]
  exact Ideal.ofBits_zero_f32

/-- The running numerator starts at 0. -/
theorem pay6_apply (r : Fin 512) (k : Fin 1024) : k1_pay6 (F := Ideal) (ix2 r k) = 0 := by
  unfold k1_pay6
  rw [shapeCast_self]
  exact Ideal.ofBits_zero_f32

/-- The scaled query projection at (r, k): (x₀ · x₁ᵀ + bias) times the scale word. -/
theorem pay7_apply (x0 : Vec Ideal S512x1024 .f32) (x1 : Vec Ideal S1024x1024 .bf16) (x2 : Vec Ideal S1x1024 .f32)
    (r : Fin 512) (k : Fin 1024) :
    k1_pay7 x0 x1 x2 (ix2 r k)
      = ((∑ d : Fin 1024, x0 (ix2 r d) * x1 (ix2 k d)) + x2 (ix2 (0 : Fin 1) k)) * Ideal.ofBits .f32 0x3D000000#32 := by
  unfold k1_pay7
  rw [shapeCast_self, shapeCast_self, shapeCast_self]
  exact congrArg₂ (fun a b : EReal => (a + b) * Ideal.ofBits .f32 0x3D000000#32)
    (Cert.Lib.RowDot.matmul_zero_apply dot_S512x1024_S1024x1024_S512x1024_1_1_0_0_n_n_wf none
      (truncf .bf16 x0 bitsLt_bf16_f32) x1 r k)
    (Cert.Lib.Rows.bcastRow_apply x2 broadcasts_S1x1024_S512x1024 r k)

/-- The scores at (r, j): the inner product of query row r and key row j. -/
theorem pay8_apply (q : Vec Ideal S512x1024 .bf16) (kb : Vec Ideal S1024x1024 .bf16) (r : Fin 512) (j : Fin 1024) :
    k1_pay8 q kb (ix2 r j) = ∑ k : Fin 1024, q (ix2 r k) * kb (ix2 j k) := by
  unfold k1_pay8
  rw [shapeCast_self]
  exact Cert.Lib.RowDot.matmul_zero_apply dot_S512x1024_S1024x1024_S512x1024_1_1_0_0_n_n_wf none q kb r j

/-- The output tile at (r, k): numerator over denominator. -/
theorem pay3_apply (acc : Vec Ideal S512x1024 .f32) (l : Vec Ideal S512x1 .f32) (r : Fin 512) (k : Fin 1024) :
    k1_pay3 acc l (ix2 r k) = Ideal.div (acc (ix2 r k)) (l (ix2 r (0 : Fin 1))) := by
  unfold k1_pay3
  exact congrArg (Ideal.div (acc (ix2 r k))) (Cert.Lib.Keepdims.bcastCol_apply l broadcasts_S512x1_S512x1024 r k)

/-- The new running maximum of row r: the old one against the largest score of the row. -/
theorem pay9_apply (q : Vec Ideal S512x1024 .bf16) (kb : Vec Ideal S1024x1024 .bf16) (m : Vec Ideal S512x1 .f32)
    (r : Fin 512) :
    k1_pay9 q kb m (ix2 r (0 : Fin 1))
      = max (m (ix2 r (0 : Fin 1)))
          ((Finset.univ : Finset (Fin 1024)).fold max ⊥ fun j => k1_pay8 q kb (ix2 r j)) := by
  unfold k1_pay9
  refine congrArg (max (m (ix2 r (0 : Fin 1)))) ?_
  refine (Cert.Lib.Keepdims.col_apply _ shapeCasts_S512_S512x1 r 0).trans ?_
  refine (Ideal.multiReduction_maximumf_single (k1_pay8 q kb) 0xFF800000#32 reduces_S512x1024_S512 (.inl rfl) rfl
    (ix1 r)).trans ?_
  rw [show FloatOps.ofBits (F := Ideal) .f32 0xFF800000#32 = ⊥ from ofBits_neg_inf_f32]
  exact congrArg ((Finset.univ : Finset (Fin 1024)).fold max (⊥ : EReal))
    (funext fun j => congrArg (k1_pay8 q kb) (lift_eq r j))

/-- The rescaling factor of row r: exp (old maximum − new maximum). -/
theorem pay10_apply (q : Vec Ideal S512x1024 .bf16) (kb : Vec Ideal S1024x1024 .bf16) (m m' : Vec Ideal S512x1 .f32)
    (r : Fin 512) :
    k1_pay10 q kb m m' (ix2 r (0 : Fin 1))
      = Ideal.exp (m' (ix2 r (0 : Fin 1)) - k1_pay9 q kb m (ix2 r (0 : Fin 1))) := by
  unfold k1_pay10
  rfl

/-- The unnormalised weights at (r, j): exp (score − new maximum of the row). -/
theorem pay11_apply (q : Vec Ideal S512x1024 .bf16) (kb : Vec Ideal S1024x1024 .bf16) (m : Vec Ideal S512x1 .f32)
    (r : Fin 512) (j : Fin 1024) :
    k1_pay11 q kb m (ix2 r j) = Ideal.exp (k1_pay8 q kb (ix2 r j) - k1_pay9 q kb m (ix2 r (0 : Fin 1))) := by
  unfold k1_pay11
  exact congrArg (fun t : EReal => Ideal.exp (k1_pay8 q kb (ix2 r j) - t))
    (Cert.Lib.Keepdims.bcastCol_apply (k1_pay9 q kb m) broadcasts_S512x1_S512x1024 r j)

/-- The new denominator of row r: the old one rescaled plus the row sum of the weights. -/
theorem pay12_apply (q : Vec Ideal S512x1024 .bf16) (kb : Vec Ideal S1024x1024 .bf16) (m m' l : Vec Ideal S512x1 .f32)
    (r : Fin 512) :
    k1_pay12 q kb m m' l (ix2 r (0 : Fin 1))
      = k1_pay10 q kb m m' (ix2 r (0 : Fin 1)) * l (ix2 r (0 : Fin 1)) + ∑ j : Fin 1024, k1_pay11 q kb m (ix2 r j) := by
  unfold k1_pay12
  rw [shapeCast_self]
  refine congrArg (fun t : EReal => k1_pay10 q kb m m' (ix2 r (0 : Fin 1)) * l (ix2 r (0 : Fin 1)) + t) ?_
  refine (Cert.Lib.Keepdims.col_apply _ shapeCasts_S512_S512x1 r 0).trans ?_
  refine (Ideal.multiReduction_add_single (k1_pay11 q kb m) 0x00000000#32 reduces_S512x1024_S512 (.inl rfl) rfl
    (ix1 r)).trans ?_
  exact Finset.sum_congr rfl fun j _ => congrArg (k1_pay11 q kb m) (lift_eq r j)

/-- The new numerator at (r, k): the old one rescaled plus the weights of row r against column k of the values. -/
theorem pay13_apply (q : Vec Ideal S512x1024 .bf16) (kb : Vec Ideal S1024x1024 .bf16) (m m' : Vec Ideal S512x1 .f32)
    (vb : Vec Ideal S1024x1024 .bf16) (acc : Vec Ideal S512x1024 .f32) (r : Fin 512) (k : Fin 1024) :
    k1_pay13 q kb m m' vb acc (ix2 r k)
      = k1_pay10 q kb m m' (ix2 r (0 : Fin 1)) * acc (ix2 r k)
          + ∑ j : Fin 1024, k1_pay11 q kb m (ix2 r j) * vb (ix2 j k) := by
  unfold k1_pay13
  rw [shapeCast_self]
  exact congrArg₂ (fun a b : EReal => a * acc (ix2 r k) + b)
    (Cert.Lib.Keepdims.bcastCol_apply (k1_pay10 q kb m m') broadcasts_S512x1_S512x1024 r k)
    (Cert.Lib.PlainDot.matmul_zero_apply dot_S512x1024_S1024x1024_S512x1024_1_0_0_1_n_n_wf none
      (truncf .bf16 (k1_pay11 q kb m) bitsLt_bf16_f32) vb r k)

end Cert.KernelIdeal.Pay

end
-- ==== Proof.LibERealSums.lean ====
/-
  Finite sums and maxima of real numbers inside the extended reals.

  The coercion of the reals into the extended reals carries a finite sum to the sum and a maximum to the maximum;
  and folding `max` from `-∞` over a nonempty finite family of reals gives a real. These are what turns a row
  statistic of finite inputs (a sum, a maximum, a log-sum-exp) into a real number, where the extended reals'
  failures of distributivity and cancellation at the infinities cannot occur.
-/
import Mathlib.Data.EReal.Basic
import Mathlib.Algebra.BigOperators.Group.Finset.Basic
import Mathlib.Data.Finset.Fold

noncomputable section

open scoped BigOperators

namespace Cert.Lib.ERealSums

/-- A finite sum of coerced reals is the coercion of the real sum. -/
theorem coe_sum_real {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of two coerced reals is the coercion of their maximum. -/
theorem coe_max_real (a b : ℝ) : max (a : EReal) (b : EReal) = ((max a b : ℝ) : EReal) :=
  (EReal.coe_strictMono.monotone.map_max).symm

/-- Folding `max` from `-∞` over a nonempty family of reals gives a real. -/
theorem fold_max_real {ι : Type*} (s : Finset ι) (hs : s.Nonempty) (a : ι → ℝ) :
    ∃ M : ℝ, s.fold max ⊥ (fun i => ((a i : ℝ) : EReal)) = (M : EReal) := by
  induction hs using Finset.Nonempty.cons_induction with
  | singleton i => exact ⟨a i, by rw [Finset.fold_singleton, max_bot_right]⟩
  | cons i s hi hs ih =>
    obtain ⟨M, hM⟩ := ih
    exact ⟨max (a i) M, by rw [Finset.fold_cons, hM, coe_max_real]⟩

end Cert.Lib.ERealSums

end
-- ==== Proof.LibOnlineSoftmax.lean ====
/-
  The online-softmax law on the extended reals.

  A softmax-weighted sum over `nb` blocks of `B` scores can be accumulated block by block while carrying three
  numbers: the running maximum `m`, the running denominator `l = Σ exp (s - m)` and the running numerator
  `acc = Σ exp (s - m) · v`. When a new block raises the maximum from `m` to `m'`, the two running sums are
  rescaled by `exp (m - m')`, because `exp (m - m') · exp (s - m) = exp (s - m')`. The state starts at
  `(-∞, 0, 0)`; the first block's rescaling factor is `exp (-∞) = 0` and multiplies `0`.

  For real scores and values every state after the first block consists of real numbers, so all the arithmetic
  happens in the reals, where distributivity and cancellation hold. After the last block the quotient
  `acc / l` is the softmax-weighted sum taken in one piece: weights `exp (s - M) / Σ exp (s - M)` with `M` the
  overall maximum.
-/
import Mathlib.Data.EReal.Operations
import Mathlib.Data.EReal.Inv
import Mathlib.Order.Bounds.Basic
import Mathlib.Algebra.BigOperators.Ring.Finset
import Mathlib.Algebra.Order.BigOperators.Group.Finset
import Idealize.ShloMosaic.PureOps.Ideal
import proofs.«110939_j30666066494217_2_alg».proof.Proof.LibERealSums

noncomputable section

open scoped BigOperators

namespace Cert.Lib.OnlineSoftmax

open Idealize.ShloMosaic
open Cert.Lib.ERealSums

variable {nb B : ℕ}

/-- One block of the online softmax: raise the running maximum by the block's maximum, rescale the running
    denominator and numerator by `exp (m - m')`, and add the block's terms taken relative to the new maximum. -/
def upd (s v : Fin B → EReal) (st : EReal × EReal × EReal) : EReal × EReal × EReal :=
  let m' := max st.1 ((Finset.univ : Finset (Fin B)).fold max ⊥ s)
  let α := Ideal.exp (st.1 - m')
  (m', α * st.2.1 + ∑ j, Ideal.exp (s j - m'), α * st.2.2 + ∑ j, Ideal.exp (s j - m') * v j)

/-- The state after the first `n` blocks, from `(-∞, 0, 0)`. -/
def run (s v : Fin nb → Fin B → EReal) : (n : ℕ) → n ≤ nb → EReal × EReal × EReal
  | 0, _ => (⊥, 0, 0)
  | n+1, h => upd (s ⟨n, h⟩) (v ⟨n, h⟩) (run s v n (Nat.le_of_succ_le h))

theorem run_zero (s v : Fin nb → Fin B → EReal) (h : 0 ≤ nb) : run s v 0 h = (⊥, 0, 0) := rfl

theorem run_succ (s v : Fin nb → Fin B → EReal) (n : ℕ) (h : n + 1 ≤ nb) :
    run s v (n + 1) h = upd (s ⟨n, h⟩) (v ⟨n, h⟩) (run s v n (Nat.le_of_succ_le h)) := rfl

/-- `-∞` is neutral for the maximum. -/
theorem max_bot_left (x : EReal) : max ⊥ x = x := _root_.max_bot_left x

/-- Folding `max` from `-∞` over a nonempty finite family of reals gives a real, the greatest of the family. -/
theorem fold_max_coe_isGreatest_finset {ι : Type*} (s : Finset ι) (hs : s.Nonempty) (a : ι → ℝ) :
    ∃ M : ℝ, s.fold max ⊥ (fun i => ((a i : ℝ) : EReal)) = (M : EReal) ∧ IsGreatest (a '' (s : Set ι)) M := by
  induction hs using Finset.Nonempty.cons_induction with
  | singleton i =>
    refine ⟨a i, by rw [Finset.fold_singleton, max_bot_right], ?_⟩
    rw [Finset.coe_singleton, Set.image_singleton]
    exact isGreatest_singleton
  | cons i s hi hs ih =>
    obtain ⟨M, hM, hG⟩ := ih
    refine ⟨max (a i) M, by rw [Finset.fold_cons, hM, coe_max_real], ?_⟩
    rw [Finset.coe_cons, Set.image_insert_eq]
    exact hG.insert (a i)

/-- The same over all of `Fin n`, `n` positive. -/
theorem fold_max_coe_isGreatest {n : ℕ} (hn : 0 < n) (f : Fin n → ℝ) :
    ∃ M : ℝ, ((Finset.univ : Finset (Fin n)).fold max ⊥ fun i => (f i : EReal)) = (M : EReal) ∧
      IsGreatest (Set.range f) M := by
  haveI : Nonempty (Fin n) := ⟨⟨0, hn⟩⟩
  obtain ⟨M, hM, hG⟩ := fold_max_coe_isGreatest_finset Finset.univ Finset.univ_nonempty f
  refine ⟨M, hM, ?_⟩
  rwa [Finset.coe_univ, Set.image_univ] at hG

/-- The exponential of a difference of two reals is the real exponential. -/
theorem exp_coe_sub (x y : ℝ) : Ideal.exp ((x : EReal) - (y : EReal)) = ((Real.exp (x - y) : ℝ) : EReal) := by
  rw [← EReal.coe_sub]; rfl

/-- The first block: from `(-∞, 0, 0)` the state becomes the block's maximum and the block's two sums. -/
theorem upd_bot (hB : 0 < B) (s v : Fin B → ℝ) :
    ∃ Mb : ℝ, IsGreatest (Set.range s) Mb ∧
      upd (fun j => (s j : EReal)) (fun j => (v j : EReal)) (⊥, 0, 0)
        = ((Mb : EReal), ((∑ j, Real.exp (s j - Mb) : ℝ) : EReal),
            ((∑ j, Real.exp (s j - Mb) * v j : ℝ) : EReal)) := by
  obtain ⟨Mb, hMb, hG⟩ := fold_max_coe_isGreatest hB s
  refine ⟨Mb, hG, ?_⟩
  simp only [upd]
  rw [hMb, _root_.max_bot_left, EReal.bot_sub, Ideal.exp_bot, zero_mul, zero_add, zero_add]
  simp only [exp_coe_sub, ← EReal.coe_mul, coe_sum_real]

/-- A later block: from a real state the new state is real, given by the same formulas in the reals. -/
theorem upd_real (hB : 0 < B) (s v : Fin B → ℝ) (m l a : ℝ) :
    ∃ Mb : ℝ, IsGreatest (Set.range s) Mb ∧
      upd (fun j => (s j : EReal)) (fun j => (v j : EReal)) ((m : EReal), (l : EReal), (a : EReal))
        = (((max m Mb : ℝ) : EReal),
           ((Real.exp (m - max m Mb) * l + ∑ j, Real.exp (s j - max m Mb) : ℝ) : EReal),
           ((Real.exp (m - max m Mb) * a + ∑ j, Real.exp (s j - max m Mb) * v j : ℝ) : EReal)) := by
  obtain ⟨Mb, hMb, hG⟩ := fold_max_coe_isGreatest hB s
  refine ⟨Mb, hG, ?_⟩
  simp only [upd]
  rw [hMb, coe_max_real]
  simp only [exp_coe_sub, ← EReal.coe_mul, coe_sum_real, ← EReal.coe_add]

/-- Rescaling by `exp (m - m')` moves a term from the old maximum to the new one. -/
theorem exp_rescale (m m' x : ℝ) : Real.exp (m - m') * Real.exp (x - m) = Real.exp (x - m') := by
  rw [← Real.exp_add]; congr 1; ring

/-- The blocks below `n + 1` are the blocks below `n` together with block `n`. -/
theorem filter_lt_succ (n : ℕ) (h : n + 1 ≤ nb) :
    (Finset.univ.filter fun b : Fin nb => b.val < n + 1)
      = insert (⟨n, h⟩ : Fin nb) (Finset.univ.filter fun b : Fin nb => b.val < n) := by
  ext b
  simp only [Finset.mem_filter, Finset.mem_univ, true_and, Finset.mem_insert, Fin.ext_iff]
  omega

theorem not_mem_filter_lt (n : ℕ) (h : n + 1 ≤ nb) :
    (⟨n, h⟩ : Fin nb) ∉ Finset.univ.filter fun b : Fin nb => b.val < n := by
  simp only [Finset.mem_filter, Finset.mem_univ, true_and, lt_self_iff_false, not_false_eq_true]

/-- After `n + 1` blocks of real scores and values the state is real: the maximum `m` of the scores seen, and
    the two sums over the blocks seen, taken relative to `m`. -/
theorem run_real (hB : 0 < B) (s v : Fin nb → Fin B → ℝ) (n : ℕ) (h : n + 1 ≤ nb) :
    ∃ m : ℝ, (∃ b : Fin nb, b.val < n + 1 ∧ ∃ j, s b j = m) ∧ (∀ b : Fin nb, b.val < n + 1 → ∀ j, s b j ≤ m) ∧
      run (fun b j => (s b j : EReal)) (fun b j => (v b j : EReal)) (n + 1) h
        = ((m : EReal),
           ((∑ b ∈ Finset.univ.filter (fun b : Fin nb => b.val < n + 1), ∑ j, Real.exp (s b j - m) : ℝ) : EReal),
           ((∑ b ∈ Finset.univ.filter (fun b : Fin nb => b.val < n + 1), ∑ j, Real.exp (s b j - m) * v b j : ℝ)
              : EReal)) := by
  induction n with
  | zero =>
    obtain ⟨Mb, hG, hE⟩ := upd_bot hB (s ⟨0, h⟩) (v ⟨0, h⟩)
    obtain ⟨j0, hj0⟩ := hG.1
    refine ⟨Mb, ⟨⟨0, h⟩, Nat.zero_lt_one, j0, hj0⟩, ?_, ?_⟩
    · intro b hb j
      have hb0 : b = ⟨0, h⟩ := Fin.ext (by simpa using hb)
      rw [hb0]
      exact hG.2 ⟨j, rfl⟩
    · rw [run_succ, run_zero, hE, filter_lt_succ 0 h]
      have hemp : (Finset.univ.filter fun b : Fin nb => b.val < 0) = ∅ := by
        ext b; simp
      rw [hemp]
      simp only [insert_empty_eq, Finset.sum_singleton]
  | succ n ih =>
    obtain ⟨m, ⟨b0, hb0, j0, hj0⟩, hle, hE⟩ := ih (Nat.le_of_succ_le h)
    obtain ⟨Mb, hG, hU⟩ := upd_real hB (s ⟨n + 1, h⟩) (v ⟨n + 1, h⟩) m
      (∑ b ∈ Finset.univ.filter (fun b : Fin nb => b.val < n + 1), ∑ j, Real.exp (s b j - m))
      (∑ b ∈ Finset.univ.filter (fun b : Fin nb => b.val < n + 1), ∑ j, Real.exp (s b j - m) * v b j)
    obtain ⟨j1, hj1⟩ := hG.1
    refine ⟨max m Mb, ?_, ?_, ?_⟩
    · rcases le_total m Mb with hc | hc
      · exact ⟨⟨n + 1, h⟩, Nat.lt_succ_self _, j1, by rw [max_eq_right hc]; exact hj1⟩
      · exact ⟨b0, Nat.lt_succ_of_lt hb0, j0, by rw [max_eq_left hc]; exact hj0⟩
    · intro b hb j
      rcases Nat.lt_succ_iff_lt_or_eq.mp hb with hlt | heq
      · exact le_trans (hle b hlt j) (le_max_left _ _)
      · have hbe : b = ⟨n + 1, h⟩ := Fin.ext heq
        rw [hbe]
        exact le_trans (hG.2 ⟨j, rfl⟩) (le_max_right _ _)
    · rw [run_succ, hE, hU, filter_lt_succ (n + 1) h,
        Finset.sum_insert (not_mem_filter_lt (n + 1) h), Finset.sum_insert (not_mem_filter_lt (n + 1) h)]
      congr 2
      · congr 1
        rw [Finset.mul_sum, add_comm]
        congr 1
        refine Finset.sum_congr rfl fun b _ => ?_
        rw [Finset.mul_sum]
        exact Finset.sum_congr rfl fun j _ => exp_rescale m (max m Mb) (s b j)
      · congr 1
        rw [Finset.mul_sum, add_comm]
        congr 1
        refine Finset.sum_congr rfl fun b _ => ?_
        rw [Finset.mul_sum]
        exact Finset.sum_congr rfl fun j _ => by rw [← mul_assoc, exp_rescale]

/-- The online-softmax law: after the last block the quotient of the running numerator by the running
    denominator is the sum of the values weighted by `exp (s - M) / Σ exp (s - M)`, `M` the overall maximum. -/
theorem run_div_eq (hB : 0 < B) (hnb : 0 < nb) (s v : Fin nb → Fin B → ℝ) (M : ℝ)
    (hM : IsGreatest (Set.range fun p : Fin nb × Fin B => s p.1 p.2) M) :
    Ideal.div (run (fun b j => (s b j : EReal)) (fun b j => (v b j : EReal)) nb le_rfl).2.2
              (run (fun b j => (s b j : EReal)) (fun b j => (v b j : EReal)) nb le_rfl).2.1
      = ∑ p : Fin nb × Fin B, Ideal.div (Ideal.exp ((s p.1 p.2 : EReal) - (M : EReal)))
            ((0 : EReal) + ∑ q : Fin nb × Fin B, Ideal.exp ((s q.1 q.2 : EReal) - (M : EReal))) * (v p.1 p.2 : EReal) := by
  obtain ⟨k, rfl⟩ : ∃ k, nb = k + 1 := Nat.exists_eq_succ_of_ne_zero hnb.ne'
  haveI : Nonempty (Fin B) := ⟨⟨0, hB⟩⟩
  obtain ⟨m, ⟨b0, _, j0, hj0⟩, hle, hE⟩ := run_real hB s v k le_rfl
  have hmM : m = M := by
    apply le_antisymm
    · rw [← hj0]; exact hM.2 ⟨(b0, j0), rfl⟩
    · obtain ⟨p, hp⟩ := hM.1
      rw [← hp]; exact hle p.1 p.1.isLt p.2
  subst hmM
  have hall : (Finset.univ.filter fun b : Fin (k + 1) => b.val < k + 1) = Finset.univ :=
    Finset.filter_true_of_mem fun b _ => b.isLt
  rw [hall] at hE
  have hL : 0 < ∑ b : Fin (k + 1), ∑ j : Fin B, Real.exp (s b j - m) :=
    Finset.sum_pos (fun b _ => Finset.sum_pos (fun j _ => Real.exp_pos _) Finset.univ_nonempty) Finset.univ_nonempty
  have hden : (0 : EReal) + ∑ q : Fin (k + 1) × Fin B, Ideal.exp ((s q.1 q.2 : EReal) - (m : EReal))
      = ((∑ b : Fin (k + 1), ∑ j : Fin B, Real.exp (s b j - m) : ℝ) : EReal) := by
    rw [zero_add]
    simp only [exp_coe_sub, coe_sum_real]
    rw [Fintype.sum_prod_type]
  rw [hE, hden]
  simp only [Ideal.div_coe hL.ne', exp_coe_sub, ← EReal.coe_mul, coe_sum_real]
  congr 1
  rw [Fintype.sum_prod_type, Finset.sum_mul]
  refine Finset.sum_congr rfl fun b _ => ?_
  rw [Finset.sum_mul]
  exact Finset.sum_congr rfl fun j _ => by ring

end Cert.Lib.OnlineSoftmax

end
-- ==== Proof.KI.R1Step.lean ====
/-
  One step of the online softmax is one application of the block update.

  Read at a single query row r (and, for the numerator, a single value column k), the new running maximum, the new
  running denominator and the new running numerator of a step are obtained from the old three numbers at that row by
  the block update of the online-softmax law, applied to the row's scores against the key tile and to column k of the
  value tile. The rescaling factor uses the old maximum on both sides, exp (m − m⁺). A first step starts from
  −∞, 0 and 0; a later step starts from what the step before left.
-/
import proofs.«110939_j30666066494217_2_alg».proof.Proof.KI.Pay
import proofs.«110939_j30666066494217_2_alg».proof.Proof.LibOnlineSoftmax

noncomputable section

namespace Cert.KernelIdeal.R1Step

open Cert.KernelIdeal Cert.KernelIdeal.Gen Cert.KernelIdeal.Pay Idealize.ShloMosaic Idealize.ShloMosaic.ValueIdx
open Cert.Lib
open scoped BigOperators

/-- The scores of query row r against the rows of a key tile. -/
def scoreRow (q : Vec Ideal S512x1024 .bf16) (kb : Vec Ideal S1024x1024 .bf16) (r : Fin 512) (j : Fin 1024) : EReal :=
  ∑ kk : Fin 1024, q (ix2 r kk) * kb (ix2 j kk)

/-- Column k of a value tile. -/
def valCol (vb : Vec Ideal S1024x1024 .bf16) (k : Fin 1024) (j : Fin 1024) : EReal := vb (ix2 j k)

/-- One step, read at row r and column k, is the block update of the three old numbers at that row. -/
theorem step_eq (q : Vec Ideal S512x1024 .bf16) (kb vb : Vec Ideal S1024x1024 .bf16)
    (mo lo : Vec Ideal S512x1 .f32) (ao : Vec Ideal S512x1024 .f32) (r : Fin 512) (k : Fin 1024)
    (st : EReal × EReal × EReal)
    (hm : mo (ix2 r (0 : Fin 1)) = st.1) (hl : lo (ix2 r (0 : Fin 1)) = st.2.1) (ha : ao (ix2 r k) = st.2.2) :
    (k1_pay2 (F := Ideal) (k1_pay9 q kb mo) (ix2 r (0 : Fin 1)),
      k1_pay12 (F := Ideal) q kb mo mo lo (ix2 r (0 : Fin 1)),
      k1_pay1 (F := Ideal) (k1_pay13 q kb mo mo vb ao) (ix2 r k))
      = OnlineSoftmax.upd (scoreRow q kb r) (valCol vb k) st := by
  rw [pay2_eq, pay1_eq, pay12_apply, pay13_apply, pay10_apply]
  simp only [pay11_apply, pay9_apply, pay8_apply, hm, hl, ha]
  rfl

/-- The five buffers a step leaves: the output tile, the running maximum, denominator and numerator, the projected query. -/
abbrev St : Type := Vec Ideal S512x1024 .f32 × Vec Ideal S512x1 .f32 × Vec Ideal S512x1 .f32 × Vec Ideal S512x1024 .f32
  × Vec Ideal S512x1024 .bf16

/-- A first step: the projected query is the fresh one, and the three numbers at row r (column k) are the block update
    of −∞, 0, 0. -/
theorem first_read (q : Vec Ideal S512x1024 .bf16) (kb vb : Vec Ideal S1024x1024 .bf16) (o : Vec Ideal S512x1024 .f32)
    (r : Fin 512) (k : Fin 1024) (p' : St)
    (hp' : p' = (o, k1_pay2 (F := Ideal) (k1_pay9 q kb (k1_pay4 (F := Ideal))),
      k1_pay12 (F := Ideal) q kb (k1_pay4 (F := Ideal)) (k1_pay4 (F := Ideal)) (k1_pay5 (F := Ideal)),
      k1_pay1 (F := Ideal) (k1_pay13 q kb (k1_pay4 (F := Ideal)) (k1_pay4 (F := Ideal)) vb (k1_pay6 (F := Ideal))), q)) :
    p'.2.2.2.2 = q ∧
      (p'.2.1 (ix2 r (0 : Fin 1)), p'.2.2.1 (ix2 r (0 : Fin 1)), p'.2.2.2.1 (ix2 r k))
        = OnlineSoftmax.upd (scoreRow q kb r) (valCol vb k) (⊥, 0, 0) := by
  subst hp'
  exact ⟨rfl, step_eq q kb vb _ _ _ r k (⊥, 0, 0) (pay4_apply r) (pay5_apply r) (pay6_apply r k)⟩

/-- A later step, from what the step before left (p): the projected query is kept, and the three numbers at row r
    (column k) are the block update of the three numbers p held there. -/
theorem next_read (q : Vec Ideal S512x1024 .bf16) (kb vb : Vec Ideal S1024x1024 .bf16) (o : Vec Ideal S512x1024 .f32)
    (r : Fin 512) (k : Fin 1024) (p p' : St) (st : EReal × EReal × EReal)
    (hq : p.2.2.2.2 = q)
    (hs : (p.2.1 (ix2 r (0 : Fin 1)), p.2.2.1 (ix2 r (0 : Fin 1)), p.2.2.2.1 (ix2 r k)) = st)
    (hp' : p' = (o, k1_pay2 (F := Ideal) (k1_pay9 p.2.2.2.2 kb p.2.1), k1_pay12 (F := Ideal) p.2.2.2.2 kb p.2.1 p.2.1 p.2.2.1,
      k1_pay1 (F := Ideal) (k1_pay13 p.2.2.2.2 kb p.2.1 p.2.1 vb p.2.2.2.1), p.2.2.2.2)) :
    p'.2.2.2.2 = q ∧
      (p'.2.1 (ix2 r (0 : Fin 1)), p'.2.2.1 (ix2 r (0 : Fin 1)), p'.2.2.2.1 (ix2 r k))
        = OnlineSoftmax.upd (scoreRow q kb r) (valCol vb k) st := by
  subst hp' hq hs
  exact ⟨rfl, step_eq _ kb vb _ _ _ r k _ rfl rfl rfl⟩

/-- A last step stores, at (r, k), the new numerator over the new denominator of row r. -/
theorem last_read (a : Vec Ideal S512x1024 .f32) (m l : Vec Ideal S512x1 .f32) (q : Vec Ideal S512x1024 .bf16)
    (r : Fin 512) (k : Fin 1024) (p' : St) (hp' : p' = (k1_pay3 (F := Ideal) a l, m, l, a, q)) :
    p'.1 (ix2 r k) = Ideal.div (p'.2.2.2.1 (ix2 r k)) (p'.2.2.1 (ix2 r (0 : Fin 1))) := by
  subst hp'
  exact pay3_apply a l r k

end Cert.KernelIdeal.R1Step

end
-- ==== Proof.KI.R1Rec.lean ====
/-
  The attention call's recurrence is the online-softmax run.

  The grid is 16 query tiles by 8 key/value steps, point 8·qi + ki. Within query tile qi the projected query is computed
  at the first step and kept; read at one query row r (and one value column k), the running maximum, denominator and
  numerator after step ki are the online-softmax state after ki + 1 blocks, the blocks being the row's scores against
  key tile b and column k of value tile b. Induction on ki: step 0 starts from −∞, 0, 0; step ki + 1 continues from
  the point before, which is in the same query tile. At the last step the output window holds numerator over
  denominator.
-/
import proofs.«110939_j30666066494217_2_alg».proof.Proof.KI.R1Value
import proofs.«110939_j30666066494217_2_alg».proof.Proof.KI.R1Step

noncomputable section

namespace Cert.KernelIdeal.R1Rec

open Cert.KernelIdeal Cert.KernelIdeal.Gen Cert.KernelIdeal.Pay Cert.KernelIdeal.R1Step
open Idealize.ShloMosaic Idealize.ShloMosaic.TcCoe Idealize.SL.Sem Idealize.ShloMosaic.ValueIdx
open Cert.Lib
open scoped BigOperators

variable (V : (c : Dev nD) → (b : Ref sig .tc) → Buf (Elt Ideal) ((c : Thread nD τ).loc b))

/-- Point 8·qi + n, n below 8, is one of the 128 grid points. -/
theorem pt_lt (qi : Fin 16) (n : ℕ) (hn : n < 8) : 8 * qi.val + n < cfg1.N := by
  have h : cfg1.N = 128 := N_1
  have := qi.isLt
  omega

/-- The first point of query tile qi. -/
theorem pt0_lt (qi : Fin 16) : 8 * qi.val < cfg1.N := by
  have h : cfg1.N = 128 := N_1
  have := qi.isLt
  omega

/-- The buffers after a point do not depend on how the point's number is written. -/
theorem outsAt1_congr (c : Dev nD) {n n' : ℕ} (h : n = n') (hn : n < cfg1.N) (hn' : n' < cfg1.N) :
    outsAt1 V c n hn = outsAt1 V c n' hn' := by
  subst h; rfl

/-- Query tile qi's projected query, computed at the tile's first step. -/
def qT (c : Dev nD) (qi : Fin 16) : Vec Ideal S512x1024 .bf16 :=
  qNew (iblk1 V c 0 ⟨8 * qi.val, pt0_lt qi⟩) (iblk1 V c 1 ⟨8 * qi.val, pt0_lt qi⟩) (iblk1 V c 2 ⟨8 * qi.val, pt0_lt qi⟩)

/-- The scores of query row r of tile qi against key tile b. -/
def sT (c : Dev nD) (qi : Fin 16) (r : Fin 512) (b : Fin 8) (j : Fin 1024) : EReal :=
  ∑ kk : Fin 1024, qT V c qi (ix2 r kk)
    * (iblk1 V c 3 ⟨8 * qi.val + b.val, pt_lt qi b.val b.isLt⟩ : Vec Ideal S1024x1024 .bf16) (ix2 j kk)

/-- Column k of value tile b, as staged for query tile qi. -/
def vT (c : Dev nD) (qi : Fin 16) (k : Fin 1024) (b : Fin 8) (j : Fin 1024) : EReal :=
  (iblk1 V c 4 ⟨8 * qi.val + b.val, pt_lt qi b.val b.isLt⟩ : Vec Ideal S1024x1024 .bf16) (ix2 j k)

theorem sT_eq (c : Dev nD) (qi : Fin 16) (r : Fin 512) (b : Fin 8) :
    sT V c qi r b = scoreRow (qT V c qi) (iblk1 V c 3 ⟨8 * qi.val + b.val, pt_lt qi b.val b.isLt⟩) r := rfl

theorem vT_eq (c : Dev nD) (qi : Fin 16) (k : Fin 1024) (b : Fin 8) :
    vT V c qi k b = valCol (iblk1 V c 4 ⟨8 * qi.val + b.val, pt_lt qi b.val b.isLt⟩) k := rfl

/-- After step n of query tile qi: the projected query is the tile's, and the three statistics at row r (column k)
    are the online-softmax state after n + 1 blocks. -/
theorem state_nat (c : Dev nD) (qi : Fin 16) (r : Fin 512) (k : Fin 1024) :
    ∀ (n : ℕ) (hn : n < 8),
      (outsAt1 V c (8 * qi.val + n) (pt_lt qi n hn)).2.2.2.2 = qT V c qi ∧
      ((outsAt1 V c (8 * qi.val + n) (pt_lt qi n hn)).2.1 (ix2 r (0 : Fin 1)),
       (outsAt1 V c (8 * qi.val + n) (pt_lt qi n hn)).2.2.1 (ix2 r (0 : Fin 1)),
       (outsAt1 V c (8 * qi.val + n) (pt_lt qi n hn)).2.2.2.1 (ix2 r k))
        = OnlineSoftmax.run (sT V c qi r) (vT V c qi k) (n + 1) (Nat.succ_le_of_lt hn) := by
  intro n
  induction n with
  | zero =>
    intro hn
    have h0 : (⟨8 * qi.val + 0, pt_lt qi 0 hn⟩ : Fin cfg1.N).val % 8 = 0 := by
      show (8 * qi.val + 0) % 8 = 0
      omega
    have h1 : ¬ (⟨8 * qi.val + 0, pt_lt qi 0 hn⟩ : Fin cfg1.N).val % 8 = 7 := by
      show ¬ (8 * qi.val + 0) % 8 = 7
      omega
    have hA := (outsAt1_A V c ⟨8 * qi.val + 0, pt_lt qi 0 hn⟩ h0 h1).trans (caseA1_eq V c _ h0 h1)
    have key := first_read (qT V c qi) (iblk1 V c 3 ⟨8 * qi.val + (⟨0, hn⟩ : Fin 8).val, pt_lt qi _ hn⟩)
      (iblk1 V c 4 ⟨8 * qi.val + (⟨0, hn⟩ : Fin 8).val, pt_lt qi _ hn⟩) _ r k _ hA
    rw [OnlineSoftmax.run_succ, OnlineSoftmax.run_zero]
    exact key
  | succ n ih =>
    intro hn
    have hn' : n < 8 := Nat.lt_of_succ_lt hn
    obtain ⟨ihq, ihs⟩ := ih hn'
    have h0 : ¬ (⟨8 * qi.val + (n + 1), pt_lt qi (n + 1) hn⟩ : Fin cfg1.N).val % 8 = 0 := by
      show ¬ (8 * qi.val + (n + 1)) % 8 = 0
      omega
    have hprev : outsAt1 V c ((⟨8 * qi.val + (n + 1), pt_lt qi (n + 1) hn⟩ : Fin cfg1.N).val - 1)
        (Nat.lt_of_le_of_lt (Nat.sub_le _ _) (pt_lt qi (n + 1) hn)) = outsAt1 V c (8 * qi.val + n) (pt_lt qi n hn') :=
      outsAt1_congr V c (by show 8 * qi.val + (n + 1) - 1 = 8 * qi.val + n; omega) _ _
    rw [OnlineSoftmax.run_succ]
    by_cases h1 : (⟨8 * qi.val + (n + 1), pt_lt qi (n + 1) hn⟩ : Fin cfg1.N).val % 8 = 7
    · have hC := (outsAt1_C V c ⟨8 * qi.val + (n + 1), pt_lt qi (n + 1) hn⟩ h0 h1).trans (caseC1_eq V c _ h0 h1 _)
      rw [hprev] at hC
      exact next_read (qT V c qi) (iblk1 V c 3 ⟨8 * qi.val + (⟨n + 1, hn⟩ : Fin 8).val, pt_lt qi _ hn⟩)
        (iblk1 V c 4 ⟨8 * qi.val + (⟨n + 1, hn⟩ : Fin 8).val, pt_lt qi _ hn⟩) _ r k _ _ _ ihq ihs hC
    · have hB := (outsAt1_B V c ⟨8 * qi.val + (n + 1), pt_lt qi (n + 1) hn⟩ h0 h1).trans (caseB1_eq V c _ h0 h1 _)
      rw [hprev] at hB
      exact next_read (qT V c qi) (iblk1 V c 3 ⟨8 * qi.val + (⟨n + 1, hn⟩ : Fin 8).val, pt_lt qi _ hn⟩)
        (iblk1 V c 4 ⟨8 * qi.val + (⟨n + 1, hn⟩ : Fin 8).val, pt_lt qi _ hn⟩) _ r k _ _ _ ihq ihs hB

/-- The recurrence inside query tile qi: after step ki the projected query is the tile's, and the running maximum,
    denominator and numerator at row r (column k) are the online-softmax state after ki + 1 blocks. -/
theorem state_eq (c : Dev nD) (qi : Fin 16) (ki : Fin 8) (r : Fin 512) (k : Fin 1024) :
    (outsAt1 V c (8 * qi.val + ki.val) (pt_lt qi ki.val ki.isLt)).2.2.2.2 = qT V c qi ∧
    ((outsAt1 V c (8 * qi.val + ki.val) (pt_lt qi ki.val ki.isLt)).2.1 (ix2 r (0 : Fin 1)),
     (outsAt1 V c (8 * qi.val + ki.val) (pt_lt qi ki.val ki.isLt)).2.2.1 (ix2 r (0 : Fin 1)),
     (outsAt1 V c (8 * qi.val + ki.val) (pt_lt qi ki.val ki.isLt)).2.2.2.1 (ix2 r k))
      = OnlineSoftmax.run (sT V c qi r) (vT V c qi k) (ki.val + 1) (Nat.succ_le_of_lt ki.isLt) :=
  state_nat V c qi r k ki.val ki.isLt

/-- The output window after the last step of query tile qi, at (r, k): the final numerator over the final
    denominator. -/
theorem out_eq (c : Dev nD) (qi : Fin 16) (r : Fin 512) (k : Fin 1024) :
    (outsAt1 V c (8 * qi.val + 7) (pt_lt qi 7 (by omega))).1 (ix2 r k)
      = Ideal.div (OnlineSoftmax.run (sT V c qi r) (vT V c qi k) 8 le_rfl).2.2
          (OnlineSoftmax.run (sT V c qi r) (vT V c qi k) 8 le_rfl).2.1 := by
  have h7 : (7 : ℕ) < 8 := by omega
  have hrun : OnlineSoftmax.run (sT V c qi r) (vT V c qi k) 8 le_rfl
      = ((outsAt1 V c (8 * qi.val + 7) (pt_lt qi 7 h7)).2.1 (ix2 r (0 : Fin 1)),
         (outsAt1 V c (8 * qi.val + 7) (pt_lt qi 7 h7)).2.2.1 (ix2 r (0 : Fin 1)),
         (outsAt1 V c (8 * qi.val + 7) (pt_lt qi 7 h7)).2.2.2.1 (ix2 r k)) :=
    (state_nat V c qi r k 7 h7).2.symm
  have h0 : ¬ (⟨8 * qi.val + 7, pt_lt qi 7 h7⟩ : Fin cfg1.N).val % 8 = 0 := by
    show ¬ (8 * qi.val + 7) % 8 = 0
    omega
  have h1 : (⟨8 * qi.val + 7, pt_lt qi 7 h7⟩ : Fin cfg1.N).val % 8 = 7 := by
    show (8 * qi.val + 7) % 8 = 7
    omega
  have hC := (outsAt1_C V c ⟨8 * qi.val + 7, pt_lt qi 7 h7⟩ h0 h1).trans (caseC1_eq V c _ h0 h1 _)
  rw [hrun]
  exact last_read _ _ _ _ r k _ hC

end Cert.KernelIdeal.R1Rec

end
-- ==== Proof.LibAttnBridge.lean ====
/-
  From the block-by-block softmax of scaled scores to the one-piece softmax of divided scores.

  One query row `a` meets `nb` blocks of `B` keys. The block-by-block computation scales the query by `1/32` before the
  inner products and carries a running maximum, denominator and numerator; the one-piece computation takes the
  inner products first, divides each by `sqrt 1024 = 32`, subtracts the overall maximum, exponentiates, divides by
  the sum of the exponentials and sums the weighted values. For real `a`, keys and values the two score families
  are the same real numbers, `Σ (a·(1/32))·K = (Σ a·K)/32`, so the online-softmax law applies to them.

  Also here: the extended reals denoted by the four float words that occur (`-∞`, `0`, `1/32`, `1024`), the
  re-indexing of a flat family of `nb·B` keys by (block, key in block), and the fact that an inner product of
  reals plus a real is a real.
-/
import Mathlib.Data.EReal.Operations
import Mathlib.Data.EReal.Inv
import Mathlib.Order.Bounds.Basic
import Mathlib.Algebra.BigOperators.Ring.Finset
import Mathlib.Algebra.Order.BigOperators.Group.Finset
import Mathlib.Algebra.BigOperators.Fin
import Mathlib.Analysis.SpecialFunctions.Pow.Real
import Idealize.ShloMosaic.PureOps.Ideal
import Idealize.ShloMosaic.PureOps.Ideal.Laws
import proofs.«110939_j30666066494217_2_alg».proof.Proof.LibERealSums
import proofs.«110939_j30666066494217_2_alg».proof.Proof.LibOnlineSoftmax

noncomputable section

open scoped BigOperators

namespace Cert.Lib.AttnBridge

open Idealize.ShloMosaic
open Cert.Lib.ERealSums
open Cert.Lib.OnlineSoftmax

/-! ### The four float words and the square root of 1024 -/

/-- The word of negative infinity denotes `-∞`. -/
theorem ofBits_neg_inf : Ideal.ofBits .f32 0xFF800000#32 = ⊥ := by
  simp [Ideal.ofBits, Ideal.ieee]

/-- The word of `+0.0` denotes `0`. -/
theorem ofBits_zero : Ideal.ofBits .f32 0x00000000#32 = 0 := Ideal.ofBits_zero_f32

/-- The word with exponent field 122 and zero fraction denotes `2⁻⁵ = 1/32`. -/
theorem ofBits_inv32 : Ideal.ofBits .f32 0x3D000000#32 = ((1 / 32 : ℝ) : EReal) := by
  simp [Ideal.ofBits, Ideal.ieee, -EReal.coe_mul]; norm_num

/-- The word with exponent field 137 and zero fraction denotes `2¹⁰ = 1024`. -/
theorem ofBits_1024 : Ideal.ofBits .f32 0x44800000#32 = ((1024 : ℝ) : EReal) := by
  simp [Ideal.ofBits, Ideal.ieee, -EReal.coe_mul]; norm_num

/-- `sqrt 1024 = 32`, since `1024 = 32²`. -/
theorem sqrt_1024 : Ideal.sqrt ((1024 : ℝ) : EReal) = ((32 : ℝ) : EReal) := by
  rw [Ideal.sqrt_coe, if_neg (by norm_num)]
  have h : (1024 : ℝ) = 32 ^ 2 := by norm_num
  rw [h, Real.sqrt_sq (by norm_num)]

/-! ### A flat family of `nb·B` keys, by (block, key in block) -/

section Blocks
variable {nb B : ℕ}

/-- The flat position of key `p.2` of block `p.1` is `p.2 + B·p.1`. -/
theorem finProdFinEquiv_val (p : Fin nb × Fin B) :
    (finProdFinEquiv p : Fin (nb * B)).val = p.2.val + B * p.1.val := rfl

/-- A sum over the flat positions is the sum over the pairs. -/
theorem sum_blocks (f : Fin (nb * B) → EReal) :
    ∑ j : Fin (nb * B), f j = ∑ p : Fin nb × Fin B, f (finProdFinEquiv p) :=
  (Equiv.sum_comp finProdFinEquiv f).symm

/-- A fold of `max` over the flat positions is the fold over the pairs. -/
theorem fold_max_blocks (b0 : EReal) (f : Fin (nb * B) → EReal) :
    (Finset.univ : Finset (Fin (nb * B))).fold max b0 f
      = (Finset.univ : Finset (Fin nb × Fin B)).fold max b0 (fun p => f (finProdFinEquiv p)) := by
  rw [← Finset.map_univ_equiv (finProdFinEquiv : Fin nb × Fin B ≃ Fin (nb * B)), Finset.fold_map]
  rfl

end Blocks

/-! ### An inner product of reals plus a real is a real -/

theorem lin_real {n : ℕ} (x w : Fin n → ℝ) (b : ℝ) :
    (∑ d : Fin n, (x d : EReal) * (w d : EReal)) + (b : EReal) = (((∑ d, x d * w d) + b : ℝ) : EReal) := by
  simp only [← EReal.coe_mul, coe_sum_real, ← EReal.coe_add]

/-! ### The bridge -/

section Bridge
variable {nb B D : ℕ}

/-- The common real score of key `j` of block `b`: the inner product of the query row with the key, over 32. -/
def score (a : Fin D → ℝ) (Kr : Fin nb → Fin B → Fin D → ℝ) (b : Fin nb) (j : Fin B) : ℝ :=
  (∑ k : Fin D, a k * Kr b j k) * (1 / 32 : ℝ)

/-- The one-piece computation's score of a key: the inner product divided by `sqrt 1024`. -/
def Sc (a : Fin D → ℝ) (Kr : Fin nb → Fin B → Fin D → ℝ) (p : Fin nb × Fin B) : EReal :=
  Ideal.div (∑ k : Fin D, (a k : EReal) * (Kr p.1 p.2 k : EReal)) (Ideal.sqrt (Ideal.ofBits .f32 0x44800000#32))

/-- The one-piece computation's maximum: `max` folded from `-∞` over all the scores, and once more against `-∞`. -/
def Mx (a : Fin D → ℝ) (Kr : Fin nb → Fin B → Fin D → ℝ) : EReal :=
  max (Ideal.ofBits .f32 0xFF800000#32)
    ((Finset.univ : Finset (Fin nb × Fin B)).fold max (Ideal.ofBits .f32 0xFF800000#32) (Sc a Kr))

/-- The exponential of a score relative to the maximum. -/
def E (a : Fin D → ℝ) (Kr : Fin nb → Fin B → Fin D → ℝ) (p : Fin nb × Fin B) : EReal :=
  Ideal.exp (Sc a Kr p - Mx a Kr)

/-- The denominator: zero plus the sum of the exponentials. -/
def Den (a : Fin D → ℝ) (Kr : Fin nb → Fin B → Fin D → ℝ) : EReal :=
  Ideal.ofBits .f32 0x00000000#32 + ∑ p : Fin nb × Fin B, E a Kr p

/-- Scaling the query by `1/32` before the inner product gives the common real score. -/
theorem scaled_score_eq (a : Fin D → ℝ) (Kr : Fin nb → Fin B → Fin D → ℝ) (b : Fin nb) (j : Fin B) :
    ∑ k : Fin D, ((a k : EReal) * Ideal.ofBits .f32 0x3D000000#32) * (Kr b j k : EReal)
      = ((score a Kr b j : ℝ) : EReal) := by
  rw [ofBits_inv32]
  simp only [← EReal.coe_mul, coe_sum_real]
  congr 1
  rw [score, Finset.sum_mul]
  exact Finset.sum_congr rfl fun k _ => by ring

/-- Dividing the inner product by `sqrt 1024 = 32` gives the same real score. -/
theorem Sc_eq (a : Fin D → ℝ) (Kr : Fin nb → Fin B → Fin D → ℝ) (p : Fin nb × Fin B) :
    Sc a Kr p = ((score a Kr p.1 p.2 : ℝ) : EReal) := by
  rw [Sc, ofBits_1024, sqrt_1024, Ideal.div_coe (by norm_num : (32 : ℝ) ≠ 0)]
  simp only [← EReal.coe_mul, coe_sum_real]
  rfl

/-- The one-piece maximum is a real, the greatest of the scores. -/
theorem Mx_eq (hB : 0 < B) (hnb : 0 < nb) (a : Fin D → ℝ) (Kr : Fin nb → Fin B → Fin D → ℝ) :
    ∃ M : ℝ, Mx a Kr = (M : EReal) ∧
      IsGreatest (Set.range fun p : Fin nb × Fin B => score a Kr p.1 p.2) M := by
  haveI : Nonempty (Fin nb × Fin B) := ⟨(⟨0, hnb⟩, ⟨0, hB⟩)⟩
  obtain ⟨M, hM, hG⟩ := fold_max_coe_isGreatest_finset (Finset.univ : Finset (Fin nb × Fin B))
    Finset.univ_nonempty (fun p => score a Kr p.1 p.2)
  refine ⟨M, ?_, ?_⟩
  · have hS : Sc a Kr = fun p => ((score a Kr p.1 p.2 : ℝ) : EReal) := funext (Sc_eq a Kr)
    rw [Mx, ofBits_neg_inf, _root_.max_bot_left, hS, hM]
  · rwa [Finset.coe_univ, Set.image_univ] at hG

/-- The bridge: the block-by-block quotient over the scaled scores is the one-piece softmax-weighted sum over the
    divided scores. -/
theorem attn_bridge (hB : 0 < B) (hnb : 0 < nb) (a : Fin D → ℝ) (Kr : Fin nb → Fin B → Fin D → ℝ)
    (Vr : Fin nb → Fin B → ℝ) :
    Ideal.div
        (run (fun b j => ∑ k : Fin D, ((a k : EReal) * Ideal.ofBits .f32 0x3D000000#32) * (Kr b j k : EReal))
          (fun b j => (Vr b j : EReal)) nb le_rfl).2.2
        (run (fun b j => ∑ k : Fin D, ((a k : EReal) * Ideal.ofBits .f32 0x3D000000#32) * (Kr b j k : EReal))
          (fun b j => (Vr b j : EReal)) nb le_rfl).2.1
      = ∑ p : Fin nb × Fin B, Ideal.div (E a Kr p) (Den a Kr) * (Vr p.1 p.2 : EReal) := by
  obtain ⟨M, hMx, hG⟩ := Mx_eq hB hnb a Kr
  have hK : (fun (b : Fin nb) (j : Fin B) =>
        ∑ k : Fin D, ((a k : EReal) * Ideal.ofBits .f32 0x3D000000#32) * (Kr b j k : EReal))
      = fun b j => ((score a Kr b j : ℝ) : EReal) :=
    funext fun b => funext fun j => scaled_score_eq a Kr b j
  have hE : ∀ q : Fin nb × Fin B, E a Kr q = Ideal.exp ((score a Kr q.1 q.2 : EReal) - (M : EReal)) :=
    fun q => by rw [E, Sc_eq, hMx]
  rw [hK, run_div_eq hB hnb (score a Kr) Vr M hG, Den, ofBits_zero]
  simp only [hE]

/-- The same with the one-piece side written out in full. -/
theorem attn_bridge_explicit (hB : 0 < B) (hnb : 0 < nb) (a : Fin D → ℝ) (Kr : Fin nb → Fin B → Fin D → ℝ)
    (Vr : Fin nb → Fin B → ℝ) :
    Ideal.div
        (run (fun b j => ∑ k : Fin D, ((a k : EReal) * Ideal.ofBits .f32 0x3D000000#32) * (Kr b j k : EReal))
          (fun b j => (Vr b j : EReal)) nb le_rfl).2.2
        (run (fun b j => ∑ k : Fin D, ((a k : EReal) * Ideal.ofBits .f32 0x3D000000#32) * (Kr b j k : EReal))
          (fun b j => (Vr b j : EReal)) nb le_rfl).2.1
      = ∑ p : Fin nb × Fin B,
          Ideal.div
            (Ideal.exp
              (Ideal.div (∑ k : Fin D, (a k : EReal) * (Kr p.1 p.2 k : EReal))
                  (Ideal.sqrt (Ideal.ofBits .f32 0x44800000#32))
                - max (Ideal.ofBits .f32 0xFF800000#32)
                    ((Finset.univ : Finset (Fin nb × Fin B)).fold max (Ideal.ofBits .f32 0xFF800000#32)
                      fun q => Ideal.div (∑ k : Fin D, (a k : EReal) * (Kr q.1 q.2 k : EReal))
                        (Ideal.sqrt (Ideal.ofBits .f32 0x44800000#32)))))
            (Ideal.ofBits .f32 0x00000000#32 + ∑ r : Fin nb × Fin B,
              Ideal.exp
                (Ideal.div (∑ k : Fin D, (a k : EReal) * (Kr r.1 r.2 k : EReal))
                    (Ideal.sqrt (Ideal.ofBits .f32 0x44800000#32))
                  - max (Ideal.ofBits .f32 0xFF800000#32)
                      ((Finset.univ : Finset (Fin nb × Fin B)).fold max (Ideal.ofBits .f32 0xFF800000#32)
                        fun q => Ideal.div (∑ k : Fin D, (a k : EReal) * (Kr q.1 q.2 k : EReal))
                          (Ideal.sqrt (Ideal.ofBits .f32 0x44800000#32)))))
            * (Vr p.1 p.2 : EReal) :=
  attn_bridge hB hnb a Kr Vr

end Bridge

end Cert.Lib.AttnBridge

end
-- ==== Proof.RefRead.lean ====
import proofs.«110939_j30666066494217_2_alg».proof.Proof.Gen.ReferenceIdeal.Read
import Idealize.ShloMosaic.Lib.ValueIdx
import Idealize.ShloMosaic.Lib.Pipeline.Value
import Idealize.ShloMosaic.PureOps.Ideal.Laws
import Idealize.ShloMosaic.PureOps.Reduce

/-!
# The reference read at an index

The reference computes, from inputs `x kx vx` (8192 × 1024), weights `Wq Wk Wv` (1024 × 1024) and biases
`bq bk bv` (1024), three linear layers `x·Wᵀ + b`, the scores `Q·Kᵀ / sqrt 1024`, a row-wise softmax of the
scores (row maximum from −∞, exponential of the difference, row sum from 0, quotient) and the product of the
softmax with the third linear layer. Here each layer is written as a function of a row and a column, and the
reference's composed term is proved equal to the last layer at every index.
-/

noncomputable section

namespace Cert.RefRead

open Cert.ReferenceIdeal Cert.ReferenceIdeal.Read Idealize.ShloMosaic Idealize.ShloMosaic.ValueIdx
open Idealize.ShloMosaic.TcCoe Idealize.SL.Sem
open scoped BigOperators

/-- A linear layer `x·Wᵀ + b` at row `p`, column `k`. -/
def lin (x : S8192x1024.Idx → EReal) (W : S1024x1024.Idx → EReal) (b : S1024.Idx → EReal)
    (p : Fin 8192) (k : Fin 1024) : EReal :=
  (∑ d : Fin 1024, x (ix2 p d) * W (ix2 k d)) + b (ix1 k)

/-- The score of query row `p` against key row `j`: the inner product of the two projected rows over `sqrt 1024`. -/
def sc (x kx : S8192x1024.Idx → EReal) (Wq : S1024x1024.Idx → EReal) (bq : S1024.Idx → EReal)
    (Wk : S1024x1024.Idx → EReal) (bk : S1024.Idx → EReal) (p j : Fin 8192) : EReal :=
  Ideal.div (∑ k : Fin 1024, lin x Wq bq p k * lin kx Wk bk j k) (Ideal.sqrt (Ideal.ofBits .f32 0x44800000#32))

/-- The maximum of row `p` of the scores, taken from −∞ (and once more against −∞). -/
def mx (x kx : S8192x1024.Idx → EReal) (Wq : S1024x1024.Idx → EReal) (bq : S1024.Idx → EReal)
    (Wk : S1024x1024.Idx → EReal) (bk : S1024.Idx → EReal) (p : Fin 8192) : EReal :=
  max (Ideal.ofBits .f32 0xFF800000#32)
    ((Finset.univ : Finset (Fin 8192)).fold max (Ideal.ofBits .f32 0xFF800000#32) (sc x kx Wq bq Wk bk p))

/-- The exponential of a score less its row's maximum. -/
def e (x kx : S8192x1024.Idx → EReal) (Wq : S1024x1024.Idx → EReal) (bq : S1024.Idx → EReal)
    (Wk : S1024x1024.Idx → EReal) (bk : S1024.Idx → EReal) (p j : Fin 8192) : EReal :=
  Ideal.exp (sc x kx Wq bq Wk bk p j - mx x kx Wq bq Wk bk p)

/-- The sum of row `p` of the exponentials, from 0. -/
def den (x kx : S8192x1024.Idx → EReal) (Wq : S1024x1024.Idx → EReal) (bq : S1024.Idx → EReal)
    (Wk : S1024x1024.Idx → EReal) (bk : S1024.Idx → EReal) (p : Fin 8192) : EReal :=
  Ideal.ofBits .f32 0x00000000#32 + ∑ j : Fin 8192, e x kx Wq bq Wk bk p j

/-- The reference's result at row `p`, column `q`: the softmax row against column `q` of the projected values. -/
def refOut (x kx vx : S8192x1024.Idx → EReal) (Wq : S1024x1024.Idx → EReal) (bq : S1024.Idx → EReal)
    (Wk : S1024x1024.Idx → EReal) (bk : S1024.Idx → EReal) (Wv : S1024x1024.Idx → EReal) (bv : S1024.Idx → EReal)
    (p : Fin 8192) (q : Fin 1024) : EReal :=
  ∑ j : Fin 8192, Ideal.div (e x kx Wq bq Wk bk p j) (den x kx Wq bq Wk bk p) * lin vx Wv bv j q

/-! ## The three linear layers -/

/-- The first linear layer at `(p, k)`. -/
theorem lin_q (x0 : S8192x1024.Idx → EReal) (x3 : S1024x1024.Idx → EReal) (x4 : S1024.Idx → EReal)
    (p : Fin 8192) (k : Fin 1024) :
    val_main_v4 (F := Ideal) x0 x3 x4 (ix2 p k) = lin x0 x3 x4 p k := by
  rw [val_main_v4_apply, val_main_v1_apply, val_main_v3_apply, val_main_v2_apply]
  simp only [val_main_v0_apply, Ideal.addf_def]
  have h1 : ∀ d : Fin 1024, lidx_main_v1 (ix2 p k) d = ix2 p d := fun d => by
    funext a; match a with | ⟨0, _⟩ => rfl | ⟨1, _⟩ => rfl
  have h2 : ∀ d : Fin 1024, idx_main_v0 (ridx_main_v1 (ix2 p k) d) = ix2 k d := fun d => by
    funext a; match a with | ⟨0, _⟩ => rfl | ⟨1, _⟩ => rfl
  have h3 : idx_main_v2 (idx_main_v3 (ix2 p k)) = ix1 k := by
    funext a; match a with | ⟨0, _⟩ => rfl
  simp only [h1, h2, h3]
  rfl

/-- The second linear layer at `(j, k)`. -/
theorem lin_k (x1 : S8192x1024.Idx → EReal) (x5 : S1024x1024.Idx → EReal) (x6 : S1024.Idx → EReal)
    (j : Fin 8192) (k : Fin 1024) :
    val_main_v9 (F := Ideal) x1 x5 x6 (ix2 j k) = lin x1 x5 x6 j k := by
  rw [val_main_v9_apply, val_main_v6_apply, val_main_v8_apply, val_main_v7_apply]
  simp only [val_main_v5_apply, Ideal.addf_def]
  have h1 : ∀ d : Fin 1024, lidx_main_v6 (ix2 j k) d = ix2 j d := fun d => by
    funext a; match a with | ⟨0, _⟩ => rfl | ⟨1, _⟩ => rfl
  have h2 : ∀ d : Fin 1024, idx_main_v5 (ridx_main_v6 (ix2 j k) d) = ix2 k d := fun d => by
    funext a; match a with | ⟨0, _⟩ => rfl | ⟨1, _⟩ => rfl
  have h3 : idx_main_v7 (idx_main_v8 (ix2 j k)) = ix1 k := by
    funext a; match a with | ⟨0, _⟩ => rfl
  simp only [h1, h2, h3]
  rfl

/-- The third linear layer at `(j, q)`. -/
theorem lin_v (x2 : S8192x1024.Idx → EReal) (x7 : S1024x1024.Idx → EReal) (x8 : S1024.Idx → EReal)
    (j : Fin 8192) (q : Fin 1024) :
    val_main_v14 (F := Ideal) x2 x7 x8 (ix2 j q) = lin x2 x7 x8 j q := by
  rw [val_main_v14_apply, val_main_v11_apply, val_main_v13_apply, val_main_v12_apply]
  simp only [val_main_v10_apply, Ideal.addf_def]
  have h1 : ∀ d : Fin 1024, lidx_main_v11 (ix2 j q) d = ix2 j d := fun d => by
    funext a; match a with | ⟨0, _⟩ => rfl | ⟨1, _⟩ => rfl
  have h2 : ∀ d : Fin 1024, idx_main_v10 (ridx_main_v11 (ix2 j q) d) = ix2 q d := fun d => by
    funext a; match a with | ⟨0, _⟩ => rfl | ⟨1, _⟩ => rfl
  have h3 : idx_main_v12 (idx_main_v13 (ix2 j q)) = ix1 q := by
    funext a; match a with | ⟨0, _⟩ => rfl
  simp only [h1, h2, h3]
  rfl

/-! ## The scores -/

/-- The scaled scores at `(p, j)`. -/
theorem sc_eq (x0 x1 : S8192x1024.Idx → EReal) (x3 : S1024x1024.Idx → EReal) (x4 : S1024.Idx → EReal)
    (x5 : S1024x1024.Idx → EReal) (x6 : S1024.Idx → EReal) (p j : Fin 8192) :
    val_main_v19 (F := Ideal) x0 x1 x3 x4 x5 x6 (ix2 p j) = sc x0 x1 x3 x4 x5 x6 p j := by
  rw [val_main_v19_apply, val_main_v16_apply, val_main_v18_apply, val_main_v17_apply, val_main_cst_apply]
  simp only [val_main_v15_apply, Ideal.hostDivf_def, Ideal.hostUnary_sqrt_def, Ideal.ofBits_def]
  have h1 : ∀ k : Fin 1024, lidx_main_v16 (ix2 p j) k = ix2 p k := fun k => by
    funext a; match a with | ⟨0, _⟩ => rfl | ⟨1, _⟩ => rfl
  have h2 : ∀ k : Fin 1024, idx_main_v15 (ridx_main_v16 (ix2 p j) k) = ix2 j k := fun k => by
    funext a; match a with | ⟨0, _⟩ => rfl | ⟨1, _⟩ => rfl
  simp only [h1, h2, lin_q, lin_k]
  rfl

/-! ## The row maximum -/

/-- The row index `p` with the column `k` put back on the reduced axis is `(p, k)`. -/
theorem lift_row (h : S8192x8192.Reduces [1] S8192) (p : Fin 8192) (k : Fin (S8192x8192.size 1)) :
    h.lift (ix1 p) k = ix2 p (⟨k.val, k.isLt⟩ : Fin 8192) := by
  funext c; apply Fin.ext
  match c with | ⟨0, _⟩ => rfl | ⟨1, _⟩ => rfl

/-- The reduction of row `p` of the scores with a maximum body from −∞ is the fold of `max` over the row. -/
theorem rowmax_eq (x0 x1 : S8192x1024.Idx → EReal) (x3 : S1024x1024.Idx → EReal) (x4 : S1024.Idx → EReal)
    (x5 : S1024x1024.Idx → EReal) (x6 : S1024.Idx → EReal) (p : Fin 8192) :
    val_main_v20 (F := Ideal) x0 x1 x3 x4 x5 x6 (ix1 p)
      = (Finset.univ : Finset (Fin 8192)).fold max (Ideal.ofBits .f32 0xFF800000#32) (sc x0 x1 x3 x4 x5 x6 p) := by
  have h : S8192x8192.Reduces [1] S8192 := by decide
  unfold val_main_v20
  refine (Host.reduce_eq_fold_single (α := Ideal .f32) FloatOps.maximumf
    (val_main_v19 (F := Ideal) x0 x1 x3 x4 x5 x6) (val_main_cst_0 (F := Ideal))
    Facts₀.reducesTo_S8192x8192_S8192_d1 h Facts₀.h_S_ (ix1 p)).trans ?_
  have hf : (val_main_v19 (F := Ideal) x0 x1 x3 x4 x5 x6 ∘ h.lift (ix1 p))
      = fun k : Fin 8192 => sc x0 x1 x3 x4 x5 x6 p k := funext fun k => by
    show val_main_v19 (F := Ideal) x0 x1 x3 x4 x5 x6 (h.lift (ix1 p) k) = _
    rw [lift_row, sc_eq]
    rfl
  exact congrArg (fun f => Finset.fold max (Ideal.ofBits .f32 0xFF800000#32) f (Finset.univ : Finset (Fin 8192))) hf

/-- The row maximum, once more against −∞, at `p`. -/
theorem mx_eq (x0 x1 : S8192x1024.Idx → EReal) (x3 : S1024x1024.Idx → EReal) (x4 : S1024.Idx → EReal)
    (x5 : S1024x1024.Idx → EReal) (x6 : S1024.Idx → EReal) (p : Fin 8192) :
    val_main_v22 (F := Ideal) x0 x1 x3 x4 x5 x6 (ix1 p) = mx x0 x1 x3 x4 x5 x6 p := by
  rw [val_main_v22_apply, val_main_v21_apply, val_main_cst_1_apply, rowmax_eq]
  rfl

/-! ## The exponentials and their row sums -/

/-- The exponential of a score less its row's maximum at `(p, j)`. -/
theorem e_eq (x0 x1 : S8192x1024.Idx → EReal) (x3 : S1024x1024.Idx → EReal) (x4 : S1024.Idx → EReal)
    (x5 : S1024x1024.Idx → EReal) (x6 : S1024.Idx → EReal) (p j : Fin 8192) :
    val_main_v26 (F := Ideal) x0 x1 x3 x4 x5 x6 (ix2 p j) = e x0 x1 x3 x4 x5 x6 p j := by
  rw [val_main_v26_apply, val_main_v25_apply, val_main_v24_apply, val_main_v23_apply, sc_eq]
  have h1 : idx_main_v23 (idx_main_v24 (ix2 p j)) = ix1 p := by
    funext a; match a with | ⟨0, _⟩ => rfl
  rw [h1, mx_eq]
  rfl

/-- The sum of row `p` of the exponentials. -/
theorem den_eq (x0 x1 : S8192x1024.Idx → EReal) (x3 : S1024x1024.Idx → EReal) (x4 : S1024.Idx → EReal)
    (x5 : S1024x1024.Idx → EReal) (x6 : S1024.Idx → EReal) (p : Fin 8192) :
    val_main_v27 (F := Ideal) x0 x1 x3 x4 x5 x6 (ix1 p) = den x0 x1 x3 x4 x5 x6 p := by
  rw [val_main_v27_apply, val_main_cst_2_apply]
  have h1 : ∀ k : Fin 8192, idx_main_v27 (ix1 p) k = ix2 p k := fun k => by
    funext a; match a with | ⟨0, _⟩ => rfl | ⟨1, _⟩ => rfl
  simp only [h1, e_eq, Ideal.ofBits_def]
  rfl

/-! ## The result -/

/-- The reference's result at `(p, q)`. -/
theorem refOut_eq (x0 x1 x2 : S8192x1024.Idx → EReal) (x3 : S1024x1024.Idx → EReal) (x4 : S1024.Idx → EReal)
    (x5 : S1024x1024.Idx → EReal) (x6 : S1024.Idx → EReal) (x7 : S1024x1024.Idx → EReal) (x8 : S1024.Idx → EReal)
    (p : Fin 8192) (q : Fin 1024) :
    val_main_v31 (F := Ideal) x0 x1 x2 x3 x4 x5 x6 x7 x8 (ix2 p q) = refOut x0 x1 x2 x3 x4 x5 x6 x7 x8 p q := by
  rw [val_main_v31_apply]
  simp only [val_main_v30_apply, val_main_v29_apply, val_main_v28_apply, Ideal.hostDivf_def]
  have h1 : ∀ k : Fin 8192, lidx_main_v31 (ix2 p q) k = ix2 p k := fun k => by
    funext a; match a with | ⟨0, _⟩ => rfl | ⟨1, _⟩ => rfl
  have h2 : ∀ k : Fin 8192, ridx_main_v31 (ix2 p q) k = ix2 k q := fun k => by
    funext a; match a with | ⟨0, _⟩ => rfl | ⟨1, _⟩ => rfl
  have h3 : ∀ k : Fin 8192, idx_main_v28 (idx_main_v29 (ix2 p k)) = ix1 p := fun k => by
    funext a; match a with | ⟨0, _⟩ => rfl
  simp only [h1, h2, h3, e_eq, den_eq, lin_v]
  rfl

/-- The reference's result as a function of the index: at `i` it is `refOut` at `i`'s two coordinates. -/
theorem ref_eq (x0 x1 x2 : S8192x1024.Idx → EReal) (x3 : S1024x1024.Idx → EReal) (x4 : S1024.Idx → EReal)
    (x5 : S1024x1024.Idx → EReal) (x6 : S1024.Idx → EReal) (x7 : S1024x1024.Idx → EReal) (x8 : S1024.Idx → EReal) :
    val_main_v31 (F := Ideal) x0 x1 x2 x3 x4 x5 x6 x7 x8
      = fun i => refOut x0 x1 x2 x3 x4 x5 x6 x7 x8 (i 0) (i 1) := by
  funext i
  exact (congrArg (val_main_v31 (F := Ideal) x0 x1 x2 x3 x4 x5 x6 x7 x8) (eq_ix2 i)).trans
    (refOut_eq x0 x1 x2 x3 x4 x5 x6 x7 x8 (i 0) (i 1))

/-- The term the reference's run states for its result, as a function of the index, over the launch contents of the
    nine arguments. -/
theorem res_eq (m : (ℓ : Loc nD τ sig) → Buf (Elt Ideal) ℓ) (c : Dev nD) :
    Cert.ReferenceIdeal.Value.res_main_v31 (F := Ideal) m c
      = fun i => refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (i 0) (i 1) :=
  (val_main_v31_eq (F := Ideal) m c).trans (ref_eq _ _ _ _ _ _ _ _ _)

end Cert.RefRead

end
-- ==== Proof.KI.FinalCore.lean ====
/- The block-by-block attention of one query row against eight tiles of 1024 keys and values is the one-piece softmax
   attention over all 8192 keys, when every entry of the nine arrays is a real number.

   Query row p, projected and scaled by 1/32, meets key row g = j + 1024·b (key j of tile b) and value row g at column
   k. The block-by-block side carries a running maximum, denominator and numerator over the eight tiles and divides at
   the end; the one-piece side divides each inner product by sqrt 1024, subtracts the row maximum, exponentiates,
   normalises and sums against the value column. The three linear layers of real arrays are real, so the two score
   families are the same real numbers and the online-softmax law applies; the flat key index is re-indexed by
   (tile, key in tile). -/
import proofs.«110939_j30666066494217_2_alg».proof.Proof.LibAttnBridge
import proofs.«110939_j30666066494217_2_alg».proof.Proof.RefRead
import Idealize.ShloMosaic.Lib.ValueIdx

noncomputable section

namespace Cert.KernelIdeal.FinalCore

open Idealize.ShloMosaic Idealize.ShloMosaic.ValueIdx
open Cert.RefRead Cert.Lib.AttnBridge Cert.Lib.OnlineSoftmax
open scoped BigOperators

/-- The flat row of key `j` of tile `b`: `j + 1024·b`. -/
def gi (b : Fin 8) (j : Fin 1024) : Fin 8192 := (finProdFinEquiv (b, j) : Fin (8 * 1024))

theorem gi_val (b : Fin 8) (j : Fin 1024) : (gi b j).val = j.val + 1024 * b.val := rfl

/-- A sum over the 8192 rows is the sum over (tile, row in tile). -/
theorem sum_flat (f : Fin 8192 → EReal) : ∑ j : Fin 8192, f j = ∑ q : Fin 8 × Fin 1024, f (gi q.1 q.2) :=
  sum_blocks (nb := 8) (B := 1024) f

/-- A maximum folded over the 8192 rows is the fold over (tile, row in tile). -/
theorem fold_flat (b0 : EReal) (f : Fin 8192 → EReal) :
    (Finset.univ : Finset (Fin 8192)).fold max b0 f
      = (Finset.univ : Finset (Fin 8 × Fin 1024)).fold max b0 (fun q => f (gi q.1 q.2)) :=
  fold_max_blocks (nb := 8) (B := 1024) b0 f

/-- A linear layer of real arrays is real at every entry. -/
theorem lin_is_real (x : Cert.ReferenceIdeal.S8192x1024.Idx → EReal) (W : Cert.ReferenceIdeal.S1024x1024.Idx → EReal) (b : Cert.ReferenceIdeal.S1024.Idx → EReal)
    (hx : ∀ i, ∃ r : ℝ, x i = (r : EReal)) (hW : ∀ i, ∃ r : ℝ, W i = (r : EReal)) (hb : ∀ i, ∃ r : ℝ, b i = (r : EReal))
    (p : Fin 8192) (k : Fin 1024) : ∃ r : ℝ, lin x W b p k = (r : EReal) := by
  choose xr hxr using hx
  choose wr hwr using hW
  choose br hbr using hb
  refine ⟨(∑ d : Fin 1024, xr (ix2 p d) * wr (ix2 k d)) + br (ix1 k), ?_⟩
  unfold lin
  rw [hbr (ix1 k)]
  have hsum : (∑ d : Fin 1024, x (ix2 p d) * W (ix2 k d))
      = ∑ d : Fin 1024, ((xr (ix2 p d) : ℝ) : EReal) * ((wr (ix2 k d) : ℝ) : EReal) :=
    Finset.sum_congr rfl fun d _ => by rw [hxr (ix2 p d), hwr (ix2 k d)]
  rw [hsum]
  exact lin_real (fun d => xr (ix2 p d)) (fun d => wr (ix2 k d)) (br (ix1 k))

/-- The block-by-block quotient for query row `p` and value column `k` is the reference's result at (p, k). -/
theorem core (x0 x1 x2 : Cert.ReferenceIdeal.S8192x1024.Idx → EReal) (x3 : Cert.ReferenceIdeal.S1024x1024.Idx → EReal) (x4 : Cert.ReferenceIdeal.S1024.Idx → EReal) (x5 : Cert.ReferenceIdeal.S1024x1024.Idx → EReal) (x6 : Cert.ReferenceIdeal.S1024.Idx → EReal) (x7 : Cert.ReferenceIdeal.S1024x1024.Idx → EReal) (x8 : Cert.ReferenceIdeal.S1024.Idx → EReal)
    (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (h4 : ∀ i, ∃ r : ℝ, x4 i = (r : EReal)) (h5 : ∀ i, ∃ r : ℝ, x5 i = (r : EReal))
    (h6 : ∀ i, ∃ r : ℝ, x6 i = (r : EReal)) (h7 : ∀ i, ∃ r : ℝ, x7 i = (r : EReal)) (h8 : ∀ i, ∃ r : ℝ, x8 i = (r : EReal))
    (p : Fin 8192) (k : Fin 1024) :
    Ideal.div
        (run (fun (b : Fin 8) (j : Fin 1024) => ∑ kk : Fin 1024,
              (lin x0 x3 x4 p kk * Ideal.ofBits .f32 0x3D000000#32) * lin x1 x5 x6 (gi b j) kk)
          (fun (b : Fin 8) (j : Fin 1024) => lin x2 x7 x8 (gi b j) k) 8 le_rfl).2.2
        (run (fun (b : Fin 8) (j : Fin 1024) => ∑ kk : Fin 1024,
              (lin x0 x3 x4 p kk * Ideal.ofBits .f32 0x3D000000#32) * lin x1 x5 x6 (gi b j) kk)
          (fun (b : Fin 8) (j : Fin 1024) => lin x2 x7 x8 (gi b j) k) 8 le_rfl).2.1
      = refOut x0 x1 x2 x3 x4 x5 x6 x7 x8 p k := by
  choose a ha using fun kk : Fin 1024 => lin_is_real x0 x3 x4 h0 h3 h4 p kk
  choose Kr hKr using fun (b : Fin 8) (j : Fin 1024) (kk : Fin 1024) => lin_is_real x1 x5 x6 h1 h5 h6 (gi b j) kk
  choose Vr hVr using fun (b : Fin 8) (j : Fin 1024) => lin_is_real x2 x7 x8 h2 h7 h8 (gi b j) k
  have hs : (fun (b : Fin 8) (j : Fin 1024) => ∑ kk : Fin 1024,
        (lin x0 x3 x4 p kk * Ideal.ofBits .f32 0x3D000000#32) * lin x1 x5 x6 (gi b j) kk)
      = fun b j => ∑ kk : Fin 1024, ((a kk : EReal) * Ideal.ofBits .f32 0x3D000000#32) * (Kr b j kk : EReal) :=
    funext fun b => funext fun j => Finset.sum_congr rfl fun kk _ => by rw [ha kk, hKr b j kk]
  have hv : (fun (b : Fin 8) (j : Fin 1024) => lin x2 x7 x8 (gi b j) k) = fun b j => (Vr b j : EReal) :=
    funext fun b => funext fun j => hVr b j
  rw [hs, hv, attn_bridge (nb := 8) (B := 1024) (D := 1024) (by norm_num) (by norm_num) a Kr Vr]
  -- the one-piece side, re-indexed by (tile, key in tile)
  have hsc : ∀ q : Fin 8 × Fin 1024, sc x0 x1 x3 x4 x5 x6 p (gi q.1 q.2) = Sc a Kr q := fun q => by
    unfold sc Sc
    exact congrArg (fun z => Ideal.div z (Ideal.sqrt (Ideal.ofBits .f32 0x44800000#32)))
      (Finset.sum_congr rfl fun kk _ => by rw [ha kk, hKr q.1 q.2 kk])
  have hmx : mx x0 x1 x3 x4 x5 x6 p = Mx a Kr := by
    unfold mx Mx
    rw [fold_flat]
    exact congrArg (fun f => max (Ideal.ofBits .f32 0xFF800000#32)
      ((Finset.univ : Finset (Fin 8 × Fin 1024)).fold max (Ideal.ofBits .f32 0xFF800000#32) f)) (funext hsc)
  have he : ∀ q : Fin 8 × Fin 1024, e x0 x1 x3 x4 x5 x6 p (gi q.1 q.2) = E a Kr q := fun q => by
    unfold e E
    rw [hsc q, hmx]
  have hden : den x0 x1 x3 x4 x5 x6 p = Den a Kr := by
    unfold den Den
    rw [sum_flat]
    exact congrArg (fun z => Ideal.ofBits .f32 0x00000000#32 + z) (Finset.sum_congr rfl fun q _ => he q)
  unfold refOut
  rw [sum_flat]
  exact (Finset.sum_congr rfl fun q _ => by rw [he q, hden, hVr q.1 q.2]).symm

end Cert.KernelIdeal.FinalCore

end
-- ==== Proof.LibFiniteReal.lean ====
/-
  One element of an "every entry is finite" test, read on the extended reals.

  The test compares the absolute value `max x (-x)` with the f32 pattern of `+∞`, strictly. That pattern denotes the
  top element; the absolute value of `-∞` is `+∞`; so the test passes exactly at the reals. Also: the rank-0 shape
  has a single index (what reading a reduction over all axes at "its one result" needs).
-/
import Idealize.ShloMosaic.PureOps.Ideal.Laws

noncomputable section

namespace Cert.Lib.FiniteReal

open Idealize.ShloMosaic

/-- The f32 pattern `0x7F800000` denotes `+∞`. -/
theorem ofBits_inf_f32 : Ideal.ofBits .f32 0x7F800000#32 = ⊤ := by simp [Ideal.ofBits, Ideal.ieee]

/-- An extended real whose absolute value is strictly below the pattern of `+∞` is a real. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => exact absurd h (by simp [Ideal.cmp])
  | coe r => exact ⟨r, rfl⟩
  | top => exact absurd h (by simp [Ideal.cmp])

/-- Conversely every real passes the test. -/
theorem abs_lt_inf_of_real (r : ℝ) :
    Ideal.cmp .olt (max (r : EReal) (-(r : EReal))) (Ideal.ofBits .f32 0x7F800000#32) = 1#1 := by
  rw [ofBits_inf_f32]
  have h : max (r : EReal) (-(r : EReal)) < ⊤ := max_lt (EReal.coe_lt_top r) (by rw [← EReal.coe_neg]; exact EReal.coe_lt_top _)
  simp [Ideal.cmp, h]

/-- The rank-0 shape has exactly one index. -/
theorem subsingleton_idx0 : Subsingleton (⟨0, ![]⟩ : Shape).Idx := ⟨fun _ _ => funext fun d => d.elim0⟩

end Cert.Lib.FiniteReal

end
-- ==== Proof.FiniteArgs.lean ====
import proofs.«110939_j30666066494217_2_alg».proof.Pre_finite_inputs
import proofs.«110939_j30666066494217_2_alg».proof.Proof.LibFiniteReal
import Idealize.ShloMosaic.Lib.ReduceAll
import Idealize.ShloMosaic.Lib.ValueIdx
import Idealize.ShloMosaic.Lib.Pipeline.Value
import Idealize.ShloMosaic.PureOps.Ideal.Laws

/-!
# Every entry of the nine arguments is a real

The precondition is the conjunction of nine tests `all(|x| < +∞)`, one per argument array. Each test is a reduction
by `and` over all axes of the elementwise strict comparison of `|x| = max x (-x)` with the pattern of `+∞`; when the
conjunction is 1 every comparison is 1, and an extended real whose absolute value is strictly below `+∞` is a real.
-/

noncomputable section

namespace Cert.FiniteArgs

open Idealize.ShloMosaic Cert.Pre_finite_inputs

/-- One test `all(|x| < +∞)` that comes out 1 says every entry of `x` is a real. -/
theorem real_of_all {s : Shape} {axes : List (Fin s.rank)} (x : FVec Ideal s .f32)
    (bc : S_.BroadcastsInDim s (![] : Fin 0 → Fin s.rank)) (h' : s.ReducesTo axes S_) (hu : 0 < S_.numel) (j : S_.Idx)
    (e : Host.reduce IntOp.andi
          (cmpf .olt (Host.absf x) (broadcastInDim s ![] bc (constant (F := Ideal) S_ .f32 0x7F800000#32)))
          (constantI S_ 1 1#1) h' hu j = 1#1) (i : s.Idx) : ∃ r : ℝ, x i = (r : EReal) := by
  haveI : Subsingleton S_.Idx := Cert.Lib.FiniteReal.subsingleton_idx0
  have hi := Host.reduce_andi_all _ _ h' hu j e i
  have hb : broadcastInDim s ![] bc (constant (F := Ideal) S_ .f32 0x7F800000#32) i
      = Ideal.ofBits .f32 0x7F800000#32 :=
    broadcastInDim_apply _ bc _ i (fun a => a.elim0) (fun a => a.elim0)
  refine Cert.Lib.FiniteReal.real_of_abs_lt_inf (x i) ?_
  exact (congrArg (Ideal.cmp .olt (max (x i) (-(x i)))) hb).symm.trans hi

/-- When the precondition holds, every entry of each of the nine arguments is a real. -/
theorem all_real [Facts] (x0 x1 x2 : FVec Ideal S8192x1024 .f32) (x3 : FVec Ideal S1024x1024 .f32)
    (x4 : FVec Ideal S1024 .f32) (x5 : FVec Ideal S1024x1024 .f32) (x6 : FVec Ideal S1024 .f32)
    (x7 : FVec Ideal S1024x1024 .f32) (x8 : FVec Ideal S1024 .f32)
    (h : fn (F := Ideal) x0 x1 x2 x3 x4 x5 x6 x7 x8 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ (∀ i, ∃ r : ℝ, x5 i = (r : EReal))
      ∧ (∀ i, ∃ r : ℝ, x6 i = (r : EReal)) ∧ (∀ i, ∃ r : ℝ, x7 i = (r : EReal)) ∧ (∀ i, ∃ r : ℝ, x8 i = (r : EReal)) := by
  have h0 := congrFun h ValueIdx.ix0
  dsimp only [fn, fn_part1, fn_part2] at h0
  obtain ⟨h8, e8⟩ := IntOp.andi_eq_one.1 h0
  obtain ⟨h7, e7⟩ := IntOp.andi_eq_one.1 h8
  obtain ⟨h6, e6⟩ := IntOp.andi_eq_one.1 h7
  obtain ⟨h5, e5⟩ := IntOp.andi_eq_one.1 h6
  obtain ⟨h4, e4⟩ := IntOp.andi_eq_one.1 h5
  obtain ⟨h3, e3⟩ := IntOp.andi_eq_one.1 h4
  obtain ⟨h2, e2⟩ := IntOp.andi_eq_one.1 h3
  obtain ⟨e0, e1⟩ := IntOp.andi_eq_one.1 h2
  exact ⟨real_of_all x0 _ _ _ _ e0, real_of_all x1 _ _ _ _ e1, real_of_all x2 _ _ _ _ e2,
    real_of_all x3 _ _ _ _ e3, real_of_all x4 _ _ _ _ e4, real_of_all x5 _ _ _ _ e5,
    real_of_all x6 _ _ _ _ e6, real_of_all x7 _ _ _ _ e7, real_of_all x8 _ _ _ _ e8⟩

end Cert.FiniteArgs

end
-- ==== Proof.KI.Final.lean ====
/- The attention call's result array is the reference's softmax attention of the launched arguments.

   For a result index (p, k) put qi = p / 512 and r = p % 512. The array at (p, k) is what the last key/value step of
   query tile qi stored at (r, k): the final numerator over the final denominator of the online-softmax run over the
   row's scores against the eight key tiles and column k of the eight value tiles. The projected query row is
   (x·Wqᵀ + bq)(p, ·) times 1/32; key row j of tile b is (kx·Wkᵀ + bk)(j + 1024·b, ·), left by the first call; the value
   entry is (vx·Wvᵀ + bv)(j + 1024·b, k). With every launched entry a real number, the block-by-block quotient is the
   one-piece softmax-weighted sum. -/
import proofs.«110939_j30666066494217_2_alg».proof.Proof.KI.R1Arr
import proofs.«110939_j30666066494217_2_alg».proof.Proof.KI.R1Blocks
import proofs.«110939_j30666066494217_2_alg».proof.Proof.KI.R1Rec
import proofs.«110939_j30666066494217_2_alg».proof.Proof.KI.Entry
import proofs.«110939_j30666066494217_2_alg».proof.Proof.KI.Pay
import proofs.«110939_j30666066494217_2_alg».proof.Proof.KI.FinalCore
import proofs.«110939_j30666066494217_2_alg».proof.Proof.FiniteArgs

noncomputable section

namespace Cert.KernelIdeal.Final

open Cert.KernelIdeal Cert.KernelIdeal.Gen Idealize.ShloMosaic Idealize.ShloMosaic.TcCoe Idealize.SL.Sem
open Idealize.ShloMosaic.ValueIdx
open Cert.KernelIdeal.R1Arr Cert.KernelIdeal.R1Rec Cert.KernelIdeal.Entry Cert.KernelIdeal.FinalCore
open Cert.RefRead (lin refOut)
open Cert.Lib
open scoped BigOperators

variable (m : (ℓ : Loc nD τ sig) → Buf (Elt Ideal) ℓ) (ρ : Dev nD → PrngReg) (c : Dev nD)

/-- The projected query of tile `qi` at (r, kk): row p = 512·qi + r of x·Wqᵀ + bq, times 1/32. -/
theorem qT_apply (qi : Fin 16) (r : Fin 512) (kk : Fin 1024) (p : Fin 8192) (hp : p.val = qi.val * 512 + r.val) :
    qT (Whole.V3 m ρ) c qi (ix2 r kk) = lin (aQ m c) (aWq m c) (aBq m c) p kk * Ideal.ofBits .f32 0x3D000000#32 := by
  unfold qT qNew
  refine (Pay.pay7_apply (iblk1 (Whole.V3 m ρ) c 0 ⟨8 * qi.val, pt0_lt qi⟩) (iblk1 (Whole.V3 m ρ) c 1 ⟨8 * qi.val, pt0_lt qi⟩)
    (iblk1 (Whole.V3 m ρ) c 2 ⟨8 * qi.val, pt0_lt qi⟩) r kk).trans ?_
  unfold lin
  have e0 : ∀ d : Fin 1024, (iblk1 (Whole.V3 m ρ) c 0 ⟨8 * qi.val, pt0_lt qi⟩ : Vec Ideal S512x1024 .f32) (ix2 r d) = aQ m c (ix2 p d) := fun d =>
    (iblk1_rows_0 (Whole.V3 m ρ) c ⟨8 * qi.val, pt0_lt qi⟩ r d p (by show p.val = 8 * qi.val / 8 * 512 + r.val; omega)).trans
      (congrFun (entry_q m ρ c) (ix2 p d))
  have e1 : ∀ d : Fin 1024, (iblk1 (Whole.V3 m ρ) c 1 ⟨8 * qi.val, pt0_lt qi⟩ : Vec Ideal S1024x1024 .bf16) (ix2 kk d) = aWq m c (ix2 kk d) := fun d =>
    (iblk1_whole_1 (Whole.V3 m ρ) c ⟨8 * qi.val, pt0_lt qi⟩ kk d).trans (congrFun (entry_wq m ρ c) (ix2 kk d))
  have e2 : (iblk1 (Whole.V3 m ρ) c 2 ⟨8 * qi.val, pt0_lt qi⟩ : Vec Ideal S1x1024 .f32) (ix2 (0 : Fin 1) kk) = aBq m c (ix1 kk) :=
    (iblk1_whole_2 (Whole.V3 m ρ) c ⟨8 * qi.val, pt0_lt qi⟩ kk).trans (entry_bq m ρ c kk)
  exact congrArg (fun z : EReal => z * Ideal.ofBits .f32 0x3D000000#32)
    (congrArg₂ (fun u v : EReal => u + v)
      (Finset.sum_congr rfl fun d _ => congrArg₂ (fun u v : EReal => u * v) (e0 d) (e1 d)) e2)

/-- Key row `j` of the tile staged at step `b` of query tile `qi`: row j + 1024·b of kx·Wkᵀ + bk. -/
theorem kT_apply (qi : Fin 16) (b : Fin 8) (j kk : Fin 1024) :
    (iblk1 (Whole.V3 m ρ) c 3 ⟨8 * qi.val + b.val, pt_lt qi b.val b.isLt⟩ : Vec Ideal S1024x1024 .bf16) (ix2 j kk)
      = lin (aK m c) (aWk m c) (aBk m c) (gi b j) kk :=
  (iblk1_rows_3 (Whole.V3 m ρ) c ⟨8 * qi.val + b.val, pt_lt qi b.val b.isLt⟩ j kk (gi b j)
      (by have := b.isLt; show (gi b j).val = (8 * qi.val + b.val) % 8 * 1024 + j.val; rw [gi_val]; omega)).trans
    (entry_K m ρ c (gi b j) kk)

/-- Value row `j` of the tile staged at step `b`, at column `k`: row j + 1024·b of vx·Wvᵀ + bv. -/
theorem vT_apply (qi : Fin 16) (k : Fin 1024) (b : Fin 8) (j : Fin 1024) :
    (iblk1 (Whole.V3 m ρ) c 4 ⟨8 * qi.val + b.val, pt_lt qi b.val b.isLt⟩ : Vec Ideal S1024x1024 .bf16) (ix2 j k)
      = lin (aV m c) (aWv m c) (aBv m c) (gi b j) k :=
  (iblk1_rows_4 (Whole.V3 m ρ) c ⟨8 * qi.val + b.val, pt_lt qi b.val b.isLt⟩ j k (gi b j)
      (by have := b.isLt; show (gi b j).val = (8 * qi.val + b.val) % 8 * 1024 + j.val; rw [gi_val]; omega)).trans
    (entry_V m ρ c (gi b j) k)

/-- The scores of query row r of tile qi, tile by tile, over the launched arrays. -/
theorem sT_fun (qi : Fin 16) (r : Fin 512) (p : Fin 8192) (hp : p.val = qi.val * 512 + r.val) :
    sT (Whole.V3 m ρ) c qi r = fun (b : Fin 8) (j : Fin 1024) => ∑ kk : Fin 1024,
      (lin (aQ m c) (aWq m c) (aBq m c) p kk * Ideal.ofBits .f32 0x3D000000#32) * lin (aK m c) (aWk m c) (aBk m c) (gi b j) kk :=
  funext fun b => funext fun j =>
    show (∑ kk : Fin 1024, qT (Whole.V3 m ρ) c qi (ix2 r kk)
        * (iblk1 (Whole.V3 m ρ) c 3 ⟨8 * qi.val + b.val, pt_lt qi b.val b.isLt⟩ : Vec Ideal S1024x1024 .bf16) (ix2 j kk)) = _ from
      Finset.sum_congr rfl fun kk _ =>
        congrArg₂ (fun u v : EReal => u * v) (qT_apply m ρ c qi r kk p hp) (kT_apply m ρ c qi b j kk)

/-- Column k of the value tiles, tile by tile, over the launched arrays. -/
theorem vT_fun (qi : Fin 16) (k : Fin 1024) :
    vT (Whole.V3 m ρ) c qi k = fun (b : Fin 8) (j : Fin 1024) => lin (aV m c) (aWv m c) (aBv m c) (gi b j) k :=
  funext fun b => funext fun j => vT_apply m ρ c qi k b j

/-- What the last step of query tile `qi` stored at (r, k) is the reference's result at row p = 512·qi + r, column k. -/
theorem row_value (qi : Fin 16) (r : Fin 512) (k : Fin 1024) (p : Fin 8192) (hp : p.val = qi.val * 512 + r.val)
    (h0 : ∀ i, ∃ r : ℝ, aQ m c i = (r : EReal)) (h1 : ∀ i, ∃ r : ℝ, aK m c i = (r : EReal)) (h2 : ∀ i, ∃ r : ℝ, aV m c i = (r : EReal)) (h3 : ∀ i, ∃ r : ℝ, aWq m c i = (r : EReal)) (h4 : ∀ i, ∃ r : ℝ, aBq m c i = (r : EReal)) (h5 : ∀ i, ∃ r : ℝ, aWk m c i = (r : EReal)) (h6 : ∀ i, ∃ r : ℝ, aBk m c i = (r : EReal)) (h7 : ∀ i, ∃ r : ℝ, aWv m c i = (r : EReal)) (h8 : ∀ i, ∃ r : ℝ, aBv m c i = (r : EReal)) :
    (outsAt1 (Whole.V3 m ρ) c (8 * qi.val + 7) (pt_lt qi 7 (by omega))).1 (ix2 r k)
      = refOut (aQ m c) (aK m c) (aV m c) (aWq m c) (aBq m c) (aWk m c) (aBk m c) (aWv m c) (aBv m c) p k := by
  rw [out_eq (Whole.V3 m ρ) c qi r k, sT_fun m ρ c qi r p hp, vT_fun m ρ c qi k]
  exact core (aQ m c) (aK m c) (aV m c) (aWq m c) (aBq m c) (aWk m c) (aBk m c) (aWv m c) (aBv m c) h0 h1 h2 h3 h4 h5 h6 h7 h8 p k

/-- The attention call's result array, whole: the reference's softmax attention of the launched arguments. -/
theorem kernel_value [Cert.Pre_finite_inputs.Facts]
    (hfin : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) = fun _ => 1#1) :
    (dat1 (F := Ideal) (Whole.V3 m ρ) c).arrAt 5 cfg1.N
      = fun i => refOut (aQ m c) (aK m c) (aV m c) (aWq m c) (aBq m c) (aWk m c) (aBk m c) (aWv m c) (aBv m c) (i 0) (i 1) := by
  obtain ⟨h0, h1, h2, h3, h4, h5, h6, h7, h8⟩ := Cert.FiniteArgs.all_real _ _ _ _ _ _ _ _ _ hfin
  funext i
  obtain ⟨p, k, rfl⟩ : ∃ (p : Fin 8192) (k : Fin 1024), i = ix2 p k := ⟨i 0, i 1, eq_ix2 i⟩
  show _ = refOut (aQ m c) (aK m c) (aV m c) (aWq m c) (aBq m c) (aWk m c) (aBk m c) (aWv m c) (aBv m c) p k
  have hp8 : p.val < 8192 := p.isLt
  have hq : p.val / 512 < 16 := by omega
  have hr : p.val % 512 < 512 := Nat.mod_lt _ (by decide)
  refine (arr1_5 (Whole.V3 m ρ) c p k).trans ?_
  exact row_value m ρ c ⟨p.val / 512, hq⟩ ⟨p.val % 512, hr⟩ k p
    (by show p.val = p.val / 512 * 512 + p.val % 512; omega) h0 h1 h2 h3 h4 h5 h6 h7 h8

end Cert.KernelIdeal.Final

end
-- ==== Proof.lean ====
/-
  The certificate: a fused attention kernel against plain softmax attention, equal as extended reals.

  The kernel program makes two calls. The first projects the keys and the values, K = key · Wkᵀ + bk and
  V = value · Wvᵀ + bv, 512 rows at a time. The second walks a 16 × 8 grid: for each tile of 512 query rows it projects
  the queries once, scaled by 1/32, and then meets the eight key/value tiles of 1024 rows in turn, keeping for every
  query row a running maximum m of its scores, a running denominator l = Σ exp(s − m) and a running numerator
  acc = Σ exp(s − m) · v; when the maximum grows both sums are rescaled by exp(m_old − m_new). At the eighth tile it
  stores acc / l. The reference projects all three inputs, divides the scores Q · Kᵀ by √1024, subtracts each row's
  maximum, exponentiates, divides by the row sum and multiplies by V.

  On finite inputs every score is a real number, 1/32 is exactly 1/√1024, and the blocked recurrence telescopes:
  after the tiles seen so far m is their maximum and l, acc are the sums of exp(s − m) and exp(s − m) · v over them, so
  at the end acc / l is Σ (exp(s − M) / Σ exp(s − M)) · v with M the row's maximum over all 8192 keys — the reference's
  value, the 8192 keys regrouped as 8 tiles of 1024.

  The frames (each program runs to the end, faults nowhere, and leaves its arguments as launched) come from running the
  two calls' bodies point by point; the idealization claim has no entry.
-/
import proofs.«110939_j30666066494217_2_alg».proof.Defs
import proofs.«110939_j30666066494217_2_alg».proof.Proof.Gen.Kernel
import proofs.«110939_j30666066494217_2_alg».proof.Proof.Gen.KernelIdeal
import proofs.«110939_j30666066494217_2_alg».proof.Proof.Gen.ReferenceIdeal
import proofs.«110939_j30666066494217_2_alg».proof.Proof.Gen.Pre_finite_inputs
import proofs.«110939_j30666066494217_2_alg».proof.Proof.Gen.ReferenceIdeal.Run
import proofs.«110939_j30666066494217_2_alg».proof.Proof.Gen.ReferenceIdeal.Read
import proofs.«110939_j30666066494217_2_alg».proof.Proof.Frames
import proofs.«110939_j30666066494217_2_alg».proof.Proof.KI.Entry
import proofs.«110939_j30666066494217_2_alg».proof.Proof.KI.Final
import proofs.«110939_j30666066494217_2_alg».proof.Proof.RefRead

noncomputable section

namespace Cert.Proof

open Idealize.ShloMosaic Idealize.ShloMosaic.TcCoe Idealize.SL.Sem
open Cert.KernelIdeal Cert.KernelIdeal.Gen Cert.KernelIdeal.Gen.Whole Cert.KernelIdeal.Entry

/-- From memories agreeing on the arguments both idealized programs run to the end with the same result: the kernel
    program's result array is what its attention call's write-backs leave, which on finite inputs is the reference's
    softmax attention of the launched arrays; the reference's result is that same function of its own arguments. -/
theorem algebraic : Cert.algebraic_KernelIdeal_ReferenceIdeal := by
  intro m ρ m' ρ' hpre hagree
  refine ⟨fun c => fun i => Cert.RefRead.refOut (aQ m c) (aK m c) (aV m c) (aWq m c) (aBq m c) (aWk m c) (aBk m c) (aWv m c) (aBv m c) (i 0) (i 1), ?_, ?_⟩
  · refine (θ_run Cert.KernelIdeal.defs _ _).mono (fun r h c => ⟨?_, (h c _ (mem_uc main_arg0 (by decide))).trans (W4_main_arg0 m ρ c), (h c _ (mem_uc main_arg1 (by decide))).trans (W4_main_arg1 m ρ c), (h c _ (mem_uc main_arg2 (by decide))).trans (W4_main_arg2 m ρ c), (h c _ (mem_uc main_arg3 (by decide))).trans (W4_main_arg3 m ρ c), (h c _ (mem_uc main_arg4 (by decide))).trans (W4_main_arg4 m ρ c), (h c _ (mem_uc main_arg5 (by decide))).trans (W4_main_arg5 m ρ c), (h c _ (mem_uc main_arg6 (by decide))).trans (W4_main_arg6 m ρ c), (h c _ (mem_uc main_arg7 (by decide))).trans (W4_main_arg7 m ρ c), (h c _ (mem_uc main_arg8 (by decide))).trans (W4_main_arg8 m ρ c)⟩) (run_all (F := Ideal) m ρ)
    exact ((h c _ (mem_uc main_v7 (by decide))).trans (W4_main_v7 m ρ c)).trans (Cert.KernelIdeal.Final.kernel_value m ρ c (hpre c))
  · refine (θ_run Cert.ReferenceIdeal.defs _ _).mono (fun r h c => ⟨(h c).1.trans ?_, (h c).2⟩) (Cert.ReferenceIdeal.Value.run (F := Ideal) m' ρ')
    rw [Cert.RefRead.res_eq m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    rfl

theorem claim : Cert.Claim := ⟨Cert.Kernel.Gen.facts, Cert.KernelIdeal.Gen.facts, Cert.ReferenceIdeal.Gen.facts, Cert.Pre_finite_inputs.Gen.facts,
  Frames.frame_k, Frames.frame_ki, Frames.frame_ri, Frames.preserves, algebraic⟩

end Cert.Proof

end
